-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S128x4 : Shape := ⟨2, ![128, 4]⟩
abbrev S132x4 : Shape := ⟨2, ![132, 4]⟩
abbrev S136x4 : Shape := ⟨2, ![136, 4]⟩
abbrev S140x4 : Shape := ⟨2, ![140, 4]⟩
abbrev S144x4 : Shape := ⟨2, ![144, 4]⟩
abbrev S148x4 : Shape := ⟨2, ![148, 4]⟩
abbrev S152x4 : Shape := ⟨2, ![152, 4]⟩
abbrev S156x4 : Shape := ⟨2, ![156, 4]⟩
abbrev S160x4 : Shape := ⟨2, ![160, 4]⟩
abbrev S164x4 : Shape := ⟨2, ![164, 4]⟩
abbrev S168x4 : Shape := ⟨2, ![168, 4]⟩
abbrev S172x4 : Shape := ⟨2, ![172, 4]⟩
abbrev S12x4 : Shape := ⟨2, ![12, 4]⟩
abbrev S176x2 : Shape := ⟨2, ![176, 2]⟩
abbrev S2 : Shape := ⟨1, ![2]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S132x4 : S_.BroadcastsInDim S132x4 (![] : Fin 0 → Fin S132x4.rank)
  reducesTo_S132x4_S_d0_1 : S132x4.ReducesTo [0, 1] S_
  bcast_S_S136x4 : S_.BroadcastsInDim S136x4 (![] : Fin 0 → Fin S136x4.rank)
  reducesTo_S136x4_S_d0_1 : S136x4.ReducesTo [0, 1] S_
  bcast_S_S140x4 : S_.BroadcastsInDim S140x4 (![] : Fin 0 → Fin S140x4.rank)
  reducesTo_S140x4_S_d0_1 : S140x4.ReducesTo [0, 1] S_
  bcast_S_S144x4 : S_.BroadcastsInDim S144x4 (![] : Fin 0 → Fin S144x4.rank)
  reducesTo_S144x4_S_d0_1 : S144x4.ReducesTo [0, 1] S_
  bcast_S_S148x4 : S_.BroadcastsInDim S148x4 (![] : Fin 0 → Fin S148x4.rank)
  reducesTo_S148x4_S_d0_1 : S148x4.ReducesTo [0, 1] S_
  bcast_S_S152x4 : S_.BroadcastsInDim S152x4 (![] : Fin 0 → Fin S152x4.rank)
  reducesTo_S152x4_S_d0_1 : S152x4.ReducesTo [0, 1] S_
  bcast_S_S156x4 : S_.BroadcastsInDim S156x4 (![] : Fin 0 → Fin S156x4.rank)
  reducesTo_S156x4_S_d0_1 : S156x4.ReducesTo [0, 1] S_
  bcast_S_S160x4 : S_.BroadcastsInDim S160x4 (![] : Fin 0 → Fin S160x4.rank)
  reducesTo_S160x4_S_d0_1 : S160x4.ReducesTo [0, 1] S_
  bcast_S_S164x4 : S_.BroadcastsInDim S164x4 (![] : Fin 0 → Fin S164x4.rank)
  reducesTo_S164x4_S_d0_1 : S164x4.ReducesTo [0, 1] S_
  bcast_S_S168x4 : S_.BroadcastsInDim S168x4 (![] : Fin 0 → Fin S168x4.rank)
  reducesTo_S168x4_S_d0_1 : S168x4.ReducesTo [0, 1] S_
  bcast_S_S172x4 : S_.BroadcastsInDim S172x4 (![] : Fin 0 → Fin S172x4.rank)
  reducesTo_S172x4_S_d0_1 : S172x4.ReducesTo [0, 1] S_
  bcast_S_S12x4 : S_.BroadcastsInDim S12x4 (![] : Fin 0 → Fin S12x4.rank)
  reducesTo_S12x4_S_d0_1 : S12x4.ReducesTo [0, 1] S_
  bcast_S_S176x2 : S_.BroadcastsInDim S176x2 (![] : Fin 0 → Fin S176x2.rank)
  reducesTo_S176x2_S_d0_1 : S176x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg18 : FVec F S2 .f32) (main_v83 : IVec S_ 1) (main_v84 : FVec F S176x2 .f32) (main_cst_32 : FVec F S_ .f32) : IVec S_ 1 :=
  let main_v85 : FVec F S176x2 .f32 := broadcastInDim S176x2 ![] bcast_S_S176x2 main_cst_32
  let main_v86 : IVec S176x2 1 := cmpf .olt main_v84 main_v85
  let main_c_33 : IVec S_ 1 := constantI S_ 1 1#1
  let main_v87 : IVec S_ 1 := (fun x v => Host.reduce IntOp.andi x v reducesTo_S176x2_S_d0_1 h_S_) main_v86 main_c_33
  let main_v88 : IVec S_ 1 := andi main_v83 main_v87
  let main_v89 : FVec F S2 .f32 := Host.absf main_arg18
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  main_v93

def fn_part4 {F : FTy → Type} [FloatOps F] (main_arg14 : FVec F S12x4 .f32) (main_arg15 : FVec F S12x4 .f32) (main_arg16 : FVec F S12x4 .f32) (main_arg17 : FVec F S176x2 .f32) (main_arg18 : FVec F S2 .f32) (main_v63 : IVec S_ 1) (main_v67 : IVec S_ 1) : IVec S_ 1 :=
  let main_v68 : IVec S_ 1 := andi main_v63 main_v67
  let main_v69 : FVec F S12x4 .f32 := Host.absf main_arg14
  let main_cst_26 : FVec F S_ .f32 := constant S_ .f32 0x7F800000#32
  let main_v70 : FVec F S12x4 .f32 := broadcastInDim S12x4 ![] bcast_S_S12x4 main_cst_26
  let main_v71 : IVec S12x4 1 := cmpf .olt main_v69 main_v70
  let main_c_27 : IVec S_ 1 := constantI S_ 1 1#1
  let main_v72 : IVec S_ 1 := (fun x v => Host.reduce IntOp.andi x v reducesTo_S12x4_S_d0_1 h_S_) main_v71 main_c_27
  let main_v73 : IVec S_ 1 := andi main_v68 main_v72
  let main_v74 : FVec F S12x4 .f32 := Host.absf main_arg15
  let main_cst_28 : FVec F S_ .f32 := constant S_ .f32 0x7F800000#32
  let main_v75 : FVec F S12x4 .f32 := broadcastInDim S12x4 ![] bcast_S_S12x4 main_cst_28
  let main_v76 : IVec S12x4 1 := cmpf .olt main_v74 main_v75
  let main_c_29 : IVec S_ 1 := constantI S_ 1 1#1
  let main_v77 : IVec S_ 1 := (fun x v => Host.reduce IntOp.andi x v reducesTo_S12x4_S_d0_1 h_S_) main_v76 main_c_29
  let main_v78 : IVec S_ 1 := andi main_v73 main_v77
  let main_v79 : FVec F S12x4 .f32 := Host.absf main_arg16
  let main_cst_30 : FVec F S_ .f32 := constant S_ .f32 0x7F800000#32
  let main_v80 : FVec F S12x4 .f32 := broadcastInDim S12x4 ![] bcast_S_S12x4 main_cst_30
  let main_v81 : IVec S12x4 1 := cmpf .olt main_v79 main_v80
  let main_c_31 : IVec S_ 1 := constantI S_ 1 1#1
  let main_v82 : IVec S_ 1 := (fun x v => Host.reduce IntOp.andi x v reducesTo_S12x4_S_d0_1 h_S_) main_v81 main_c_31
  let main_v83 : IVec S_ 1 := andi main_v78 main_v82
  let main_v84 : FVec F S176x2 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S168x4 .f32) (main_arg12 : FVec F S172x4 .f32) (main_arg13 : FVec F S12x4 .f32) (main_arg14 : FVec F S12x4 .f32) (main_arg15 : FVec F S12x4 .f32) (main_arg16 : FVec F S12x4 .f32) (main_arg17 : FVec F S176x2 .f32) (main_arg18 : FVec F S2 .f32) (main_v48 : IVec S_ 1) (main_v49 : FVec F S164x4 .f32) (main_v50 : FVec F S164x4 .f32) : IVec S_ 1 :=
  let main_v51 : IVec S164x4 1 := cmpf .olt main_v49 main_v50
  let main_c_19 : IVec S_ 1 := constantI S_ 1 1#1
  let main_v52 : IVec S_ 1 := (fun x v => Host.reduce IntOp.andi x v reducesTo_S164x4_S_d0_1 h_S_) main_v51 main_c_19
  let main_v53 : IVec S_ 1 := andi main_v48 main_v52
  let main_v54 : FVec F S168x4 .f32 := Host.absf main_arg11
  let main_cst_20 : FVec F S_ .f32 := constant S_ .f32 0x7F800000#32
  let main_v55 : FVec F S168x4 .f32 := broadcastInDim S168x4 ![] bcast_S_S168x4 main_cst_20
  let main_v56 : IVec S168x4 1 := cmpf .olt main_v54 main_v55
  let main_c_21 : IVec S_ 1 := constantI S_ 1 1#1
  let main_v57 : IVec S_ 1 := (fun x v => Host.reduce IntOp.andi x v reducesTo_S168x4_S_d0_1 h_S_) main_v56 main_c_21
  let main_v58 : IVec S_ 1 := andi main_v53 main_v57
  let main_v59 : FVec F S172x4 .f32 := Host.absf main_arg12
  let main_cst_22 : FVec F S_ .f32 := constant S_ .f32 0x7F800000#32
  let main_v60 : FVec F S172x4 .f32 := broadcastInDim S172x4 ![] bcast_S_S172x4 main_cst_22
  let main_v61 : IVec S172x4 1 := cmpf .olt main_v59 main_v60
  let main_c_23 : IVec S_ 1 := constantI S_ 1 1#1
  let main_v62 : IVec S_ 1 := (fun x v => Host.reduce IntOp.andi x v reducesTo_S172x4_S_d0_1 h_S_) main_v61 main_c_23
  let main_v63 : IVec S_ 1 := andi main_v58 main_v62
  let main_v64 : FVec F S12x4 .f32 := Host.absf main_arg13
  let main_cst_24 : FVec F S_ .f32 := constant S_ .f32 0x7F800000#32
  let main_v65 : FVec F S12x4 .f32 := broadcastInDim S12x4 ![] bcast_S_S12x4 main_cst_24
  let main_v66 : IVec S12x4 1 := cmpf .olt main_v64 main_v65
  let main_c_25 : IVec S_ 1 := constantI S_ 1 1#1
  let main_v67 : IVec S_ 1 := (fun x v => Host.reduce IntOp.andi x v reducesTo_S12x4_S_d0_1 h_S_) main_v66 main_c_25
  fn_part4 (F := F) main_arg14 main_arg15 main_arg16 main_arg17 main_arg18 main_v63 main_v67

def fn_part2 {F : FTy → Type} [FloatOps F] (main_arg7 : FVec F S152x4 .f32) (main_arg8 : FVec F S156x4 .f32) (main_arg9 : FVec F S160x4 .f32) (main_arg10 : FVec F S164x4 .f32) (main_arg11 : FVec F S168x4 .f32) (main_arg12 : FVec F S172x4 .f32) (main_arg13 : FVec F S12x4 .f32) (main_arg14 : FVec F S12x4 .f32) (main_arg15 : FVec F S12x4 .f32) (main_arg16 : FVec F S12x4 .f32) (main_arg17 : FVec F S176x2 .f32) (main_arg18 : FVec F S2 .f32) (main_v33 : IVec S_ 1) : IVec S_ 1 :=
  let main_v34 : FVec F S152x4 .f32 := Host.absf main_arg7
  let main_cst_12 : FVec F S_ .f32 := constant S_ .f32 0x7F800000#32
  let main_v35 : FVec F S152x4 .f32 := broadcastInDim S152x4 ![] bcast_S_S152x4 main_cst_12
  let main_v36 : IVec S152x4 1 := cmpf .olt main_v34 main_v35
  let main_c_13 : IVec S_ 1 := constantI S_ 1 1#1
  let main_v37 : IVec S_ 1 := (fun x v => Host.reduce IntOp.andi x v reducesTo_S152x4_S_d0_1 h_S_) main_v36 main_c_13
  let main_v38 : IVec S_ 1 := andi main_v33 main_v37
  let main_v39 : FVec F S156x4 .f32 := Host.absf main_arg8
  let main_cst_14 : FVec F S_ .f32 := constant S_ .f32 0x7F800000#32
  let main_v40 : FVec F S156x4 .f32 := broadcastInDim S156x4 ![] bcast_S_S156x4 main_cst_14
  let main_v41 : IVec S156x4 1 := cmpf .olt main_v39 main_v40
  let main_c_15 : IVec S_ 1 := constantI S_ 1 1#1
  let main_v42 : IVec S_ 1 := (fun x v => Host.reduce IntOp.andi x v reducesTo_S156x4_S_d0_1 h_S_) main_v41 main_c_15
  let main_v43 : IVec S_ 1 := andi main_v38 main_v42
  let main_v44 : FVec F S160x4 .f32 := Host.absf main_arg9
  let main_cst_16 : FVec F S_ .f32 := constant S_ .f32 0x7F800000#32
  let main_v45 : FVec F S160x4 .f32 := broadcastInDim S160x4 ![] bcast_S_S160x4 main_cst_16
  let main_v46 : IVec S160x4 1 := cmpf .olt main_v44 main_v45
  let main_c_17 : IVec S_ 1 := constantI S_ 1 1#1
  let main_v47 : IVec S_ 1 := (fun x v => Host.reduce IntOp.andi x v reducesTo_S160x4_S_d0_1 h_S_) main_v46 main_c_17
  let main_v48 : IVec S_ 1 := andi main_v43 main_v47
  let main_v49 : FVec F S164x4 .f32 := Host.absf main_arg10
  let main_cst_18 : FVec F S_ .f32 := constant S_ .f32 0x7F800000#32
  let main_v50 : FVec F S164x4 .f32 := broadcastInDim S164x4 ![] bcast_S_S164x4 main_cst_18
  fn_part3 (F := F) main_arg11 main_arg12 main_arg13 main_arg14 main_arg15 main_arg16 main_arg17 main_arg18 main_v48 main_v49 main_v50

def fn_part1 {F : FTy → Type} [FloatOps F] (main_arg4 : FVec F S140x4 .f32) (main_arg5 : FVec F S144x4 .f32) (main_arg6 : FVec F S148x4 .f32) (main_arg7 : FVec F S152x4 .f32) (main_arg8 : FVec F S156x4 .f32) (main_arg9 : FVec F S160x4 .f32) (main_arg10 : FVec F S164x4 .f32) (main_arg11 : FVec F S168x4 .f32) (main_arg12 : FVec F S172x4 .f32) (main_arg13 : FVec F S12x4 .f32) (main_arg14 : FVec F S12x4 .f32) (main_arg15 : FVec F S12x4 .f32) (main_arg16 : FVec F S12x4 .f32) (main_arg17 : FVec F S176x2 .f32) (main_arg18 : FVec F S2 .f32) (main_v13 : IVec S_ 1) (main_v16 : IVec S136x4 1) : IVec S_ 1 :=
  let main_c_5 : IVec S_ 1 := constantI S_ 1 1#1
  let main_v17 : IVec S_ 1 := (fun x v => Host.reduce IntOp.andi x v reducesTo_S136x4_S_d0_1 h_S_) main_v16 main_c_5
  let main_v18 : IVec S_ 1 := andi main_v13 main_v17
  let main_v19 : FVec F S140x4 .f32 := Host.absf main_arg4
  let main_cst_6 : FVec F S_ .f32 := constant S_ .f32 0x7F800000#32
  let main_v20 : FVec F S140x4 .f32 := broadcastInDim S140x4 ![] bcast_S_S140x4 main_cst_6
  let main_v21 : IVec S140x4 1 := cmpf .olt main_v19 main_v20
  let main_c_7 : IVec S_ 1 := constantI S_ 1 1#1
  let main_v22 : IVec S_ 1 := (fun x v => Host.reduce IntOp.andi x v reducesTo_S140x4_S_d0_1 h_S_) main_v21 main_c_7
  let main_v23 : IVec S_ 1 := andi main_v18 main_v22
  let main_v24 : FVec F S144x4 .f32 := Host.absf main_arg5
  let main_cst_8 : FVec F S_ .f32 := constant S_ .f32 0x7F800000#32
  let main_v25 : FVec F S144x4 .f32 := broadcastInDim S144x4 ![] bcast_S_S144x4 main_cst_8
  let main_v26 : IVec S144x4 1 := cmpf .olt main_v24 main_v25
  let main_c_9 : IVec S_ 1 := constantI S_ 1 1#1
  let main_v27 : IVec S_ 1 := (fun x v => Host.reduce IntOp.andi x v reducesTo_S144x4_S_d0_1 h_S_) main_v26 main_c_9
  let main_v28 : IVec S_ 1 := andi main_v23 main_v27
  let main_v29 : FVec F S148x4 .f32 := Host.absf main_arg6
  let main_cst_10 : FVec F S_ .f32 := constant S_ .f32 0x7F800000#32
  let main_v30 : FVec F S148x4 .f32 := broadcastInDim S148x4 ![] bcast_S_S148x4 main_cst_10
  let main_v31 : IVec S148x4 1 := cmpf .olt main_v29 main_v30
  let main_c_11 : IVec S_ 1 := constantI S_ 1 1#1
  let main_v32 : IVec S_ 1 := (fun x v => Host.reduce IntOp.andi x v reducesTo_S148x4_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S500000x128 .f32) (main_arg1 : FVec F S128x4 .f32) (main_arg2 : FVec F S132x4 .f32) (main_arg3 : FVec F S136x4 .f32) (main_arg4 : FVec F S140x4 .f32) (main_arg5 : FVec F S144x4 .f32) (main_arg6 : FVec F S148x4 .f32) (main_arg7 : FVec F S152x4 .f32) (main_arg8 : FVec F S156x4 .f32) (main_arg9 : FVec F S160x4 .f32) (main_arg10 : FVec F S164x4 .f32) (main_arg11 : FVec F S168x4 .f32) (main_arg12 : FVec F S172x4 .f32) (main_arg13 : FVec F S12x4 .f32) (main_arg14 : FVec F S12x4 .f32) (main_arg15 : FVec F S12x4 .f32) (main_arg16 : FVec F S12x4 .f32) (main_arg17 : FVec F S176x2 .f32) (main_arg18 : FVec F S2 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x4 .f32 := Host.absf main_arg1
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S132x4 .f32 := Host.absf main_arg2
  let main_cst_2 : FVec F S_ .f32 := constant S_ .f32 0x7F800000#32
  let main_v10 : FVec F S132x4 .f32 := broadcastInDim S132x4 ![] bcast_S_S132x4 main_cst_2
  let main_v11 : IVec S132x4 1 := cmpf .olt main_v9 main_v10
  let main_c_3 : IVec S_ 1 := constantI S_ 1 1#1
  let main_v12 : IVec S_ 1 := (fun x v => Host.reduce IntOp.andi x v reducesTo_S132x4_S_d0_1 h_S_) main_v11 main_c_3
  let main_v13 : IVec S_ 1 := andi main_v8 main_v12
  let main_v14 : FVec F S136x4 .f32 := Host.absf main_arg3
  let main_cst_4 : FVec F S_ .f32 := constant S_ .f32 0x7F800000#32
  let main_v15 : FVec F S136x4 .f32 := broadcastInDim S136x4 ![] bcast_S_S136x4 main_cst_4
  let main_v16 : IVec S136x4 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S500000x128 : Shape := ⟨2, ![500000, 128]⟩
abbrev S128x4 : Shape := ⟨2, ![128, 4]⟩
abbrev S132x4 : Shape := ⟨2, ![132, 4]⟩
abbrev S136x4 : Shape := ⟨2, ![136, 4]⟩
abbrev S140x4 : Shape := ⟨2, ![140, 4]⟩
abbrev S144x4 : Shape := ⟨2, ![144, 4]⟩
abbrev S148x4 : Shape := ⟨2, ![148, 4]⟩
abbrev S152x4 : Shape := ⟨2, ![152, 4]⟩
abbrev S156x4 : Shape := ⟨2, ![156, 4]⟩
abbrev S160x4 : Shape := ⟨2, ![160, 4]⟩
abbrev S164x4 : Shape := ⟨2, ![164, 4]⟩
abbrev S168x4 : Shape := ⟨2, ![168, 4]⟩
abbrev S172x4 : Shape := ⟨2, ![172, 4]⟩
abbrev S12x4 : Shape := ⟨2, ![12, 4]⟩
abbrev S176x2 : Shape := ⟨2, ![176, 2]⟩
abbrev S2 : Shape := ⟨1, ![2]⟩
abbrev S_ : Shape := ⟨0, ![]⟩
abbrev S176x4 : Shape := ⟨2, ![176, 4]⟩
abbrev S1x176x4 : Shape := ⟨3, ![1, 176, 4]⟩
abbrev S12x176x4 : Shape := ⟨3, ![12, 176, 4]⟩
abbrev S500000x2 : Shape := ⟨2, ![500000, 2]⟩
abbrev S10000x128 : Shape := ⟨2, ![10000, 128]⟩
abbrev S10000x2 : Shape := ⟨2, ![10000, 2]⟩
abbrev S10000x176 : Shape := ⟨2, ![10000, 176]⟩
abbrev S10000x48 : Shape := ⟨2, ![10000, 48]⟩
abbrev S10000x4 : Shape := ⟨2, ![10000, 4]⟩
abbrev S1x4 : Shape := ⟨2, ![1, 4]⟩
abbrev S4 : Shape := ⟨1, ![4]⟩
abbrev S1x2 : Shape := ⟨2, ![1, 2]⟩
abbrev S10000 : Shape := ⟨1, ![10000]⟩
abbrev S10000x1 : Shape := ⟨2, ![10000, 1]⟩

abbrev nBuf : Space → Nat
  | .hbm => 82
  | .vmem => 12
  | .smem => 0
  | _ => 0

abbrev bufTy : (tb : Table) → Fin (tcTables nBuf tb) → BufTy
  | .hbm, ⟨0, _⟩ => ⟨S500000x128, .f32⟩
  | .hbm, ⟨1, _⟩ => ⟨S128x4, .f32⟩
  | .hbm, ⟨2, _⟩ => ⟨S132x4, .f32⟩
  | .hbm, ⟨3, _⟩ => ⟨S136x4, .f32⟩
  | .hbm, ⟨4, _⟩ => ⟨S140x4, .f32⟩
  | .hbm, ⟨5, _⟩ => ⟨S144x4, .f32⟩
  | .hbm, ⟨6, _⟩ => ⟨S148x4, .f32⟩
  | .hbm, ⟨7, _⟩ => ⟨S152x4, .f32⟩
  | .hbm, ⟨8, _⟩ => ⟨S156x4, .f32⟩
  | .hbm, ⟨9, _⟩ => ⟨S160x4, .f32⟩
  | .hbm, ⟨10, _⟩ => ⟨S164x4, .f32⟩
  | .hbm, ⟨11, _⟩ => ⟨S168x4, .f32⟩
  | .hbm, ⟨12, _⟩ => ⟨S172x4, .f32⟩
  | .hbm, ⟨13, _⟩ => ⟨S12x4, .f32⟩
  | .hbm, ⟨14, _⟩ => ⟨S12x4, .f32⟩
  | .hbm, ⟨15, _⟩ => ⟨S12x4, .f32⟩
  | .hbm, ⟨16, _⟩ => ⟨S12x4, .f32⟩
  | .hbm, ⟨17, _⟩ => ⟨S176x2, .f32⟩
  | .hbm, ⟨18, _⟩ => ⟨S2, .f32⟩
  | .hbm, ⟨19, _⟩ => ⟨S128x4, .bf16⟩
  | .hbm, ⟨20, _⟩ => ⟨S_, .i32⟩
  | .hbm, ⟨21, _⟩ => ⟨S_, .bf16⟩
  | .hbm, ⟨22, _⟩ => ⟨S176x4, .bf16⟩
  | .hbm, ⟨23, _⟩ => ⟨S132x4, .bf16⟩
  | .hbm, ⟨24, _⟩ => ⟨S_, .i32⟩
  | .hbm, ⟨25, _⟩ => ⟨S_, .bf16⟩
  | .hbm, ⟨26, _⟩ => ⟨S176x4, .bf16⟩
  | .hbm, ⟨27, _⟩ => ⟨S136x4, .bf16⟩
  | .hbm, ⟨28, _⟩ => ⟨S_, .i32⟩
  | .hbm, ⟨29, _⟩ => ⟨S_, .bf16⟩
  | .hbm, ⟨30, _⟩ => ⟨S176x4, .bf16⟩
  | .hbm, ⟨31, _⟩ => ⟨S140x4, .bf16⟩
  | .hbm, ⟨32, _⟩ => ⟨S_, .i32⟩
  | .hbm, ⟨33, _⟩ => ⟨S_, .bf16⟩
  | .hbm, ⟨34, _⟩ => ⟨S176x4, .bf16⟩
  | .hbm, ⟨35, _⟩ => ⟨S144x4, .bf16⟩
  | .hbm, ⟨36, _⟩ => ⟨S_, .i32⟩
  | .hbm, ⟨37, _⟩ => ⟨S_, .bf16⟩
  | .hbm, ⟨38, _⟩ => ⟨S176x4, .bf16⟩
  | .hbm, ⟨39, _⟩ => ⟨S148x4, .bf16⟩
  | .hbm, ⟨40, _⟩ => ⟨S_, .i32⟩
  | .hbm, ⟨41, _⟩ => ⟨S_, .bf16⟩
  | .hbm, ⟨42, _⟩ => ⟨S176x4, .bf16⟩
  | .hbm, ⟨43, _⟩ => ⟨S152x4, .bf16⟩
  | .hbm, ⟨44, _⟩ => ⟨S_, .i32⟩
  | .hbm, ⟨45, _⟩ => ⟨S_, .bf16⟩
  | .hbm, ⟨46, _⟩ => ⟨S176x4, .bf16⟩
  | .hbm, ⟨47, _⟩ => ⟨S156x4, .bf16⟩
  | .hbm, ⟨48, _⟩ => ⟨S_, .i32⟩
  | .hbm, ⟨49, _⟩ => ⟨S_, .bf16⟩
  | .hbm, ⟨50, _⟩ => ⟨S176x4, .bf16⟩
  | .hbm, ⟨51, _⟩ => ⟨S160x4, .bf16⟩
  | .hbm, ⟨52, _⟩ => ⟨S_, .i32⟩
  | .hbm, ⟨53, _⟩ => ⟨S_, .bf16⟩
  | .hbm, ⟨54, _⟩ => ⟨S176x4, .bf16⟩
  | .hbm, ⟨55, _⟩ => ⟨S164x4, .bf16⟩
  | .hbm, ⟨56, _⟩ => ⟨S_, .i32⟩
  | .hbm, ⟨57, _⟩ => ⟨S_, .bf16⟩
  | .hbm, ⟨58, _⟩ => ⟨S176x4, .bf16⟩
  | .hbm, ⟨59, _⟩ => ⟨S168x4, .bf16⟩
  | .hbm, ⟨60, _⟩ => ⟨S_, .i32⟩
  | .hbm, ⟨61, _⟩ => ⟨S_, .bf16⟩
  | .hbm, ⟨62, _⟩ => ⟨S176x4, .bf16⟩
  | .hbm, ⟨63, _⟩ => ⟨S172x4, .bf16⟩
  | .hbm, ⟨64, _⟩ => ⟨S_, .i32⟩
  | .hbm, ⟨65, _⟩ => ⟨S_, .bf16⟩
  | .hbm, ⟨66, _⟩ => ⟨S176x4, .bf16⟩
  | .hbm, ⟨67, _⟩ => ⟨S1x176x4, .bf16⟩
  | .hbm, ⟨68, _⟩ => ⟨S1x176x4, .bf16⟩
  | .hbm, ⟨69, _⟩ => ⟨S1x176x4, .bf16⟩
  | .hbm, ⟨70, _⟩ => ⟨S1x176x4, .bf16⟩
  | .hbm, ⟨71, _⟩ => ⟨S1x176x4, .bf16⟩
  | .hbm, ⟨72, _⟩ => ⟨S1x176x4, .bf16⟩
  | .hbm, ⟨73, _⟩ => ⟨S1x176x4, .bf16⟩
  | .hbm, ⟨74, _⟩ => ⟨S1x176x4, .bf16⟩
  | .hbm, ⟨75, _⟩ => ⟨S1x176x4, .bf16⟩
  | .hbm, ⟨76, _⟩ => ⟨S1x176x4, .bf16⟩
  | .hbm, ⟨77, _⟩ => ⟨S1x176x4, .bf16⟩
  | .hbm, ⟨78, _⟩ => ⟨S1x176x4, .bf16⟩
  | .hbm, ⟨79, _⟩ => ⟨S12x176x4, .bf16⟩
  | .hbm, ⟨80, _⟩ => ⟨S176x2, .bf16⟩
  | .hbm, ⟨81, _⟩ => ⟨S500000x2, .f32⟩
  | .local _ .vmem, ⟨0, _⟩ => ⟨S10000x128, .f32⟩
  | .local _ .vmem, ⟨1, _⟩ => ⟨S10000x128, .f32⟩
  | .local _ .vmem, ⟨2, _⟩ => ⟨S12x176x4, .bf16⟩
  | .local _ .vmem, ⟨3, _⟩ => ⟨S12x4, .f32⟩
  | .local _ .vmem, ⟨4, _⟩ => ⟨S12x4, .f32⟩
  | .local _ .vmem, ⟨5, _⟩ => ⟨S12x4, .f32⟩
  | .local _ .vmem, ⟨6, _⟩ => ⟨S12x4, .f32⟩
  | .local _ .vmem, ⟨7, _⟩ => ⟨S176x2, .bf16⟩
  | .local _ .vmem, ⟨8, _⟩ => ⟨S2, .f32⟩
  | .local _ .vmem, ⟨9, _⟩ => ⟨S10000x2, .f32⟩
  | .local _ .vmem, ⟨10, _⟩ => ⟨S10000x2, .f32⟩
  | .local _ .vmem, ⟨11, _⟩ => ⟨S10000x176, .bf16⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_call0_v0 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_call2_v0 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call3_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_call4_v0 : Ref sig .tc := ⟨.hbm, 37, rfl⟩
abbrev main_v9 : Ref sig .tc := ⟨.hbm, 38, rfl⟩
abbrev main_v10 : Ref sig .tc := ⟨.hbm, 39, rfl⟩
abbrev main_c_4 : Ref sig .tc := ⟨.hbm, 40, rfl⟩
abbrev main_call5_v0 : Ref sig .tc := ⟨.hbm, 41, rfl⟩
abbrev main_v11 : Ref sig .tc := ⟨.hbm, 42, rfl⟩
abbrev main_v12 : Ref sig .tc := ⟨.hbm, 43, rfl⟩
abbrev main_c_5 : Ref sig .tc := ⟨.hbm, 44, rfl⟩
abbrev main_call6_v0 : Ref sig .tc := ⟨.hbm, 45, rfl⟩
abbrev main_v13 : Ref sig .tc := ⟨.hbm, 46, rfl⟩
abbrev main_v14 : Ref sig .tc := ⟨.hbm, 47, rfl⟩
abbrev main_c_6 : Ref sig .tc := ⟨.hbm, 48, rfl⟩
abbrev main_call7_v0 : Ref sig .tc := ⟨.hbm, 49, rfl⟩
abbrev main_v15 : Ref sig .tc := ⟨.hbm, 50, rfl⟩
abbrev main_v16 : Ref sig .tc := ⟨.hbm, 51, rfl⟩
abbrev main_c_7 : Ref sig .tc := ⟨.hbm, 52, rfl⟩
abbrev main_call8_v0 : Ref sig .tc := ⟨.hbm, 53, rfl⟩
abbrev main_v17 : Ref sig .tc := ⟨.hbm, 54, rfl⟩
abbrev main_v18 : Ref sig .tc := ⟨.hbm, 55, rfl⟩
abbrev main_c_8 : Ref sig .tc := ⟨.hbm, 56, rfl⟩
abbrev main_call9_v0 : Ref sig .tc := ⟨.hbm, 57, rfl⟩
abbrev main_v19 : Ref sig .tc := ⟨.hbm, 58, rfl⟩
abbrev main_v20 : Ref sig .tc := ⟨.hbm, 59, rfl⟩
abbrev main_c_9 : Ref sig .tc := ⟨.hbm, 60, rfl⟩
abbrev main_call10_v0 : Ref sig .tc := ⟨.hbm, 61, rfl⟩
abbrev main_v21 : Ref sig .tc := ⟨.hbm, 62, rfl⟩
abbrev main_v22 : Ref sig .tc := ⟨.hbm, 63, rfl⟩
abbrev main_c_10 : Ref sig .tc := ⟨.hbm, 64, rfl⟩
abbrev main_call11_v0 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x176x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S176x2 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  pads_S128x4_S176x4_4800_000 : S128x4.Pads (![48, 0] : Fin 2 → Nat) ![0, 0] ![0, 0] S176x4
  h_S_ : 0 < S_.numel
  pads_S132x4_S176x4_4400_000 : S132x4.Pads (![44, 0] : Fin 2 → Nat) ![0, 0] ![0, 0] S176x4
  pads_S136x4_S176x4_4000_000 : S136x4.Pads (![40, 0] : Fin 2 → Nat) ![0, 0] ![0, 0] S176x4
  pads_S140x4_S176x4_3600_000 : S140x4.Pads (![36, 0] : Fin 2 → Nat) ![0, 0] ![0, 0] S176x4
  pads_S144x4_S176x4_3200_000 : S144x4.Pads (![32, 0] : Fin 2 → Nat) ![0, 0] ![0, 0] S176x4
  pads_S148x4_S176x4_2800_000 : S148x4.Pads (![28, 0] : Fin 2 → Nat) ![0, 0] ![0, 0] S176x4
  pads_S152x4_S176x4_2400_000 : S152x4.Pads (![24, 0] : Fin 2 → Nat) ![0, 0] ![0, 0] S176x4
  pads_S156x4_S176x4_2000_000 : S156x4.Pads (![20, 0] : Fin 2 → Nat) ![0, 0] ![0, 0] S176x4
  pads_S160x4_S176x4_1600_000 : S160x4.Pads (![16, 0] : Fin 2 → Nat) ![0, 0] ![0, 0] S176x4
  pads_S164x4_S176x4_1200_000 : S164x4.Pads (![12, 0] : Fin 2 → Nat) ![0, 0] ![0, 0] S176x4
  pads_S168x4_S176x4_800_000 : S168x4.Pads (![8, 0] : Fin 2 → Nat) ![0, 0] ![0, 0] S176x4
  pads_S172x4_S176x4_400_000 : S172x4.Pads (![4, 0] : Fin 2 → Nat) ![0, 0] ![0, 0] S176x4
  bcast_S176x4_S1x176x4_1_2 : S176x4.BroadcastsInDim S1x176x4 (![1, 2] : Fin 2 → Fin S1x176x4.rank)
  concatenates_S1x176x4_S1x176x4_S1x176x4_S1x176x4_S1x176x4_S1x176x4_S1x176x4_S1x176x4_S1x176x4_S1x176x4_S1x176x4_S1x176x4_S12x176x4_d0 : Shape.Concatenates [S1x176x4, S1x176x4, S1x176x4, S1x176x4, S1x176x4, S1x176x4, S1x176x4, S1x176x4, S1x176x4, S1x176x4, S1x176x4, S1x176x4] S12x176x4 0
  inb_S10000x176_S10000x48_0_0 : ∀ a, (![0, 0] : Fin 2 → Nat) a + S10000x48.size a ≤ S10000x176.size a
  h_S10000x48 : 0 < S10000x48.numel
  shapeCasts_S10000x48_S10000x48 : S10000x48.ShapeCasts S10000x48
  packedbf16_S10000x176_S10000x48_0_0 : (Rect.unit (s := S10000x176) ![0, 0] S10000x48.size inb_S10000x176_S10000x48_0_0).PackedRows (EltTy.packing .bf16)
  inb_S10000x128_S10000x128_0_0 : ∀ a, (![0, 0] : Fin 2 → Nat) a + S10000x128.size a ≤ S10000x128.size a
  h_S10000x128 : 0 < S10000x128.numel
  inb_S10000x176_S10000x128_0_48 : ∀ a, (![0, 48] : Fin 2 → Nat) a + S10000x128.size a ≤ S10000x176.size a
  shapeCasts_S10000x128_S10000x128 : S10000x128.ShapeCasts S10000x128
  packedbf16_S10000x176_S10000x128_0_48 : (Rect.unit (s := S10000x176) ![0, 48] S10000x128.size inb_S10000x176_S10000x128_0_48).PackedRows (EltTy.packing .bf16)
  inb_S10000x176_S10000x176_0_0 : ∀ a, (![0, 0] : Fin 2 → Nat) a + S10000x176.size a ≤ S10000x176.size a
  h_S10000x176 : 0 < S10000x176.numel
  inb_S12x176x4_S1x176x4_0_0_0 : ∀ a, (![0, 0, 0] : Fin 3 → Nat) a + S1x176x4.size a ≤ S12x176x4.size a
  h_S1x176x4 : 0 < S1x176x4.numel
  shapeCasts_S1x176x4_S176x4 : S1x176x4.ShapeCasts S176x4
  inb_S12x4_S1x4_0_0 : ∀ a, (![0, 0] : Fin 2 → Nat) a + S1x4.size a ≤ S12x4.size a
  h_S1x4 : 0 < S1x4.numel
  shapeCasts_S1x4_S4 : S1x4.ShapeCasts S4
  shapeCasts_S4_S1x4 : S4.ShapeCasts S1x4
  broadcasts_S1x4_S10000x4 : S1x4.Broadcasts S10000x4
  inb_S10000x176_S10000x4_0_44 : ∀ a, (![0, 44] : Fin 2 → Nat) a + S10000x4.size a ≤ S10000x176.size a
  h_S10000x4 : 0 < S10000x4.numel
  shapeCasts_S10000x4_S10000x4 : S10000x4.ShapeCasts S10000x4
  packedbf16_S10000x176_S10000x4_0_44 : (Rect.unit (s := S10000x176) ![0, 44] S10000x4.size inb_S10000x176_S10000x4_0_44).PackedRows (EltTy.packing .bf16)
  inb_S12x176x4_S1x176x4_1_0_0 : ∀ a, (![1, 0, 0] : Fin 3 → Nat) a + S1x176x4.size a ≤ S12x176x4.size a
  inb_S12x4_S1x4_1_0 : ∀ a, (![1, 0] : Fin 2 → Nat) a + S1x4.size a ≤ S12x4.size a
  inb_S10000x176_S10000x4_0_40 : ∀ a, (![0, 40] : Fin 2 → Nat) a + S10000x4.size a ≤ S10000x176.size a
  packedbf16_S10000x176_S10000x4_0_40 : (Rect.unit (s := S10000x176) ![0, 40] S10000x4.size inb_S10000x176_S10000x4_0_40).PackedRows (EltTy.packing .bf16)
  inb_S12x176x4_S1x176x4_2_0_0 : ∀ a, (![2, 0, 0] : Fin 3 → Nat) a + S1x176x4.size a ≤ S12x176x4.size a
  inb_S12x4_S1x4_2_0 : ∀ a, (![2, 0] : Fin 2 → Nat) a + S1x4.size a ≤ S12x4.size a
  inb_S10000x176_S10000x4_0_36 : ∀ a, (![0, 36] : Fin 2 → Nat) a + S10000x4.size a ≤ S10000x176.size a
  packedbf16_S10000x176_S10000x4_0_36 : (Rect.unit (s := S10000x176) ![0, 36] S10000x4.size inb_S10000x176_S10000x4_0_36).PackedRows (EltTy.packing .bf16)
  inb_S12x176x4_S1x176x4_3_0_0 : ∀ a, (![3, 0, 0] : Fin 3 → Nat) a + S1x176x4.size a ≤ S12x176x4.size a
  inb_S12x4_S1x4_3_0 : ∀ a, (![3, 0] : Fin 2 → Nat) a + S1x4.size a ≤ S12x4.size a
  inb_S10000x176_S10000x4_0_32 : ∀ a, (![0, 32] : Fin 2 → Nat) a + S10000x4.size a ≤ S10000x176.size a
  packedbf16_S10000x176_S10000x4_0_32 : (Rect.unit (s := S10000x176) ![0, 32] S10000x4.size inb_S10000x176_S10000x4_0_32).PackedRows (EltTy.packing .bf16)
  inb_S12x176x4_S1x176x4_4_0_0 : ∀ a, (![4, 0, 0] : Fin 3 → Nat) a + S1x176x4.size a ≤ S12x176x4.size a
  inb_S12x4_S1x4_4_0 : ∀ a, (![4, 0] : Fin 2 → Nat) a + S1x4.size a ≤ S12x4.size a
  inb_S10000x176_S10000x4_0_28 : ∀ a, (![0, 28] : Fin 2 → Nat) a + S10000x4.size a ≤ S10000x176.size a
  packedbf16_S10000x176_S10000x4_0_28 : (Rect.unit (s := S10000x176) ![0, 28] S10000x4.size inb_S10000x176_S10000x4_0_28).PackedRows (EltTy.packing .bf16)
  inb_S12x176x4_S1x176x4_5_0_0 : ∀ a, (![5, 0, 0] : Fin 3 → Nat) a + S1x176x4.size a ≤ S12x176x4.size a
  inb_S12x4_S1x4_5_0 : ∀ a, (![5, 0] : Fin 2 → Nat) a + S1x4.size a ≤ S12x4.size a
  inb_S10000x176_S10000x4_0_24 : ∀ a, (![0, 24] : Fin 2 → Nat) a + S10000x4.size a ≤ S10000x176.size a
  packedbf16_S10000x176_S10000x4_0_24 : (Rect.unit (s := S10000x176) ![0, 24] S10000x4.size inb_S10000x176_S10000x4_0_24).PackedRows (EltTy.packing .bf16)
  inb_S12x176x4_S1x176x4_6_0_0 : ∀ a, (![6, 0, 0] : Fin 3 → Nat) a + S1x176x4.size a ≤ S12x176x4.size a
  inb_S12x4_S1x4_6_0 : ∀ a, (![6, 0] : Fin 2 → Nat) a + S1x4.size a ≤ S12x4.size a
  inb_S10000x176_S10000x4_0_20 : ∀ a, (![0, 20] : Fin 2 → Nat) a + S10000x4.size a ≤ S10000x176.size a
  packedbf16_S10000x176_S10000x4_0_20 : (Rect.unit (s := S10000x176) ![0, 20] S10000x4.size inb_S10000x176_S10000x4_0_20).PackedRows (EltTy.packing .bf16)
  inb_S12x176x4_S1x176x4_7_0_0 : ∀ a, (![7, 0, 0] : Fin 3 → Nat) a + S1x176x4.size a ≤ S12x176x4.size a
  inb_S12x4_S1x4_7_0 : ∀ a, (![7, 0] : Fin 2 → Nat) a + S1x4.size a ≤ S12x4.size a
  inb_S10000x176_S10000x4_0_16 : ∀ a, (![0, 16] : Fin 2 → Nat) a + S10000x4.size a ≤ S10000x176.size a
  packedbf16_S10000x176_S10000x4_0_16 : (Rect.unit (s := S10000x176) ![0, 16] S10000x4.size inb_S10000x176_S10000x4_0_16).PackedRows (EltTy.packing .bf16)
  inb_S12x176x4_S1x176x4_8_0_0 : ∀ a, (![8, 0, 0] : Fin 3 → Nat) a + S1x176x4.size a ≤ S12x176x4.size a
  inb_S12x4_S1x4_8_0 : ∀ a, (![8, 0] : Fin 2 → Nat) a + S1x4.size a ≤ S12x4.size a
  inb_S10000x176_S10000x4_0_12 : ∀ a, (![0, 12] : Fin 2 → Nat) a + S10000x4.size a ≤ S10000x176.size a
  packedbf16_S10000x176_S10000x4_0_12 : (Rect.unit (s := S10000x176) ![0, 12] S10000x4.size inb_S10000x176_S10000x4_0_12).PackedRows (EltTy.packing .bf16)
  inb_S12x176x4_S1x176x4_9_0_0 : ∀ a, (![9, 0, 0] : Fin 3 → Nat) a + S1x176x4.size a ≤ S12x176x4.size a
  inb_S12x4_S1x4_9_0 : ∀ a, (![9, 0] : Fin 2 → Nat) a + S1x4.size a ≤ S12x4.size a
  inb_S10000x176_S10000x4_0_8 : ∀ a, (![0, 8] : Fin 2 → Nat) a + S10000x4.size a ≤ S10000x176.size a
  packedbf16_S10000x176_S10000x4_0_8 : (Rect.unit (s := S10000x176) ![0, 8] S10000x4.size inb_S10000x176_S10000x4_0_8).PackedRows (EltTy.packing .bf16)
  inb_S12x176x4_S1x176x4_10_0_0 : ∀ a, (![10, 0, 0] : Fin 3 → Nat) a + S1x176x4.size a ≤ S12x176x4.size a
  inb_S12x4_S1x4_10_0 : ∀ a, (![10, 0] : Fin 2 → Nat) a + S1x4.size a ≤ S12x4.size a
  inb_S10000x176_S10000x4_0_4 : ∀ a, (![0, 4] : Fin 2 → Nat) a + S10000x4.size a ≤ S10000x176.size a
  packedbf16_S10000x176_S10000x4_0_4 : (Rect.unit (s := S10000x176) ![0, 4] S10000x4.size inb_S10000x176_S10000x4_0_4).PackedRows (EltTy.packing .bf16)
  inb_S12x176x4_S1x176x4_11_0_0 : ∀ a, (![11, 0, 0] : Fin 3 → Nat) a + S1x176x4.size a ≤ S12x176x4.size a
  inb_S12x4_S1x4_11_0 : ∀ a, (![11, 0] : Fin 2 → Nat) a + S1x4.size a ≤ S12x4.size a
  inb_S10000x176_S10000x4_0_0 : ∀ a, (![0, 0] : Fin 2 → Nat) a + S10000x4.size a ≤ S10000x176.size a
  packedbf16_S10000x176_S10000x4_0_0 : (Rect.unit (s := S10000x176) ![0, 0] S10000x4.size inb_S10000x176_S10000x4_0_0).PackedRows (EltTy.packing .bf16)
  inb_S176x2_S176x2_0_0 : ∀ a, (![0, 0] : Fin 2 → Nat) a + S176x2.size a ≤ S176x2.size a
  h_S176x2 : 0 < S176x2.numel
  shapeCasts_S176x2_S176x2 : S176x2.ShapeCasts S176x2
  inb_S2_S2_0 : ∀ a, (![0] : Fin 1 → Nat) a + S2.size a ≤ S2.size a
  h_S2 : 0 < S2.numel
  shapeCasts_S2_S1x2 : S2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  inb_S10000x2_S10000x2_0_0 : ∀ a, (![0, 0] : Fin 2 → Nat) a + S10000x2.size a ≤ S10000x2.size a
  h_S10000x2 : 0 < S10000x2.numel
  dot_S10000x176_S176x4_S10000x4_1_0_0_1_n_n_wf : DotDims.WF S10000x176 S176x4 S10000x4 [1] [0] [0] [1] [] []
  dot_S10000x176_S176x2_S10000x2_1_0_0_1_n_n_wf : DotDims.WF S10000x176 S176x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x176x4.size a ≤ S12x176x4.size a
  hwx0_1 : ∀ i : grid0.Coords, EltTy.bits .bf16 = 32 ∨ (Rect.block (s := S12x176x4) S12x176x4.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x4.size a ≤ S12x4.size a
  hwx0_2 : ∀ i : grid0.Coords, EltTy.bits .f32 = 32 ∨ (Rect.block (s := S12x4) S12x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x4.size a ≤ S12x4.size a
  hwx0_3 : ∀ i : grid0.Coords, EltTy.bits .f32 = 32 ∨ (Rect.block (s := S12x4) S12x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x4.size a ≤ S12x4.size a
  hwx0_4 : ∀ i : grid0.Coords, EltTy.bits .f32 = 32 ∨ (Rect.block (s := S12x4) S12x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x4.size a ≤ S12x4.size a
  hwx0_5 : ∀ i : grid0.Coords, EltTy.bits .f32 = 32 ∨ (Rect.block (s := S12x4) S12x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S176x2.size a ≤ S176x2.size a
  hwx0_6 : ∀ i : grid0.Coords, EltTy.bits .bf16 = 32 ∨ (Rect.block (s := S176x2) S176x2.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2.size a ≤ S2.size a
  hwx0_7 : ∀ i : grid0.Coords, EltTy.bits .f32 = 32 ∨ (Rect.block (s := S2) S2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x2.size a ≤ S500000x2.size a
  hwx0_8 : ∀ i : grid0.Coords, EltTy.bits .f32 = 32 ∨ (Rect.block (s := S500000x2) S10000x2.size (cc0_transform_8 i) (hinb0_8 i)).WholeWords (EltTy.packing .f32)

variable [Facts₀]

def dot_S10000x176_S176x4_S10000x4_1_0_0_1_n_n : DotDims S10000x176 S176x4 S10000x4 where
  lhsContracting := [1]
  rhsContracting := [0]
  lhsNonContracting := [0]
  rhsNonContracting := [1]
  lhsBatch := []
  rhsBatch := []
  wf := dot_S10000x176_S176x4_S10000x4_1_0_0_1_n_n_wf
def dot_S10000x176_S176x2_S10000x2_1_0_0_1_n_n : DotDims S10000x176 S176x2 S10000x2 where
  lhsContracting := [1]
  rhsContracting := [0]
  lhsNonContracting := [0]
  rhsNonContracting := [1]
  lhsBatch := []
  rhsBatch := []
  wf := dot_S10000x176_S176x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S12x176x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg13) S12x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg14) S12x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg15) S12x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg16) S12x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S176x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg18) S2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S10000x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S500000x128 : Shape := ⟨2, ![500000, 128]⟩
abbrev S128x4 : Shape := ⟨2, ![128, 4]⟩
abbrev S132x4 : Shape := ⟨2, ![132, 4]⟩
abbrev S136x4 : Shape := ⟨2, ![136, 4]⟩
abbrev S140x4 : Shape := ⟨2, ![140, 4]⟩
abbrev S144x4 : Shape := ⟨2, ![144, 4]⟩
abbrev S148x4 : Shape := ⟨2, ![148, 4]⟩
abbrev S152x4 : Shape := ⟨2, ![152, 4]⟩
abbrev S156x4 : Shape := ⟨2, ![156, 4]⟩
abbrev S160x4 : Shape := ⟨2, ![160, 4]⟩
abbrev S164x4 : Shape := ⟨2, ![164, 4]⟩
abbrev S168x4 : Shape := ⟨2, ![168, 4]⟩
abbrev S172x4 : Shape := ⟨2, ![172, 4]⟩
abbrev S12x4 : Shape := ⟨2, ![12, 4]⟩
abbrev S176x2 : Shape := ⟨2, ![176, 2]⟩
abbrev S2 : Shape := ⟨1, ![2]⟩
abbrev S500000x4 : Shape := ⟨2, ![500000, 4]⟩
abbrev S1x4 : Shape := ⟨2, ![1, 4]⟩
abbrev S4 : Shape := ⟨1, ![4]⟩
abbrev S_ : Shape := ⟨0, ![]⟩
abbrev S500000x132 : Shape := ⟨2, ![500000, 132]⟩
abbrev S500000x136 : Shape := ⟨2, ![500000, 136]⟩
abbrev S500000x140 : Shape := ⟨2, ![500000, 140]⟩
abbrev S500000x144 : Shape := ⟨2, ![500000, 144]⟩
abbrev S500000x148 : Shape := ⟨2, ![500000, 148]⟩
abbrev S500000x152 : Shape := ⟨2, ![500000, 152]⟩
abbrev S500000x156 : Shape := ⟨2, ![500000, 156]⟩
abbrev S500000x160 : Shape := ⟨2, ![500000, 160]⟩
abbrev S500000x164 : Shape := ⟨2, ![500000, 164]⟩
abbrev S500000x168 : Shape := ⟨2, ![500000, 168]⟩
abbrev S500000x172 : Shape := ⟨2, ![500000, 172]⟩
abbrev S500000x176 : Shape := ⟨2, ![500000, 176]⟩
abbrev S500000x2 : Shape := ⟨2, ![500000, 2]⟩
abbrev S1x2 : Shape := ⟨2, ![1, 2]⟩
abbrev S500000 : Shape := ⟨1, ![500000]⟩
abbrev S500000x1 : Shape := ⟨2, ![500000, 1]⟩

abbrev nBuf : Space → Nat
  | .hbm => 349
  | .vmem => 0
  | .smem => 0
  | _ => 0

abbrev hbmTy0_0 (i : Nat) : BufTy := match i % 128 with
  | 0 => ⟨S500000x128, .f32⟩
  | 1 => ⟨S128x4, .f32⟩
  | 2 => ⟨S132x4, .f32⟩
  | 3 => ⟨S136x4, .f32⟩
  | 4 => ⟨S140x4, .f32⟩
  | 5 => ⟨S144x4, .f32⟩
  | 6 => ⟨S148x4, .f32⟩
  | 7 => ⟨S152x4, .f32⟩
  | 8 => ⟨S156x4, .f32⟩
  | 9 => ⟨S160x4, .f32⟩
  | 10 => ⟨S164x4, .f32⟩
  | 11 => ⟨S168x4, .f32⟩
  | 12 => ⟨S172x4, .f32⟩
  | 13 => ⟨S12x4, .f32⟩
  | 14 => ⟨S12x4, .f32⟩
  | 15 => ⟨S12x4, .f32⟩
  | 16 => ⟨S12x4, .f32⟩
  | 17 => ⟨S176x2, .f32⟩
  | 18 => ⟨S2, .f32⟩
  | 19 => ⟨S500000x4, .f32⟩
  | 20 => ⟨S1x4, .f32⟩
  | 21 => ⟨S4, .f32⟩
  | 22 => ⟨S1x4, .f32⟩
  | 23 => ⟨S4, .f32⟩
  | 24 => ⟨S_, .f32⟩
  | 25 => ⟨S4, .f32⟩
  | 26 => ⟨S4, .f32⟩
  | 27 => ⟨S4, .f32⟩
  | 28 => ⟨S4, .f32⟩
  | 29 => ⟨S1x4, .f32⟩
  | 30 => ⟨S500000x4, .f32⟩
  | 31 => ⟨S500000x4, .f32⟩
  | 32 => ⟨S1x4, .f32⟩
  | 33 => ⟨S4, .f32⟩
  | 34 => ⟨S1x4, .f32⟩
  | 35 => ⟨S4, .f32⟩
  | 36 => ⟨S4, .f32⟩
  | 37 => ⟨S4, .f32⟩
  | 38 => ⟨S1x4, .f32⟩
  | 39 => ⟨S500000x4, .f32⟩
  | 40 => ⟨S500000x4, .f32⟩
  | 41 => ⟨S_, .f32⟩
  | 42 => ⟨S500000x4, .f32⟩
  | 43 => ⟨S500000x4, .f32⟩
  | 44 => ⟨S500000x132, .f32⟩
  | 45 => ⟨S500000x4, .f32⟩
  | 46 => ⟨S1x4, .f32⟩
  | 47 => ⟨S4, .f32⟩
  | 48 => ⟨S1x4, .f32⟩
  | 49 => ⟨S4, .f32⟩
  | 50 => ⟨S_, .f32⟩
  | 51 => ⟨S4, .f32⟩
  | 52 => ⟨S4, .f32⟩
  | 53 => ⟨S4, .f32⟩
  | 54 => ⟨S4, .f32⟩
  | 55 => ⟨S1x4, .f32⟩
  | 56 => ⟨S500000x4, .f32⟩
  | 57 => ⟨S500000x4, .f32⟩
  | 58 => ⟨S1x4, .f32⟩
  | 59 => ⟨S4, .f32⟩
  | 60 => ⟨S1x4, .f32⟩
  | 61 => ⟨S4, .f32⟩
  | 62 => ⟨S4, .f32⟩
  | 63 => ⟨S4, .f32⟩
  | 64 => ⟨S1x4, .f32⟩
  | 65 => ⟨S500000x4, .f32⟩
  | 66 => ⟨S500000x4, .f32⟩
  | 67 => ⟨S_, .f32⟩
  | 68 => ⟨S500000x4, .f32⟩
  | 69 => ⟨S500000x4, .f32⟩
  | 70 => ⟨S500000x136, .f32⟩
  | 71 => ⟨S500000x4, .f32⟩
  | 72 => ⟨S1x4, .f32⟩
  | 73 => ⟨S4, .f32⟩
  | 74 => ⟨S1x4, .f32⟩
  | 75 => ⟨S4, .f32⟩
  | 76 => ⟨S_, .f32⟩
  | 77 => ⟨S4, .f32⟩
  | 78 => ⟨S4, .f32⟩
  | 79 => ⟨S4, .f32⟩
  | 80 => ⟨S4, .f32⟩
  | 81 => ⟨S1x4, .f32⟩
  | 82 => ⟨S500000x4, .f32⟩
  | 83 => ⟨S500000x4, .f32⟩
  | 84 => ⟨S1x4, .f32⟩
  | 85 => ⟨S4, .f32⟩
  | 86 => ⟨S1x4, .f32⟩
  | 87 => ⟨S4, .f32⟩
  | 88 => ⟨S4, .f32⟩
  | 89 => ⟨S4, .f32⟩
  | 90 => ⟨S1x4, .f32⟩
  | 91 => ⟨S500000x4, .f32⟩
  | 92 => ⟨S500000x4, .f32⟩
  | 93 => ⟨S_, .f32⟩
  | 94 => ⟨S500000x4, .f32⟩
  | 95 => ⟨S500000x4, .f32⟩
  | 96 => ⟨S500000x140, .f32⟩
  | 97 => ⟨S500000x4, .f32⟩
  | 98 => ⟨S1x4, .f32⟩
  | 99 => ⟨S4, .f32⟩
  | 100 => ⟨S1x4, .f32⟩
  | 101 => ⟨S4, .f32⟩
  | 102 => ⟨S_, .f32⟩
  | 103 => ⟨S4, .f32⟩
  | 104 => ⟨S4, .f32⟩
  | 105 => ⟨S4, .f32⟩
  | 106 => ⟨S4, .f32⟩
  | 107 => ⟨S1x4, .f32⟩
  | 108 => ⟨S500000x4, .f32⟩
  | 109 => ⟨S500000x4, .f32⟩
  | 110 => ⟨S1x4, .f32⟩
  | 111 => ⟨S4, .f32⟩
  | 112 => ⟨S1x4, .f32⟩
  | 113 => ⟨S4, .f32⟩
  | 114 => ⟨S4, .f32⟩
  | 115 => ⟨S4, .f32⟩
  | 116 => ⟨S1x4, .f32⟩
  | 117 => ⟨S500000x4, .f32⟩
  | 118 => ⟨S500000x4, .f32⟩
  | 119 => ⟨S_, .f32⟩
  | 120 => ⟨S500000x4, .f32⟩
  | 121 => ⟨S500000x4, .f32⟩
  | 122 => ⟨S500000x144, .f32⟩
  | 123 => ⟨S500000x4, .f32⟩
  | 124 => ⟨S1x4, .f32⟩
  | 125 => ⟨S4, .f32⟩
  | 126 => ⟨S1x4, .f32⟩
  | 127 => ⟨S4, .f32⟩
  | _ => ⟨S500000x128, .f32⟩

abbrev hbmTy0_1 (i : Nat) : BufTy := match i % 128 with
  | 0 => ⟨S_, .f32⟩
  | 1 => ⟨S4, .f32⟩
  | 2 => ⟨S4, .f32⟩
  | 3 => ⟨S4, .f32⟩
  | 4 => ⟨S4, .f32⟩
  | 5 => ⟨S1x4, .f32⟩
  | 6 => ⟨S500000x4, .f32⟩
  | 7 => ⟨S500000x4, .f32⟩
  | 8 => ⟨S1x4, .f32⟩
  | 9 => ⟨S4, .f32⟩
  | 10 => ⟨S1x4, .f32⟩
  | 11 => ⟨S4, .f32⟩
  | 12 => ⟨S4, .f32⟩
  | 13 => ⟨S4, .f32⟩
  | 14 => ⟨S1x4, .f32⟩
  | 15 => ⟨S500000x4, .f32⟩
  | 16 => ⟨S500000x4, .f32⟩
  | 17 => ⟨S_, .f32⟩
  | 18 => ⟨S500000x4, .f32⟩
  | 19 => ⟨S500000x4, .f32⟩
  | 20 => ⟨S500000x148, .f32⟩
  | 21 => ⟨S500000x4, .f32⟩
  | 22 => ⟨S1x4, .f32⟩
  | 23 => ⟨S4, .f32⟩
  | 24 => ⟨S1x4, .f32⟩
  | 25 => ⟨S4, .f32⟩
  | 26 => ⟨S_, .f32⟩
  | 27 => ⟨S4, .f32⟩
  | 28 => ⟨S4, .f32⟩
  | 29 => ⟨S4, .f32⟩
  | 30 => ⟨S4, .f32⟩
  | 31 => ⟨S1x4, .f32⟩
  | 32 => ⟨S500000x4, .f32⟩
  | 33 => ⟨S500000x4, .f32⟩
  | 34 => ⟨S1x4, .f32⟩
  | 35 => ⟨S4, .f32⟩
  | 36 => ⟨S1x4, .f32⟩
  | 37 => ⟨S4, .f32⟩
  | 38 => ⟨S4, .f32⟩
  | 39 => ⟨S4, .f32⟩
  | 40 => ⟨S1x4, .f32⟩
  | 41 => ⟨S500000x4, .f32⟩
  | 42 => ⟨S500000x4, .f32⟩
  | 43 => ⟨S_, .f32⟩
  | 44 => ⟨S500000x4, .f32⟩
  | 45 => ⟨S500000x4, .f32⟩
  | 46 => ⟨S500000x152, .f32⟩
  | 47 => ⟨S500000x4, .f32⟩
  | 48 => ⟨S1x4, .f32⟩
  | 49 => ⟨S4, .f32⟩
  | 50 => ⟨S1x4, .f32⟩
  | 51 => ⟨S4, .f32⟩
  | 52 => ⟨S_, .f32⟩
  | 53 => ⟨S4, .f32⟩
  | 54 => ⟨S4, .f32⟩
  | 55 => ⟨S4, .f32⟩
  | 56 => ⟨S4, .f32⟩
  | 57 => ⟨S1x4, .f32⟩
  | 58 => ⟨S500000x4, .f32⟩
  | 59 => ⟨S500000x4, .f32⟩
  | 60 => ⟨S1x4, .f32⟩
  | 61 => ⟨S4, .f32⟩
  | 62 => ⟨S1x4, .f32⟩
  | 63 => ⟨S4, .f32⟩
  | 64 => ⟨S4, .f32⟩
  | 65 => ⟨S4, .f32⟩
  | 66 => ⟨S1x4, .f32⟩
  | 67 => ⟨S500000x4, .f32⟩
  | 68 => ⟨S500000x4, .f32⟩
  | 69 => ⟨S_, .f32⟩
  | 70 => ⟨S500000x4, .f32⟩
  | 71 => ⟨S500000x4, .f32⟩
  | 72 => ⟨S500000x156, .f32⟩
  | 73 => ⟨S500000x4, .f32⟩
  | 74 => ⟨S1x4, .f32⟩
  | 75 => ⟨S4, .f32⟩
  | 76 => ⟨S1x4, .f32⟩
  | 77 => ⟨S4, .f32⟩
  | 78 => ⟨S_, .f32⟩
  | 79 => ⟨S4, .f32⟩
  | 80 => ⟨S4, .f32⟩
  | 81 => ⟨S4, .f32⟩
  | 82 => ⟨S4, .f32⟩
  | 83 => ⟨S1x4, .f32⟩
  | 84 => ⟨S500000x4, .f32⟩
  | 85 => ⟨S500000x4, .f32⟩
  | 86 => ⟨S1x4, .f32⟩
  | 87 => ⟨S4, .f32⟩
  | 88 => ⟨S1x4, .f32⟩
  | 89 => ⟨S4, .f32⟩
  | 90 => ⟨S4, .f32⟩
  | 91 => ⟨S4, .f32⟩
  | 92 => ⟨S1x4, .f32⟩
  | 93 => ⟨S500000x4, .f32⟩
  | 94 => ⟨S500000x4, .f32⟩
  | 95 => ⟨S_, .f32⟩
  | 96 => ⟨S500000x4, .f32⟩
  | 97 => ⟨S500000x4, .f32⟩
  | 98 => ⟨S500000x160, .f32⟩
  | 99 => ⟨S500000x4, .f32⟩
  | 100 => ⟨S1x4, .f32⟩
  | 101 => ⟨S4, .f32⟩
  | 102 => ⟨S1x4, .f32⟩
  | 103 => ⟨S4, .f32⟩
  | 104 => ⟨S_, .f32⟩
  | 105 => ⟨S4, .f32⟩
  | 106 => ⟨S4, .f32⟩
  | 107 => ⟨S4, .f32⟩
  | 108 => ⟨S4, .f32⟩
  | 109 => ⟨S1x4, .f32⟩
  | 110 => ⟨S500000x4, .f32⟩
  | 111 => ⟨S500000x4, .f32⟩
  | 112 => ⟨S1x4, .f32⟩
  | 113 => ⟨S4, .f32⟩
  | 114 => ⟨S1x4, .f32⟩
  | 115 => ⟨S4, .f32⟩
  | 116 => ⟨S4, .f32⟩
  | 117 => ⟨S4, .f32⟩
  | 118 => ⟨S1x4, .f32⟩
  | 119 => ⟨S500000x4, .f32⟩
  | 120 => ⟨S500000x4, .f32⟩
  | 121 => ⟨S_, .f32⟩
  | 122 => ⟨S500000x4, .f32⟩
  | 123 => ⟨S500000x4, .f32⟩
  | 124 => ⟨S500000x164, .f32⟩
  | 125 => ⟨S500000x4, .f32⟩
  | 126 => ⟨S1x4, .f32⟩
  | 127 => ⟨S4, .f32⟩
  | _ => ⟨S500000x128, .f32⟩

abbrev hbmTy0_2 (i : Nat) : BufTy := match i % 128 with
  | 0 => ⟨S1x4, .f32⟩
  | 1 => ⟨S4, .f32⟩
  | 2 => ⟨S_, .f32⟩
  | 3 => ⟨S4, .f32⟩
  | 4 => ⟨S4, .f32⟩
  | 5 => ⟨S4, .f32⟩
  | 6 => ⟨S4, .f32⟩
  | 7 => ⟨S1x4, .f32⟩
  | 8 => ⟨S500000x4, .f32⟩
  | 9 => ⟨S500000x4, .f32⟩
  | 10 => ⟨S1x4, .f32⟩
  | 11 => ⟨S4, .f32⟩
  | 12 => ⟨S1x4, .f32⟩
  | 13 => ⟨S4, .f32⟩
  | 14 => ⟨S4, .f32⟩
  | 15 => ⟨S4, .f32⟩
  | 16 => ⟨S1x4, .f32⟩
  | 17 => ⟨S500000x4, .f32⟩
  | 18 => ⟨S500000x4, .f32⟩
  | 19 => ⟨S_, .f32⟩
  | 20 => ⟨S500000x4, .f32⟩
  | 21 => ⟨S500000x4, .f32⟩
  | 22 => ⟨S500000x168, .f32⟩
  | 23 => ⟨S500000x4, .f32⟩
  | 24 => ⟨S1x4, .f32⟩
  | 25 => ⟨S4, .f32⟩
  | 26 => ⟨S1x4, .f32⟩
  | 27 => ⟨S4, .f32⟩
  | 28 => ⟨S_, .f32⟩
  | 29 => ⟨S4, .f32⟩
  | 30 => ⟨S4, .f32⟩
  | 31 => ⟨S4, .f32⟩
  | 32 => ⟨S4, .f32⟩
  | 33 => ⟨S1x4, .f32⟩
  | 34 => ⟨S500000x4, .f32⟩
  | 35 => ⟨S500000x4, .f32⟩
  | 36 => ⟨S1x4, .f32⟩
  | 37 => ⟨S4, .f32⟩
  | 38 => ⟨S1x4, .f32⟩
  | 39 => ⟨S4, .f32⟩
  | 40 => ⟨S4, .f32⟩
  | 41 => ⟨S4, .f32⟩
  | 42 => ⟨S1x4, .f32⟩
  | 43 => ⟨S500000x4, .f32⟩
  | 44 => ⟨S500000x4, .f32⟩
  | 45 => ⟨S_, .f32⟩
  | 46 => ⟨S500000x4, .f32⟩
  | 47 => ⟨S500000x4, .f32⟩
  | 48 => ⟨S500000x172, .f32⟩
  | 49 => ⟨S500000x4, .f32⟩
  | 50 => ⟨S1x4, .f32⟩
  | 51 => ⟨S4, .f32⟩
  | 52 => ⟨S1x4, .f32⟩
  | 53 => ⟨S4, .f32⟩
  | 54 => ⟨S_, .f32⟩
  | 55 => ⟨S4, .f32⟩
  | 56 => ⟨S4, .f32⟩
  | 57 => ⟨S4, .f32⟩
  | 58 => ⟨S4, .f32⟩
  | 59 => ⟨S1x4, .f32⟩
  | 60 => ⟨S500000x4, .f32⟩
  | 61 => ⟨S500000x4, .f32⟩
  | 62 => ⟨S1x4, .f32⟩
  | 63 => ⟨S4, .f32⟩
  | 64 => ⟨S1x4, .f32⟩
  | 65 => ⟨S4, .f32⟩
  | 66 => ⟨S4, .f32⟩
  | 67 => ⟨S4, .f32⟩
  | 68 => ⟨S1x4, .f32⟩
  | 69 => ⟨S500000x4, .f32⟩
  | 70 => ⟨S500000x4, .f32⟩
  | 71 => ⟨S_, .f32⟩
  | 72 => ⟨S500000x4, .f32⟩
  | 73 => ⟨S500000x4, .f32⟩
  | 74 => ⟨S500000x176, .f32⟩
  | 75 => ⟨S500000x2, .f32⟩
  | 76 => ⟨S1x2, .f32⟩
  | 77 => ⟨S500000x2, .f32⟩
  | 78 => ⟨S500000x2, .f32⟩
  | 79 => ⟨S_, .f32⟩
  | 80 => ⟨S500000, .f32⟩
  | 81 => ⟨S_, .f32⟩
  | 82 => ⟨S500000, .f32⟩
  | 83 => ⟨S500000, .f32⟩
  | 84 => ⟨S500000x1, .f32⟩
  | 85 => ⟨S500000x2, .f32⟩
  | 86 => ⟨S500000x2, .f32⟩
  | 87 => ⟨S500000x2, .f32⟩
  | 88 => ⟨S_, .f32⟩
  | 89 => ⟨S500000, .f32⟩
  | 90 => ⟨S500000x1, .f32⟩
  | 91 => ⟨S500000x2, .f32⟩
  | 92 => ⟨S500000x2, .f32⟩
  | _ => ⟨S500000x128, .f32⟩

abbrev hbmTy (i : Nat) : BufTy := match i / 128 with
  | 0 => hbmTy0_0 i
  | 1 => hbmTy0_1 i
  | 2 => hbmTy0_2 i
  | _ => ⟨S500000x128, .f32⟩

abbrev bufTy : (tb : Table) → Fin (tcTables nBuf tb) → BufTy
  | .hbm, ⟨i, _⟩ => hbmTy i
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call0_cst : Ref sig .tc := ⟨.hbm, 41, rfl⟩
abbrev main_call0_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call1_cst : Ref sig .tc := ⟨.hbm, 67, rfl⟩
abbrev main_call1_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_1 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call2_cst : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_2 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_call3_cst : Ref sig .tc := ⟨.hbm, 119, rfl⟩
abbrev main_call3_v0 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_3 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_call4_cst : Ref sig .tc := ⟨.hbm, 145, rfl⟩
abbrev main_call4_v0 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_4 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_call5_cst : Ref sig .tc := ⟨.hbm, 171, rfl⟩
abbrev main_call5_v0 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_cst_5 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_call6_cst : Ref sig .tc := ⟨.hbm, 197, rfl⟩
abbrev main_call6_v0 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_cst_6 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_call7_cst : Ref sig .tc := ⟨.hbm, 223, rfl⟩
abbrev main_call7_v0 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_cst_7 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_call8_cst : Ref sig .tc := ⟨.hbm, 249, rfl⟩
abbrev main_call8_v0 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_cst_8 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_call9_cst : Ref sig .tc := ⟨.hbm, 275, rfl⟩
abbrev main_call9_v0 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_cst_9 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_call10_cst : Ref sig .tc := ⟨.hbm, 301, rfl⟩
abbrev main_call10_v0 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_cst_10 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_call11_cst : Ref sig .tc := ⟨.hbm, 327, rfl⟩
abbrev main_call11_v0 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_v277 : Ref sig .tc := ⟨.hbm, 332, rfl⟩
abbrev main_v278 : Ref sig .tc := ⟨.hbm, 333, rfl⟩
abbrev main_v279 : Ref sig .tc := ⟨.hbm, 334, rfl⟩
abbrev main_cst_11 : Ref sig .tc := ⟨.hbm, 335, rfl⟩
abbrev main_v280 : Ref sig .tc := ⟨.hbm, 336, rfl⟩
abbrev main_cst_12 : Ref sig .tc := ⟨.hbm, 337, rfl⟩
abbrev main_v281 : Ref sig .tc := ⟨.hbm, 338, rfl⟩
abbrev main_v282 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_cst_13 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩

abbrev nD : Nat := 1
abbrev τ : Topo := Topo.v7x

variable {F : FTy → Type} [FloatOps F]

class Facts₀ : Prop where
  slices_S12x4_S1x4_0_0 : S12x4.Slices ![0, 0] S1x4
  shapeCasts_S1x4_S4 : S1x4.ShapeCasts S4
  bcast_S_S4 : S_.BroadcastsInDim S4 (![] : Fin 0 → Fin S4.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  bcast_S_S500000x4 : S_.BroadcastsInDim S500000x4 (![] : Fin 0 → Fin S500000x4.rank)
  concatenates_S500000x4_S500000x128_S500000x132_d1 : Shape.Concatenates [S500000x4, S500000x128] S500000x132 1
  slices_S12x4_S1x4_1_0 : S12x4.Slices ![1, 0] S1x4
  concatenates_S500000x4_S500000x132_S500000x136_d1 : Shape.Concatenates [S500000x4, S500000x132] S500000x136 1
  slices_S12x4_S1x4_2_0 : S12x4.Slices ![2, 0] S1x4
  concatenates_S500000x4_S500000x136_S500000x140_d1 : Shape.Concatenates [S500000x4, S500000x136] S500000x140 1
  slices_S12x4_S1x4_3_0 : S12x4.Slices ![3, 0] S1x4
  concatenates_S500000x4_S500000x140_S500000x144_d1 : Shape.Concatenates [S500000x4, S500000x140] S500000x144 1
  slices_S12x4_S1x4_4_0 : S12x4.Slices ![4, 0] S1x4
  concatenates_S500000x4_S500000x144_S500000x148_d1 : Shape.Concatenates [S500000x4, S500000x144] S500000x148 1
  slices_S12x4_S1x4_5_0 : S12x4.Slices ![5, 0] S1x4
  concatenates_S500000x4_S500000x148_S500000x152_d1 : Shape.Concatenates [S500000x4, S500000x148] S500000x152 1
  slices_S12x4_S1x4_6_0 : S12x4.Slices ![6, 0] S1x4
  concatenates_S500000x4_S500000x152_S500000x156_d1 : Shape.Concatenates [S500000x4, S500000x152] S500000x156 1
  slices_S12x4_S1x4_7_0 : S12x4.Slices ![7, 0] S1x4
  concatenates_S500000x4_S500000x156_S500000x160_d1 : Shape.Concatenates [S500000x4, S500000x156] S500000x160 1
  slices_S12x4_S1x4_8_0 : S12x4.Slices ![8, 0] S1x4
  concatenates_S500000x4_S500000x160_S500000x164_d1 : Shape.Concatenates [S500000x4, S500000x160] S500000x164 1
  slices_S12x4_S1x4_9_0 : S12x4.Slices ![9, 0] S1x4
  concatenates_S500000x4_S500000x164_S500000x168_d1 : Shape.Concatenates [S500000x4, S500000x164] S500000x168 1
  slices_S12x4_S1x4_10_0 : S12x4.Slices ![10, 0] S1x4
  concatenates_S500000x4_S500000x168_S500000x172_d1 : Shape.Concatenates [S500000x4, S500000x168] S500000x172 1
  slices_S12x4_S1x4_11_0 : S12x4.Slices ![11, 0] S1x4
  concatenates_S500000x4_S500000x172_S500000x176_d1 : Shape.Concatenates [S500000x4, S500000x172] S500000x176 1
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  reducesTo_S500000x2_S500000_d1 : S500000x2.ReducesTo [1] S500000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x2_0_1 : S500000x1.BroadcastsInDim S500000x2 (![0, 1] : Fin 2 → Fin S500000x2.rank)
  dot_S500000x128_S128x4_S500000x4_1_0_0_1_n_n_wf : DotDims.WF S500000x128 S128x4 S500000x4 [1] [0] [0] [1] [] []
  dot_S500000x132_S132x4_S500000x4_1_0_0_1_n_n_wf : DotDims.WF S500000x132 S132x4 S500000x4 [1] [0] [0] [1] [] []
  dot_S500000x136_S136x4_S500000x4_1_0_0_1_n_n_wf : DotDims.WF S500000x136 S136x4 S500000x4 [1] [0] [0] [1] [] []
  dot_S500000x140_S140x4_S500000x4_1_0_0_1_n_n_wf : DotDims.WF S500000x140 S140x4 S500000x4 [1] [0] [0] [1] [] []
  dot_S500000x144_S144x4_S500000x4_1_0_0_1_n_n_wf : DotDims.WF S500000x144 S144x4 S500000x4 [1] [0] [0] [1] [] []
  dot_S500000x148_S148x4_S500000x4_1_0_0_1_n_n_wf : DotDims.WF S500000x148 S148x4 S500000x4 [1] [0] [0] [1] [] []
  dot_S500000x152_S152x4_S500000x4_1_0_0_1_n_n_wf : DotDims.WF S500000x152 S152x4 S500000x4 [1] [0] [0] [1] [] []
  dot_S500000x156_S156x4_S500000x4_1_0_0_1_n_n_wf : DotDims.WF S500000x156 S156x4 S500000x4 [1] [0] [0] [1] [] []
  dot_S500000x160_S160x4_S500000x4_1_0_0_1_n_n_wf : DotDims.WF S500000x160 S160x4 S500000x4 [1] [0] [0] [1] [] []
  dot_S500000x164_S164x4_S500000x4_1_0_0_1_n_n_wf : DotDims.WF S500000x164 S164x4 S500000x4 [1] [0] [0] [1] [] []
  dot_S500000x168_S168x4_S500000x4_1_0_0_1_n_n_wf : DotDims.WF S500000x168 S168x4 S500000x4 [1] [0] [0] [1] [] []
  dot_S500000x172_S172x4_S500000x4_1_0_0_1_n_n_wf : DotDims.WF S500000x172 S172x4 S500000x4 [1] [0] [0] [1] [] []
  dot_S500000x176_S176x2_S500000x2_1_0_0_1_n_n_wf : DotDims.WF S500000x176 S176x2 S500000x2 [1] [0] [0] [1] [] []

variable [Facts₀]

def dot_S500000x128_S128x4_S500000x4_1_0_0_1_n_n : DotDims S500000x128 S128x4 S500000x4 where
  lhsContracting := [1]
  rhsContracting := [0]
  lhsNonContracting := [0]
  rhsNonContracting := [1]
  lhsBatch := []
  rhsBatch := []
  wf := dot_S500000x128_S128x4_S500000x4_1_0_0_1_n_n_wf
def dot_S500000x132_S132x4_S500000x4_1_0_0_1_n_n : DotDims S500000x132 S132x4 S500000x4 where
  lhsContracting := [1]
  rhsContracting := [0]
  lhsNonContracting := [0]
  rhsNonContracting := [1]
  lhsBatch := []
  rhsBatch := []
  wf := dot_S500000x132_S132x4_S500000x4_1_0_0_1_n_n_wf
def dot_S500000x136_S136x4_S500000x4_1_0_0_1_n_n : DotDims S500000x136 S136x4 S500000x4 where
  lhsContracting := [1]
  rhsContracting := [0]
  lhsNonContracting := [0]
  rhsNonContracting := [1]
  lhsBatch := []
  rhsBatch := []
  wf := dot_S500000x136_S136x4_S500000x4_1_0_0_1_n_n_wf
def dot_S500000x140_S140x4_S500000x4_1_0_0_1_n_n : DotDims S500000x140 S140x4 S500000x4 where
  lhsContracting := [1]
  rhsContracting := [0]
  lhsNonContracting := [0]
  rhsNonContracting := [1]
  lhsBatch := []
  rhsBatch := []
  wf := dot_S500000x140_S140x4_S500000x4_1_0_0_1_n_n_wf
def dot_S500000x144_S144x4_S500000x4_1_0_0_1_n_n : DotDims S500000x144 S144x4 S500000x4 where
  lhsContracting := [1]
  rhsContracting := [0]
  lhsNonContracting := [0]
  rhsNonContracting := [1]
  lhsBatch := []
  rhsBatch := []
  wf := dot_S500000x144_S144x4_S500000x4_1_0_0_1_n_n_wf
def dot_S500000x148_S148x4_S500000x4_1_0_0_1_n_n : DotDims S500000x148 S148x4 S500000x4 where
  lhsContracting := [1]
  rhsContracting := [0]
  lhsNonContracting := [0]
  rhsNonContracting := [1]
  lhsBatch := []
  rhsBatch := []
  wf := dot_S500000x148_S148x4_S500000x4_1_0_0_1_n_n_wf
def dot_S500000x152_S152x4_S500000x4_1_0_0_1_n_n : DotDims S500000x152 S152x4 S500000x4 where
  lhsContracting := [1]
  rhsContracting := [0]
  lhsNonContracting := [0]
  rhsNonContracting := [1]
  lhsBatch := []
  rhsBatch := []
  wf := dot_S500000x152_S152x4_S500000x4_1_0_0_1_n_n_wf
def dot_S500000x156_S156x4_S500000x4_1_0_0_1_n_n : DotDims S500000x156 S156x4 S500000x4 where
  lhsContracting := [1]
  rhsContracting := [0]
  lhsNonContracting := [0]
  rhsNonContracting := [1]
  lhsBatch := []
  rhsBatch := []
  wf := dot_S500000x156_S156x4_S500000x4_1_0_0_1_n_n_wf
def dot_S500000x160_S160x4_S500000x4_1_0_0_1_n_n : DotDims S500000x160 S160x4 S500000x4 where
  lhsContracting := [1]
  rhsContracting := [0]
  lhsNonContracting := [0]
  rhsNonContracting := [1]
  lhsBatch := []
  rhsBatch := []
  wf := dot_S500000x160_S160x4_S500000x4_1_0_0_1_n_n_wf
def dot_S500000x164_S164x4_S500000x4_1_0_0_1_n_n : DotDims S500000x164 S164x4 S500000x4 where
  lhsContracting := [1]
  rhsContracting := [0]
  lhsNonContracting := [0]
  rhsNonContracting := [1]
  lhsBatch := []
  rhsBatch := []
  wf := dot_S500000x164_S164x4_S500000x4_1_0_0_1_n_n_wf
def dot_S500000x168_S168x4_S500000x4_1_0_0_1_n_n : DotDims S500000x168 S168x4 S500000x4 where
  lhsContracting := [1]
  rhsContracting := [0]
  lhsNonContracting := [0]
  rhsNonContracting := [1]
  lhsBatch := []
  rhsBatch := []
  wf := dot_S500000x168_S168x4_S500000x4_1_0_0_1_n_n_wf
def dot_S500000x172_S172x4_S500000x4_1_0_0_1_n_n : DotDims S500000x172 S172x4 S500000x4 where
  lhsContracting := [1]
  rhsContracting := [0]
  lhsNonContracting := [0]
  rhsNonContracting := [1]
  lhsBatch := []
  rhsBatch := []
  wf := dot_S500000x172_S172x4_S500000x4_1_0_0_1_n_n_wf
def dot_S500000x176_S176x2_S500000x2_1_0_0_1_n_n : DotDims S500000x176 S176x2 S500000x2 where
  lhsContracting := [1]
  rhsContracting := [0]
  lhsNonContracting := [0]
  rhsNonContracting := [1]
  lhsBatch := []
  rhsBatch := []
  wf := dot_S500000x176_S176x2_S500000x2_1_0_0_1_n_n_wf

class Facts : Prop extends Facts₀ where

variable [Facts]
-- ==== Proof.LaunchK.lean ====
/-
  @main of `Kernel` up to its one kernel region, and what the frame claim needs of a run through it.

  @main first builds the kernel's weight stack on the host: each dense weight `w_i` ([128 + 4i, 4]) is
  cast to bf16 and padded with `48 - 4i` leading zero rows to [176, 4], the twelve padded matrices are
  given a leading unit axis and joined into one [12, 176, 4] array, and the head's weight is cast to bf16.
  None of these host lines writes an argument array, so the region finds every argument as launched; the
  region then stages `x` (row blocks of 10000), the stack, the four batch-norm arrays, the head's weight and
  its bias, and writes row blocks of the [500000, 2] result.  `V` is the memory the region is entered with,
  `iblk` a window's block of it at a grid point, and `frame_of` turns a run ending in the library's frame
  post into the claim's post: every argument array unchanged.
-/
import proofs.«124183_j12403865551019_2_alg».proof.Proof.Gen.Kernel.Launch
import proofs.«124183_j12403865551019_2_alg».proof.Proof.Gen.Kernel.Skeleton
import proofs.«124183_j12403865551019_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host lines before the region, stretch by stretch: per weight a cast and a zero constant, then the
    padding call's two lines; at the end the twelve unit-axis broadcasts, the join, and the head weight's cast. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]

/-- Core `c`'s TensorCore buffers when the region is entered: the launch memory after the host lines. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh⟩) main_chain

/-! ## No host line writes an argument array -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (an unfetched
    window's block index has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (an unfetched
    window's block index has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (an unfetched
    window's block index has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (an unfetched
    window's block index has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (an unfetched
    window's block index has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (an unfetched
    window's block index has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (an unfetched
    window's block index has not moved), for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (an unfetched
    window's block index has not moved), for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the library's -/

/-- A run ending with every staged array at what the library computes from the proof data, and every other
    unscoped buffer as the region found it, leaves every argument array as launched: a staged input keeps
    its entry contents, an unstaged one is among the other buffers, and no host line wrote either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 2).trans (((dats 0 c).arrAt_in 2 rfl _).trans ((hA c 2).trans (V_main_arg13 m c))),
      ((h c).1 3).trans (((dats 0 c).arrAt_in 3 rfl _).trans ((hA c 3).trans (V_main_arg14 m c))),
      ((h c).1 4).trans (((dats 0 c).arrAt_in 4 rfl _).trans ((hA c 4).trans (V_main_arg15 m c))),
      ((h c).1 5).trans (((dats 0 c).arrAt_in 5 rfl _).trans ((hA c 5).trans (V_main_arg16 m c))),
      ((h c).2 main_arg17 (Pipeline.mem_restRefs_of main_arg17 (by decide) (by decide))).trans (V_main_arg17 m c),
      ((h c).1 7).trans (((dats 0 c).arrAt_in 7 rfl _).trans ((hA c 7).trans (V_main_arg18 m c)))⟩) h

end Cert.Kernel.Hand

end
-- ==== Proof.BodyK.lean ====
/-
  The kernel region of `Kernel`: one run of its body, the proof data of its pipeline, and the frame.

  At a grid point the body is handed the point's 10000 rows of `x`, the whole weight stack, the four
  batch-norm arrays, the head's weight and bias, the result's staging buffer, and a scratch buffer of
  10000 × 176.  It first fills the scratch — 48 zero columns, then the rows of `x` — so nothing it
  computes depends on what the scratch held; each of the twelve layers then loads the whole scratch,
  multiplies it by one padded weight, applies the layer's affine map and `max · 0`, and stores the four new
  columns just in front of the filled ones; the head loads the scratch a last time and stores one block of
  the result.  `kernelRun` is that run, symbolically: the pieces the result's buffer and the scratch end with
  are its witness.  The result's one piece covers its block (`cover`), so the block the body leaves is a
  function `outBlk` of the point's input blocks alone.  The scratch being refilled at every point, the
  region's invariant is just "the scratch holds something", and the library's frame run applies.
-/
import proofs.«124183_j12403865551019_2_alg».proof.Proof.LaunchK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One run of the body -/

set_option maxHeartbeats 4000000 in
/-- The pieces the body leaves in the result's staging buffer and in the scratch (last store first), with
    the proof that on whole memrefs — the eight inputs' at contents `x1 … x8`, the result's and the scratch at
    anything — the body runs to its continuation holding the inputs' as they were and those pieces written. -/
noncomputable def kernelRun (c : Dev nD) (i : grid0.Coords) (arg1 : Memref sig .tc .vmem S10000x128 .f32) (harg1 : arg1.IsWhole) (arg2 : Memref sig .tc .vmem S12x176x4 .bf16) (harg2 : arg2.IsWhole) (arg3 : Memref sig .tc .vmem S12x4 .f32) (harg3 : arg3.IsWhole) (arg4 : Memref sig .tc .vmem S12x4 .f32) (harg4 : arg4.IsWhole) (arg5 : Memref sig .tc .vmem S12x4 .f32) (harg5 : arg5.IsWhole) (arg6 : Memref sig .tc .vmem S12x4 .f32) (harg6 : arg6.IsWhole) (arg7 : Memref sig .tc .vmem S176x2 .bf16) (harg7 : arg7.IsWhole) (arg8 : Memref sig .tc .vmem S2 .f32) (harg8 : arg8.IsWhole) (arg9 : Memref sig .tc .vmem S10000x2 .f32) (harg9 : arg9.IsWhole) (arg10 : Memref sig .tc .vmem S10000x176 .bf16) (harg10 : arg10.IsWhole)
    (x1 : Vec F S10000x128 .f32) (x2 : Vec F S12x176x4 .bf16) (x3 : Vec F S12x4 .f32) (x4 : Vec F S12x4 .f32) (x5 : Vec F S12x4 .f32) (x6 : Vec F S12x4 .f32) (x7 : Vec F S176x2 .bf16) (x8 : Vec F S2 .f32) :
    Σ' (L9 : List (View.Piece (Elt F) S10000x2 .f32)), { LS : List (View.Piece (Elt F) S10000x176 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ (∃ d, owns (c : Thread nD τ) arg9 fullShare d) ∗ (∃ s, owns (c : Thread nD τ) arg10 fullShare s)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%s10, %f10, -, H10⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact H10

/-- The result's pieces tile its block: one store of the whole block. -/
theorem cover (c : Dev nD) (i : grid0.Coords) (arg1 : Memref sig .tc .vmem S10000x128 .f32) (harg1 : arg1.IsWhole) (arg2 : Memref sig .tc .vmem S12x176x4 .bf16) (harg2 : arg2.IsWhole) (arg3 : Memref sig .tc .vmem S12x4 .f32) (harg3 : arg3.IsWhole) (arg4 : Memref sig .tc .vmem S12x4 .f32) (harg4 : arg4.IsWhole) (arg5 : Memref sig .tc .vmem S12x4 .f32) (harg5 : arg5.IsWhole) (arg6 : Memref sig .tc .vmem S12x4 .f32) (harg6 : arg6.IsWhole) (arg7 : Memref sig .tc .vmem S176x2 .bf16) (harg7 : arg7.IsWhole) (arg8 : Memref sig .tc .vmem S2 .f32) (harg8 : arg8.IsWhole) (arg9 : Memref sig .tc .vmem S10000x2 .f32) (harg9 : arg9.IsWhole) (arg10 : Memref sig .tc .vmem S10000x176 .bf16) (harg10 : arg10.IsWhole)
    (x1 : Vec F S10000x128 .f32) (x2 : Vec F S12x176x4 .bf16) (x3 : Vec F S12x4 .f32) (x4 : Vec F S12x4 .f32) (x5 : Vec F S12x4 .f32) (x6 : Vec F S12x4 .f32) (x7 : Vec F S176x2 .bf16) (x8 : Vec F S2 .f32) (y : S10000x2.Idx) :
    ∃ pc ∈ (kernelRun c i arg1 harg1 arg2 harg2 arg3 harg3 arg4 harg4 arg5 harg5 arg6 harg6 arg7 harg7 arg8 harg8 arg9 harg9 arg10 harg10 x1 x2 x3 x4 x5 x6 x7 x8).1, y ∈ pc.1.set :=
  View.cover_of_tiledL (kernelRun c i arg1 harg1 arg2 harg2 arg3 harg3 arg4 harg4 arg5 harg5 arg6 harg6 arg7 harg7 arg8 harg8 arg9 harg9 arg10 harg10 x1 x2 x3 x4 x5 x6 x7 x8).1 S10000x2.size (by sl_kernel_rfl) y

/-- What the body leaves in the result's staging buffer, from the input blocks. -/
def outBlk (c : Dev nD) (i : grid0.Coords) (arg1 : Memref sig .tc .vmem S10000x128 .f32) (harg1 : arg1.IsWhole) (arg2 : Memref sig .tc .vmem S12x176x4 .bf16) (harg2 : arg2.IsWhole) (arg3 : Memref sig .tc .vmem S12x4 .f32) (harg3 : arg3.IsWhole) (arg4 : Memref sig .tc .vmem S12x4 .f32) (harg4 : arg4.IsWhole) (arg5 : Memref sig .tc .vmem S12x4 .f32) (harg5 : arg5.IsWhole) (arg6 : Memref sig .tc .vmem S12x4 .f32) (harg6 : arg6.IsWhole) (arg7 : Memref sig .tc .vmem S176x2 .bf16) (harg7 : arg7.IsWhole) (arg8 : Memref sig .tc .vmem S2 .f32) (harg8 : arg8.IsWhole) (arg9 : Memref sig .tc .vmem S10000x2 .f32) (harg9 : arg9.IsWhole) (arg10 : Memref sig .tc .vmem S10000x176 .bf16) (harg10 : arg10.IsWhole)
    (x1 : Vec F S10000x128 .f32) (x2 : Vec F S12x176x4 .bf16) (x3 : Vec F S12x4 .f32) (x4 : Vec F S12x4 .f32) (x5 : Vec F S12x4 .f32) (x6 : Vec F S12x4 .f32) (x7 : Vec F S176x2 .bf16) (x8 : Vec F S2 .f32) : Vec F S10000x2 .f32 :=
  View.canon (kernelRun c i arg1 harg1 arg2 harg2 arg3 harg3 arg4 harg4 arg5 harg5 arg6 harg6 arg7 harg7 arg8 harg8 arg9 harg9 arg10 harg10 x1 x2 x3 x4 x5 x6 x7 x8).1

/-! ## The pipeline's proof data -/

/-- The region's invariant, with the scratch as a memref owned at some contents. -/
theorem PhiA_eq (c : Dev nD) :
    (Pipeline.ΦA spec0 c : sProp 𝕄)
      = iprop(iprop((∃ d, owns (c : Thread nD τ) (Memref.whole cc0_scratch0 : Memref sig .tc .vmem S10000x176 .bf16) fullShare d)) ∗ (∃ r, prngReg c r)) := by
  unfold Pipeline.ΦA; rw [scopedRest0_eq]; simp only [owns_whole]; try rfl

/-- The proof data of the one pipeline on core `c`: the arrays as the region finds them; after the body at
    point `t` each input's buffer at its block and the result's at `outBlk` of the input blocks; the invariant
    the scratch at anything and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t
    = outBlk c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

end Cert.Kernel.Hand

end
-- ==== Proof.FrameK.lean ====
/-
  The frame of `Kernel`: the body obligation at every grid point from the one run of the body, the library's
  frame run through @main, and the claim's post — every argument array ends as launched.
-/
import proofs.«124183_j12403865551019_2_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at any point: the inputs' memrefs hold their blocks, the scratch comes out of the invariant at
    some contents and goes back at others, and the result's buffer ends at its one piece read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after8, PhiA_eq]
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (iblk m c 0 t) (iblk m c 1 t) (iblk m c 2 t) (iblk m c 3 t) (iblk m c 4 t) (iblk m c 5 t) (iblk m c 6 t) (iblk m c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS]; · iexact HS
  iintro ⟨H0, H1, H2, H3, H4, H5, H6, H7, ⟨%f8, H8⟩, ⟨%fs, HS⟩⟩
  isplitl [HS Hr]
  · isplitl [HS]
    · iexists _; unfold owns; iexists _; isplitr
      swap; · iexact HS
      ipureintro; rfl
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns
  iexists _; isplitr
  swap; · iexact H8
  ipureintro
  unfold outBlk
  exact View.read_writes_eq_canon _ _ _ (cover c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (iblk m c 0 t) (iblk m c 1 t) (iblk m c 2 t) (iblk m c 3 t) (iblk m c 4 t) (iblk m c 5 t) (iblk m c 6 t) (iblk m c 7 t))

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and ends with every
    staged array at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Hand

end
-- ==== Proof.LaunchI.lean ====
/-
  @main of `KernelIdeal` up to its one kernel region, and what the frame claim needs of a run through it.

  @main first builds the kernel's weight stack on the host: each dense weight `w_i` ([128 + 4i, 4]) is
  cast to bf16 and padded with `48 - 4i` leading zero rows to [176, 4], the twelve padded matrices are
  given a leading unit axis and joined into one [12, 176, 4] array, and the head's weight is cast to bf16.
  None of these host lines writes an argument array, so the region finds every argument as launched; the
  region then stages `x` (row blocks of 10000), the stack, the four batch-norm arrays, the head's weight and
  its bias, and writes row blocks of the [500000, 2] result.  `V` is the memory the region is entered with,
  `iblk` a window's block of it at a grid point, and `frame_of` turns a run ending in the library's frame
  post into the claim's post: every argument array unchanged.
-/
import proofs.«124183_j12403865551019_2_alg».proof.Proof.Gen.KernelIdeal.Launch
import proofs.«124183_j12403865551019_2_alg».proof.Proof.Gen.KernelIdeal.Skeleton
import proofs.«124183_j12403865551019_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host lines before the region, stretch by stretch: per weight a cast and a zero constant, then the
    padding call's two lines; at the end the twelve unit-axis broadcasts, the join, and the head weight's cast. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]

/-- Core `c`'s TensorCore buffers when the region is entered: the launch memory after the host lines. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh⟩) main_chain

/-! ## No host line writes an argument array -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (an unfetched
    window's block index has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (an unfetched
    window's block index has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (an unfetched
    window's block index has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (an unfetched
    window's block index has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (an unfetched
    window's block index has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (an unfetched
    window's block index has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (an unfetched
    window's block index has not moved), for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (an unfetched
    window's block index has not moved), for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the library's -/

/-- A run ending with every staged array at what the library computes from the proof data, and every other
    unscoped buffer as the region found it, leaves every argument array as launched: a staged input keeps
    its entry contents, an unstaged one is among the other buffers, and no host line wrote either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 2).trans (((dats 0 c).arrAt_in 2 rfl _).trans ((hA c 2).trans (V_main_arg13 m c))),
      ((h c).1 3).trans (((dats 0 c).arrAt_in 3 rfl _).trans ((hA c 3).trans (V_main_arg14 m c))),
      ((h c).1 4).trans (((dats 0 c).arrAt_in 4 rfl _).trans ((hA c 4).trans (V_main_arg15 m c))),
      ((h c).1 5).trans (((dats 0 c).arrAt_in 5 rfl _).trans ((hA c 5).trans (V_main_arg16 m c))),
      ((h c).2 main_arg17 (Pipeline.mem_restRefs_of main_arg17 (by decide) (by decide))).trans (V_main_arg17 m c),
      ((h c).1 7).trans (((dats 0 c).arrAt_in 7 rfl _).trans ((hA c 7).trans (V_main_arg18 m c)))⟩) h

end Cert.KernelIdeal.Hand

end
-- ==== Proof.BodyI.lean ====
/-
  The kernel region of `KernelIdeal`: one run of its body, the proof data of its pipeline, and the frame.

  At a grid point the body is handed the point's 10000 rows of `x`, the whole weight stack, the four
  batch-norm arrays, the head's weight and bias, the result's staging buffer, and a scratch buffer of
  10000 × 176.  It first fills the scratch — 48 zero columns, then the rows of `x` — so nothing it
  computes depends on what the scratch held; each of the twelve layers then loads the whole scratch,
  multiplies it by one padded weight, applies the layer's affine map and `max · 0`, and stores the four new
  columns just in front of the filled ones; the head loads the scratch a last time and stores one block of
  the result.  `kernelRun` is that run, symbolically: the pieces the result's buffer and the scratch end with
  are its witness.  The result's one piece covers its block (`cover`), so the block the body leaves is a
  function `outBlk` of the point's input blocks alone.  The scratch being refilled at every point, the
  region's invariant is just "the scratch holds something", and the library's frame run applies.
-/
import proofs.«124183_j12403865551019_2_alg».proof.Proof.LaunchI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One run of the body -/

set_option maxHeartbeats 4000000 in
/-- The pieces the body leaves in the result's staging buffer and in the scratch (last store first), with
    the proof that on whole memrefs — the eight inputs' at contents `x1 … x8`, the result's and the scratch at
    anything — the body runs to its continuation holding the inputs' as they were and those pieces written. -/
noncomputable def kernelRun (c : Dev nD) (i : grid0.Coords) (arg1 : Memref sig .tc .vmem S10000x128 .f32) (harg1 : arg1.IsWhole) (arg2 : Memref sig .tc .vmem S12x176x4 .bf16) (harg2 : arg2.IsWhole) (arg3 : Memref sig .tc .vmem S12x4 .f32) (harg3 : arg3.IsWhole) (arg4 : Memref sig .tc .vmem S12x4 .f32) (harg4 : arg4.IsWhole) (arg5 : Memref sig .tc .vmem S12x4 .f32) (harg5 : arg5.IsWhole) (arg6 : Memref sig .tc .vmem S12x4 .f32) (harg6 : arg6.IsWhole) (arg7 : Memref sig .tc .vmem S176x2 .bf16) (harg7 : arg7.IsWhole) (arg8 : Memref sig .tc .vmem S2 .f32) (harg8 : arg8.IsWhole) (arg9 : Memref sig .tc .vmem S10000x2 .f32) (harg9 : arg9.IsWhole) (arg10 : Memref sig .tc .vmem S10000x176 .bf16) (harg10 : arg10.IsWhole)
    (x1 : Vec F S10000x128 .f32) (x2 : Vec F S12x176x4 .bf16) (x3 : Vec F S12x4 .f32) (x4 : Vec F S12x4 .f32) (x5 : Vec F S12x4 .f32) (x6 : Vec F S12x4 .f32) (x7 : Vec F S176x2 .bf16) (x8 : Vec F S2 .f32) :
    Σ' (L9 : List (View.Piece (Elt F) S10000x2 .f32)), { LS : List (View.Piece (Elt F) S10000x176 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ (∃ d, owns (c : Thread nD τ) arg9 fullShare d) ∗ (∃ s, owns (c : Thread nD τ) arg10 fullShare s)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%s10, %f10, -, H10⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact H10

/-- The result's pieces tile its block: one store of the whole block. -/
theorem cover (c : Dev nD) (i : grid0.Coords) (arg1 : Memref sig .tc .vmem S10000x128 .f32) (harg1 : arg1.IsWhole) (arg2 : Memref sig .tc .vmem S12x176x4 .bf16) (harg2 : arg2.IsWhole) (arg3 : Memref sig .tc .vmem S12x4 .f32) (harg3 : arg3.IsWhole) (arg4 : Memref sig .tc .vmem S12x4 .f32) (harg4 : arg4.IsWhole) (arg5 : Memref sig .tc .vmem S12x4 .f32) (harg5 : arg5.IsWhole) (arg6 : Memref sig .tc .vmem S12x4 .f32) (harg6 : arg6.IsWhole) (arg7 : Memref sig .tc .vmem S176x2 .bf16) (harg7 : arg7.IsWhole) (arg8 : Memref sig .tc .vmem S2 .f32) (harg8 : arg8.IsWhole) (arg9 : Memref sig .tc .vmem S10000x2 .f32) (harg9 : arg9.IsWhole) (arg10 : Memref sig .tc .vmem S10000x176 .bf16) (harg10 : arg10.IsWhole)
    (x1 : Vec F S10000x128 .f32) (x2 : Vec F S12x176x4 .bf16) (x3 : Vec F S12x4 .f32) (x4 : Vec F S12x4 .f32) (x5 : Vec F S12x4 .f32) (x6 : Vec F S12x4 .f32) (x7 : Vec F S176x2 .bf16) (x8 : Vec F S2 .f32) (y : S10000x2.Idx) :
    ∃ pc ∈ (kernelRun c i arg1 harg1 arg2 harg2 arg3 harg3 arg4 harg4 arg5 harg5 arg6 harg6 arg7 harg7 arg8 harg8 arg9 harg9 arg10 harg10 x1 x2 x3 x4 x5 x6 x7 x8).1, y ∈ pc.1.set :=
  View.cover_of_tiledL (kernelRun c i arg1 harg1 arg2 harg2 arg3 harg3 arg4 harg4 arg5 harg5 arg6 harg6 arg7 harg7 arg8 harg8 arg9 harg9 arg10 harg10 x1 x2 x3 x4 x5 x6 x7 x8).1 S10000x2.size (by sl_kernel_rfl) y

/-- What the body leaves in the result's staging buffer, from the input blocks. -/
def outBlk (c : Dev nD) (i : grid0.Coords) (arg1 : Memref sig .tc .vmem S10000x128 .f32) (harg1 : arg1.IsWhole) (arg2 : Memref sig .tc .vmem S12x176x4 .bf16) (harg2 : arg2.IsWhole) (arg3 : Memref sig .tc .vmem S12x4 .f32) (harg3 : arg3.IsWhole) (arg4 : Memref sig .tc .vmem S12x4 .f32) (harg4 : arg4.IsWhole) (arg5 : Memref sig .tc .vmem S12x4 .f32) (harg5 : arg5.IsWhole) (arg6 : Memref sig .tc .vmem S12x4 .f32) (harg6 : arg6.IsWhole) (arg7 : Memref sig .tc .vmem S176x2 .bf16) (harg7 : arg7.IsWhole) (arg8 : Memref sig .tc .vmem S2 .f32) (harg8 : arg8.IsWhole) (arg9 : Memref sig .tc .vmem S10000x2 .f32) (harg9 : arg9.IsWhole) (arg10 : Memref sig .tc .vmem S10000x176 .bf16) (harg10 : arg10.IsWhole)
    (x1 : Vec F S10000x128 .f32) (x2 : Vec F S12x176x4 .bf16) (x3 : Vec F S12x4 .f32) (x4 : Vec F S12x4 .f32) (x5 : Vec F S12x4 .f32) (x6 : Vec F S12x4 .f32) (x7 : Vec F S176x2 .bf16) (x8 : Vec F S2 .f32) : Vec F S10000x2 .f32 :=
  View.canon (kernelRun c i arg1 harg1 arg2 harg2 arg3 harg3 arg4 harg4 arg5 harg5 arg6 harg6 arg7 harg7 arg8 harg8 arg9 harg9 arg10 harg10 x1 x2 x3 x4 x5 x6 x7 x8).1

/-! ## The pipeline's proof data -/

/-- The region's invariant, with the scratch as a memref owned at some contents. -/
theorem PhiA_eq (c : Dev nD) :
    (Pipeline.ΦA spec0 c : sProp 𝕄)
      = iprop(iprop((∃ d, owns (c : Thread nD τ) (Memref.whole cc0_scratch0 : Memref sig .tc .vmem S10000x176 .bf16) fullShare d)) ∗ (∃ r, prngReg c r)) := by
  unfold Pipeline.ΦA; rw [scopedRest0_eq]; simp only [owns_whole]; try rfl

/-- The proof data of the one pipeline on core `c`: the arrays as the region finds them; after the body at
    point `t` each input's buffer at its block and the result's at `outBlk` of the input blocks; the invariant
    the scratch at anything and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t
    = outBlk c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

end Cert.KernelIdeal.Hand

end
-- ==== Proof.FrameI.lean ====
/-
  The frame of `KernelIdeal`: the body obligation at every grid point from the one run of the body, the library's
  frame run through @main, and the claim's post — every argument array ends as launched.
-/
import proofs.«124183_j12403865551019_2_alg».proof.Proof.BodyI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at any point: the inputs' memrefs hold their blocks, the scratch comes out of the invariant at
    some contents and goes back at others, and the result's buffer ends at its one piece read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after8, PhiA_eq]
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (iblk m c 0 t) (iblk m c 1 t) (iblk m c 2 t) (iblk m c 3 t) (iblk m c 4 t) (iblk m c 5 t) (iblk m c 6 t) (iblk m c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS]; · iexact HS
  iintro ⟨H0, H1, H2, H3, H4, H5, H6, H7, ⟨%f8, H8⟩, ⟨%fs, HS⟩⟩
  isplitl [HS Hr]
  · isplitl [HS]
    · iexists _; unfold owns; iexists _; isplitr
      swap; · iexact HS
      ipureintro; rfl
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns
  iexists _; isplitr
  swap; · iexact H8
  ipureintro
  unfold outBlk
  exact View.read_writes_eq_canon _ _ _ (cover c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (iblk m c 0 t) (iblk m c 1 t) (iblk m c 2 t) (iblk m c 3 t) (iblk m c 4 t) (iblk m c 5 t) (iblk m c 6 t) (iblk m c 7 t))

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and ends with every
    staged array at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Hand

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.KLayer.lean ====
/-
  One layer of the kernel, as a function and at an index.

  Every one of the twelve layers computes, from the scratch as loaded (`h`, 10000 × 176), one padded weight
  (`W`, 1 × 176 × 4) and one row each of gamma, var, beta and mean (1 × 4), the block
      max ((h · W) * scale + shift) 0,   scale = gamma * rsqrt (var + 1e-3),   shift = beta - mean * scale,
  rounded to bf16 (the identity on the extended reals).  The printed body cuts its 640 statements into ten
  windows at fixed positions, so the twelve layers appear under twelve spellings — the matmul in one named value
  and the affine map in another, and so on; `layer0 … layer11` say each spelling is the one function `layerK`.
  `layerK_apply` reads it at row `r`, unit `u`: the contraction over the 176 columns of row `r`, then the
  affine map and the maximum with zero.
-/
import proofs.«124183_j12403865551019_2_alg».proof.Proof.Gen.KernelIdeal.Skeleton
import proofs.«124183_j12403865551019_2_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer

open Cert.KernelIdeal Cert.KernelIdeal.Gen Idealize.ShloMosaic Idealize.ShloMosaic.ValueIdx

section AnyF
variable {F : FTy → Type} [FloatOps F]
variable (h : Vec F S10000x176 .bf16) (W : Vec F S1x176x4 .bf16) (g v b mu : Vec F S1x4 .f32)

/-- One layer: the four new columns from the loaded scratch, the layer's padded weight and its rows of
    gamma, var, beta, mean. -/
def layerK : FVec F S10000x4 .bf16 := k0_pay8 h W g v b mu

theorem layer0 : k0_pay7 (k0_pay5 h W g v b mu) (k0_pay6 (F := F)) = layerK h W g v b mu := rfl
theorem layer1 : k0_pay8 h W g v b mu = layerK h W g v b mu := rfl
theorem layer2 : k0_pay9 h W g v b mu = layerK h W g v b mu := rfl
theorem layer3 : k0_pay12 (k0_pay10 h W) (k0_pay11 g) v b mu = layerK h W g v b mu := rfl
theorem layer4 : k0_pay15 (k0_pay13 h W) (k0_pay14 g v) b mu = layerK h W g v b mu := rfl
theorem layer5 : k0_pay19 (k0_pay17 g v b mu) (k0_pay18 h W g v) = layerK h W g v b mu := rfl
theorem layer6 : k0_pay21 (k0_pay20 h W g v b mu) = layerK h W g v b mu := rfl
theorem layer7 : k0_pay22 h W g v b mu = layerK h W g v b mu := rfl
theorem layer8 : k0_pay24 h (k0_pay23 W) (constant S10000x4 .f32 0#32) g v b mu = layerK h W g v b mu := rfl
theorem layer9 : k0_pay29 (k0_pay25 h W) (k0_pay26 g) (k0_pay27 v) (k0_pay28 (F := F)) b mu = layerK h W g v b mu := rfl
theorem layer10 : k0_pay34 (k0_pay30 h W) (k0_pay31 g v) (k0_pay32 b) (k0_pay33 mu) = layerK h W g v b mu := rfl
theorem layer11 : k0_pay1 (k0_pay35 h W g v b mu) = layerK h W g v b mu := rfl

end AnyF

/-- The layer's scale at unit `u`: `gamma * rsqrt (var + 1e-3)`. -/
def scaleAt (g v : Vec Ideal S1x4 .f32) (u : Fin 4) : EReal :=
  g (ix2 (0 : Fin 1) u) * Ideal.rsqrt (v (ix2 (0 : Fin 1) u) + Ideal.ofBits .f32 0x3A83126F#32)

/-- The layer's shift at unit `u`: `beta - mean * scale`. -/
def shiftAt (g v b mu : Vec Ideal S1x4 .f32) (u : Fin 4) : EReal :=
  b (ix2 (0 : Fin 1) u) - mu (ix2 (0 : Fin 1) u) * scaleAt g v u

theorem layerK_apply (h : Vec Ideal S10000x176 .bf16) (W : Vec Ideal S1x176x4 .bf16) (g v b mu : Vec Ideal S1x4 .f32)
    (r : Fin 10000) (u : Fin 4) :
    layerK h W g v b mu (ix2 r u)
      = max ((∑ k : Fin 176, h (ix2 r k) * W (ix3 (0 : Fin 1) k u)) * scaleAt g v u + shiftAt g v b mu u)
          (Ideal.ofBits .f32 0x00000000#32) := by
  unfold layerK k0_pay8
  rw [shapeCast_self]
  show max ((matmul dot_S10000x176_S176x4_S10000x4_1_0_0_1_n_n none h (shapeCast S176x4 W shapeCasts_S1x176x4_S176x4) (constant S10000x4 .f32 0x00000000#32)) (ix2 r u)
        * (broadcastTo S10000x4 (shapeCast S1x4 (mulf (shapeCast S4 g shapeCasts_S1x4_S4) (rsqrt (addf (shapeCast S4 v shapeCasts_S1x4_S4) (broadcast S4 (Scalar.ofBits .f32 0x3A83126F#32))))) shapeCasts_S4_S1x4) broadcasts_S1x4_S10000x4) (ix2 r u)
        + (broadcastTo S10000x4 (shapeCast S1x4 (subf (shapeCast S4 b shapeCasts_S1x4_S4) (mulf (shapeCast S4 mu shapeCasts_S1x4_S4) (mulf (shapeCast S4 g shapeCasts_S1x4_S4) (rsqrt (addf (shapeCast S4 v shapeCasts_S1x4_S4) (broadcast S4 (Scalar.ofBits .f32 0x3A83126F#32))))))) shapeCasts_S4_S1x4) broadcasts_S1x4_S10000x4) (ix2 r u))
        (Ideal.ofBits .f32 0x00000000#32) = _
  rw [Cert.LibMatmulNN.matmul_nn_apply dot_S10000x176_S176x4_S10000x4_1_0_0_1_n_n rfl rfl rfl rfl rfl rfl none h _ r u,
    broadcastTo_1b_ab_apply, broadcastTo_1b_ab_apply, shapeCast_a_1a_apply, shapeCast_a_1a_apply]
  simp only [shapeCast_1ab_ab_apply]
  show max ((∑ k : Fin 176, h (ix2 r k) * W (ix3 (0 : Fin 1) k u))
        * ((shapeCast S4 g shapeCasts_S1x4_S4) (ix1 u) * Ideal.rsqrt ((shapeCast S4 v shapeCasts_S1x4_S4) (ix1 u) + Ideal.ofBits .f32 0x3A83126F#32))
        + ((shapeCast S4 b shapeCasts_S1x4_S4) (ix1 u) - (shapeCast S4 mu shapeCasts_S1x4_S4) (ix1 u)
            * ((shapeCast S4 g shapeCasts_S1x4_S4) (ix1 u) * Ideal.rsqrt ((shapeCast S4 v shapeCasts_S1x4_S4) (ix1 u) + Ideal.ofBits .f32 0x3A83126F#32))))
        (Ideal.ofBits .f32 0x00000000#32) = _
  simp only [shapeCast_1a_a_apply]
  rfl

end Cert.KernelIdeal.Layer

end
-- ==== Proof.KScratch.lean ====
/-
  What the scratch holds, layer by layer, in one run of the kernel's body (any float instance).

  The run's witness lists the scratch's stores last first.  After the two filling stores (`H10_2`: 48 zero
  columns, then the 128 columns of `x`) each layer `i` puts one more piece in front: the four columns
  `44 - 4 i … 47 - 4 i`, holding `layerK` of the scratch as loaded just before (the canon of the list so far),
  the layer's padded weight and its rows of gamma, var, beta, mean.  `H3_eq … H14_eq` say so for the twelve
  layers — each by unfolding the run's names, the layer's spelling being `layerK` (Layer.lean) —, `load_eq`
  that a load of the whole scratch after the stores `L` reads `View.canon L`, and `out_eq` that the result's
  one piece is the head `k0_pay2` of the scratch after the twelfth layer.
-/
import proofs.«124183_j12403865551019_2_alg».proof.Proof.BodyI
import proofs.«124183_j12403865551019_2_alg».proof.Proof.KLayer

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]
variable (c : Dev nD) (arg1 : Memref sig .tc .vmem S10000x128 .f32) (harg1 : arg1.IsWhole) (arg2 : Memref sig .tc .vmem S12x176x4 .bf16) (harg2 : arg2.IsWhole) (arg3 : Memref sig .tc .vmem S12x4 .f32) (harg3 : arg3.IsWhole) (arg4 : Memref sig .tc .vmem S12x4 .f32) (harg4 : arg4.IsWhole) (arg5 : Memref sig .tc .vmem S12x4 .f32) (harg5 : arg5.IsWhole) (arg6 : Memref sig .tc .vmem S12x4 .f32) (harg6 : arg6.IsWhole) (arg10 : Memref sig .tc .vmem S10000x176 .bf16)
variable (x1 : Vec F S10000x128 .f32) (x2 : Vec F S12x176x4 .bf16) (x3 x4 x5 x6 : Vec F S12x4 .f32)

/-- A load of the whole scratch after the stores `L` reads the canon of `L`. -/
theorem load_eq (L : List (View.Piece (Elt F) S10000x176 .bf16)) :
    arg10.view.readCov L (Rect.unit (s := S10000x176) ![0, 0] S10000x176.size inb_S10000x176_S10000x176_0_0).toLoadRect = View.canon L :=
  (View.readCov_eq_canon' _ L _).trans
    (View.ld_unit_zero (S := S10000x176) (funext fun a => by fin_cases a <;> rfl) inb_S10000x176_S10000x176_0_0 (View.canon L))

/-- The two filling stores: the rows of `x` behind 48 zero columns. -/
theorem H2_eq : kernelRun.sl.H10_2 c arg1 harg1 x1
    = [⟨Rect.unit (s := S10000x176) ![0, 48] S10000x128.size inb_S10000x176_S10000x128_0_48,
        k0_pay4 (View.readAt (Elt F) arg1.view (Rect.unit (s := S10000x128) ![0, 0] S10000x128.size inb_S10000x128_S10000x128_0_0).toLoadRect (harg1.unread x1))⟩,
       ⟨Rect.unit (s := S10000x176) ![0, 0] S10000x48.size inb_S10000x176_S10000x48_0_0, k0_pay3 (F := F)⟩] := rfl

/-- Layer 0: columns 44 … 47. -/
theorem H3_eq : kernelRun.sl.H10_3 c arg1 harg1 arg2 harg2 arg3 harg3 arg4 harg4 arg5 harg5 arg6 harg6 arg10 x1 x2 x3 x4 x5 x6
    = ⟨Rect.unit (s := S10000x176) ![0, 44] S10000x4.size inb_S10000x176_S10000x4_0_44,
        Layer.layerK (kernelRun.sl.v9 c arg1 harg1 arg10 x1) (View.readAt (Elt F) arg2.view (Rect.unit (s := S12x176x4) ![0, 0, 0] S1x176x4.size inb_S12x176x4_S1x176x4_0_0_0).toLoadRect (harg2.unread x2)) (View.readAt (Elt F) arg3.view (Rect.unit (s := S12x4) ![0, 0] S1x4.size inb_S12x4_S1x4_0_0).toLoadRect (harg3.unread x3)) (View.readAt (Elt F) arg6.view (Rect.unit (s := S12x4) ![0, 0] S1x4.size inb_S12x4_S1x4_0_0).toLoadRect (harg6.unread x6)) (View.readAt (Elt F) arg4.view (Rect.unit (s := S12x4) ![0, 0] S1x4.size inb_S12x4_S1x4_0_0).toLoadRect (harg4.unread x4)) (View.readAt (Elt F) arg5.view (Rect.unit (s := S12x4) ![0, 0] S1x4.size inb_S12x4_S1x4_0_0).toLoadRect (harg5.unread x5))⟩
      :: kernelRun.sl.H10_2 c arg1 harg1 x1 := rfl
/-- Layer 1: columns 40 … 43. -/
theorem H4_eq : kernelRun.sl.H10_4 c arg1 harg1 arg2 harg2 arg3 harg3 arg4 harg4 arg5 harg5 arg6 harg6 arg10 x1 x2 x3 x4 x5 x6
    = ⟨Rect.unit (s := S10000x176) ![0, 40] S10000x4.size inb_S10000x176_S10000x4_0_40,
        Layer.layerK (kernelRun.sl.v39 c arg1 harg1 arg2 harg2 arg3 harg3 arg4 harg4 arg5 harg5 arg6 harg6 arg10 x1 x2 x3 x4 x5 x6) (View.readAt (Elt F) arg2.view (Rect.unit (s := S12x176x4) ![1, 0, 0] S1x176x4.size inb_S12x176x4_S1x176x4_1_0_0).toLoadRect (harg2.unread x2)) (View.readAt (Elt F) arg3.view (Rect.unit (s := S12x4) ![1, 0] S1x4.size inb_S12x4_S1x4_1_0).toLoadRect (harg3.unread x3)) (View.readAt (Elt F) arg6.view (Rect.unit (s := S12x4) ![1, 0] S1x4.size inb_S12x4_S1x4_1_0).toLoadRect (harg6.unread x6)) (View.readAt (Elt F) arg4.view (Rect.unit (s := S12x4) ![1, 0] S1x4.size inb_S12x4_S1x4_1_0).toLoadRect (harg4.unread x4)) (View.readAt (Elt F) arg5.view (Rect.unit (s := S12x4) ![1, 0] S1x4.size inb_S12x4_S1x4_1_0).toLoadRect (harg5.unread x5))⟩
      :: kernelRun.sl.H10_3 c arg1 harg1 arg2 harg2 arg3 harg3 arg4 harg4 arg5 harg5 arg6 harg6 arg10 x1 x2 x3 x4 x5 x6 := rfl
/-- Layer 2: columns 36 … 39. -/
theorem H5_eq : kernelRun.sl.H10_5 c arg1 harg1 arg2 harg2 arg3 harg3 arg4 harg4 arg5 harg5 arg6 harg6 arg10 x1 x2 x3 x4 x5 x6
    = ⟨Rect.unit (s := S10000x176) ![0, 36] S10000x4.size inb_S10000x176_S10000x4_0_36,
        Layer.layerK (kernelRun.sl.v c arg1 harg1 arg2 harg2 arg3 harg3 arg4 harg4 arg5 harg5 arg6 harg6 arg10 x1 x2 x3 x4 x5 x6) (View.readAt (Elt F) arg2.view (Rect.unit (s := S12x176x4) ![2, 0, 0] S1x176x4.size inb_S12x176x4_S1x176x4_2_0_0).toLoadRect (harg2.unread x2)) (View.readAt (Elt F) arg3.view (Rect.unit (s := S12x4) ![2, 0] S1x4.size inb_S12x4_S1x4_2_0).toLoadRect (harg3.unread x3)) (View.readAt (Elt F) arg6.view (Rect.unit (s := S12x4) ![2, 0] S1x4.size inb_S12x4_S1x4_2_0).toLoadRect (harg6.unread x6)) (View.readAt (Elt F) arg4.view (Rect.unit (s := S12x4) ![2, 0] S1x4.size inb_S12x4_S1x4_2_0).toLoadRect (harg4.unread x4)) (View.readAt (Elt F) arg5.view (Rect.unit (s := S12x4) ![2, 0] S1x4.size inb_S12x4_S1x4_2_0).toLoadRect (harg5.unread x5))⟩
      :: kernelRun.sl.H10_4 c arg1 harg1 arg2 harg2 arg3 harg3 arg4 harg4 arg5 harg5 arg6 harg6 arg10 x1 x2 x3 x4 x5 x6 := rfl
/-- Layer 3: columns 32 … 35. -/
theorem H6_eq : kernelRun.sl.H10_6 c arg1 harg1 arg2 harg2 arg3 harg3 arg4 harg4 arg5 harg5 arg6 harg6 arg10 x1 x2 x3 x4 x5 x6
    = ⟨Rect.unit (s := S10000x176) ![0, 32] S10000x4.size inb_S10000x176_S10000x4_0_32,
        Layer.layerK (kernelRun.sl.v99 c arg1 harg1 arg2 harg2 arg3 harg3 arg4 harg4 arg5 harg5 arg6 harg6 arg10 x1 x2 x3 x4 x5 x6) (View.readAt (Elt F) arg2.view (Rect.unit (s := S12x176x4) ![3, 0, 0] S1x176x4.size inb_S12x176x4_S1x176x4_3_0_0).toLoadRect (harg2.unread x2)) (View.readAt (Elt F) arg3.view (Rect.unit (s := S12x4) ![3, 0] S1x4.size inb_S12x4_S1x4_3_0).toLoadRect (harg3.unread x3)) (View.readAt (Elt F) arg6.view (Rect.unit (s := S12x4) ![3, 0] S1x4.size inb_S12x4_S1x4_3_0).toLoadRect (harg6.unread x6)) (View.readAt (Elt F) arg4.view (Rect.unit (s := S12x4) ![3, 0] S1x4.size inb_S12x4_S1x4_3_0).toLoadRect (harg4.unread x4)) (View.readAt (Elt F) arg5.view (Rect.unit (s := S12x4) ![3, 0] S1x4.size inb_S12x4_S1x4_3_0).toLoadRect (harg5.unread x5))⟩
      :: kernelRun.sl.H10_5 c arg1 harg1 arg2 harg2 arg3 harg3 arg4 harg4 arg5 harg5 arg6 harg6 arg10 x1 x2 x3 x4 x5 x6 := rfl
/-- Layer 4: columns 28 … 31. -/
theorem H7_eq : kernelRun.sl.H10_7 c arg1 harg1 arg2 harg2 arg3 harg3 arg4 harg4 arg5 harg5 arg6 harg6 arg10 x1 x2 x3 x4 x5 x6
    = ⟨Rect.unit (s := S10000x176) ![0, 28] S10000x4.size inb_S10000x176_S10000x4_0_28,
        Layer.layerK (kernelRun.sl.v129 c arg1 harg1 arg2 harg2 arg3 harg3 arg4 harg4 arg5 harg5 arg6 harg6 arg10 x1 x2 x3 x4 x5 x6) (View.readAt (Elt F) arg2.view (Rect.unit (s := S12x176x4) ![4, 0, 0] S1x176x4.size inb_S12x176x4_S1x176x4_4_0_0).toLoadRect (harg2.unread x2)) (View.readAt (Elt F) arg3.view (Rect.unit (s := S12x4) ![4, 0] S1x4.size inb_S12x4_S1x4_4_0).toLoadRect (harg3.unread x3)) (View.readAt (Elt F) arg6.view (Rect.unit (s := S12x4) ![4, 0] S1x4.size inb_S12x4_S1x4_4_0).toLoadRect (harg6.unread x6)) (View.readAt (Elt F) arg4.view (Rect.unit (s := S12x4) ![4, 0] S1x4.size inb_S12x4_S1x4_4_0).toLoadRect (harg4.unread x4)) (View.readAt (Elt F) arg5.view (Rect.unit (s := S12x4) ![4, 0] S1x4.size inb_S12x4_S1x4_4_0).toLoadRect (harg5.unread x5))⟩
      :: kernelRun.sl.H10_6 c arg1 harg1 arg2 harg2 arg3 harg3 arg4 harg4 arg5 harg5 arg6 harg6 arg10 x1 x2 x3 x4 x5 x6 := rfl
/-- Layer 5: columns 24 … 27. -/
theorem H8_eq : kernelRun.sl.H10_8 c arg1 harg1 arg2 harg2 arg3 harg3 arg4 harg4 arg5 harg5 arg6 harg6 arg10 x1 x2 x3 x4 x5 x6
    = ⟨Rect.unit (s := S10000x176) ![0, 24] S10000x4.size inb_S10000x176_S10000x4_0_24,
        Layer.layerK (kernelRun.sl.v159 c arg1 harg1 arg2 harg2 arg3 harg3 arg4 harg4 arg5 harg5 arg6 harg6 arg10 x1 x2 x3 x4 x5 x6) (View.readAt (Elt F) arg2.view (Rect.unit (s := S12x176x4) ![5, 0, 0] S1x176x4.size inb_S12x176x4_S1x176x4_5_0_0).toLoadRect (harg2.unread x2)) (View.readAt (Elt F) arg3.view (Rect.unit (s := S12x4) ![5, 0] S1x4.size inb_S12x4_S1x4_5_0).toLoadRect (harg3.unread x3)) (View.readAt (Elt F) arg6.view (Rect.unit (s := S12x4) ![5, 0] S1x4.size inb_S12x4_S1x4_5_0).toLoadRect (harg6.unread x6)) (View.readAt (Elt F) arg4.view (Rect.unit (s := S12x4) ![5, 0] S1x4.size inb_S12x4_S1x4_5_0).toLoadRect (harg4.unread x4)) (View.readAt (Elt F) arg5.view (Rect.unit (s := S12x4) ![5, 0] S1x4.size inb_S12x4_S1x4_5_0).toLoadRect (harg5.unread x5))⟩
      :: kernelRun.sl.H10_7 c arg1 harg1 arg2 harg2 arg3 harg3 arg4 harg4 arg5 harg5 arg6 harg6 arg10 x1 x2 x3 x4 x5 x6 := rfl
/-- Layer 6: columns 20 … 23. -/
theorem H9_eq : kernelRun.sl.H10_9 c arg1 harg1 arg2 harg2 arg3 harg3 arg4 harg4 arg5 harg5 arg6 harg6 arg10 x1 x2 x3 x4 x5 x6
    = ⟨Rect.unit (s := S10000x176) ![0, 20] S10000x4.size inb_S10000x176_S10000x4_0_20,
        Layer.layerK (kernelRun.sl.v189 c arg1 harg1 arg2 harg2 arg3 harg3 arg4 harg4 arg5 harg5 arg6 harg6 arg10 x1 x2 x3 x4 x5 x6) (View.readAt (Elt F) arg2.view (Rect.unit (s := S12x176x4) ![6, 0, 0] S1x176x4.size inb_S12x176x4_S1x176x4_6_0_0).toLoadRect (harg2.unread x2)) (View.readAt (Elt F) arg3.view (Rect.unit (s := S12x4) ![6, 0] S1x4.size inb_S12x4_S1x4_6_0).toLoadRect (harg3.unread x3)) (View.readAt (Elt F) arg6.view (Rect.unit (s := S12x4) ![6, 0] S1x4.size inb_S12x4_S1x4_6_0).toLoadRect (harg6.unread x6)) (View.readAt (Elt F) arg4.view (Rect.unit (s := S12x4) ![6, 0] S1x4.size inb_S12x4_S1x4_6_0).toLoadRect (harg4.unread x4)) (View.readAt (Elt F) arg5.view (Rect.unit (s := S12x4) ![6, 0] S1x4.size inb_S12x4_S1x4_6_0).toLoadRect (harg5.unread x5))⟩
      :: kernelRun.sl.H10_8 c arg1 harg1 arg2 harg2 arg3 harg3 arg4 harg4 arg5 harg5 arg6 harg6 arg10 x1 x2 x3 x4 x5 x6 := rfl
/-- Layer 7: columns 16 … 19. -/
theorem H10_eq : kernelRun.sl.H10_10 c arg1 harg1 arg2 harg2 arg3 harg3 arg4 harg4 arg5 harg5 arg6 harg6 arg10 x1 x2 x3 x4 x5 x6
    = ⟨Rect.unit (s := S10000x176) ![0, 16] S10000x4.size inb_S10000x176_S10000x4_0_16,
        Layer.layerK (kernelRun.sl.v219 c arg1 harg1 arg2 harg2 arg3 harg3 arg4 harg4 arg5 harg5 arg6 harg6 arg10 x1 x2 x3 x4 x5 x6) (View.readAt (Elt F) arg2.view (Rect.unit (s := S12x176x4) ![7, 0, 0] S1x176x4.size inb_S12x176x4_S1x176x4_7_0_0).toLoadRect (harg2.unread x2)) (View.readAt (Elt F) arg3.view (Rect.unit (s := S12x4) ![7, 0] S1x4.size inb_S12x4_S1x4_7_0).toLoadRect (harg3.unread x3)) (View.readAt (Elt F) arg6.view (Rect.unit (s := S12x4) ![7, 0] S1x4.size inb_S12x4_S1x4_7_0).toLoadRect (harg6.unread x6)) (View.readAt (Elt F) arg4.view (Rect.unit (s := S12x4) ![7, 0] S1x4.size inb_S12x4_S1x4_7_0).toLoadRect (harg4.unread x4)) (View.readAt (Elt F) arg5.view (Rect.unit (s := S12x4) ![7, 0] S1x4.size inb_S12x4_S1x4_7_0).toLoadRect (harg5.unread x5))⟩
      :: kernelRun.sl.H10_9 c arg1 harg1 arg2 harg2 arg3 harg3 arg4 harg4 arg5 harg5 arg6 harg6 arg10 x1 x2 x3 x4 x5 x6 := rfl
/-- Layer 8: columns 12 … 15. -/
theorem H11_eq : kernelRun.sl.H10_11 c arg1 harg1 arg2 harg2 arg3 harg3 arg4 harg4 arg5 harg5 arg6 harg6 arg10 x1 x2 x3 x4 x5 x6
    = ⟨Rect.unit (s := S10000x176) ![0, 12] S10000x4.size inb_S10000x176_S10000x4_0_12,
        Layer.layerK (kernelRun.sl.v249 c arg1 harg1 arg2 harg2 arg3 harg3 arg4 harg4 arg5 harg5 arg6 harg6 arg10 x1 x2 x3 x4 x5 x6) (View.readAt (Elt F) arg2.view (Rect.unit (s := S12x176x4) ![8, 0, 0] S1x176x4.size inb_S12x176x4_S1x176x4_8_0_0).toLoadRect (harg2.unread x2)) (View.readAt (Elt F) arg3.view (Rect.unit (s := S12x4) ![8, 0] S1x4.size inb_S12x4_S1x4_8_0).toLoadRect (harg3.unread x3)) (View.readAt (Elt F) arg6.view (Rect.unit (s := S12x4) ![8, 0] S1x4.size inb_S12x4_S1x4_8_0).toLoadRect (harg6.unread x6)) (View.readAt (Elt F) arg4.view (Rect.unit (s := S12x4) ![8, 0] S1x4.size inb_S12x4_S1x4_8_0).toLoadRect (harg4.unread x4)) (View.readAt (Elt F) arg5.view (Rect.unit (s := S12x4) ![8, 0] S1x4.size inb_S12x4_S1x4_8_0).toLoadRect (harg5.unread x5))⟩
      :: kernelRun.sl.H10_10 c arg1 harg1 arg2 harg2 arg3 harg3 arg4 harg4 arg5 harg5 arg6 harg6 arg10 x1 x2 x3 x4 x5 x6 := rfl
/-- Layer 9: columns 8 … 11. -/
theorem H12_eq : kernelRun.sl.H10_12 c arg1 harg1 arg2 harg2 arg3 harg3 arg4 harg4 arg5 harg5 arg6 harg6 arg10 x1 x2 x3 x4 x5 x6
    = ⟨Rect.unit (s := S10000x176) ![0, 8] S10000x4.size inb_S10000x176_S10000x4_0_8,
        Layer.layerK (kernelRun.sl.v279 c arg1 harg1 arg2 harg2 arg3 harg3 arg4 harg4 arg5 harg5 arg6 harg6 arg10 x1 x2 x3 x4 x5 x6) (View.readAt (Elt F) arg2.view (Rect.unit (s := S12x176x4) ![9, 0, 0] S1x176x4.size inb_S12x176x4_S1x176x4_9_0_0).toLoadRect (harg2.unread x2)) (View.readAt (Elt F) arg3.view (Rect.unit (s := S12x4) ![9, 0] S1x4.size inb_S12x4_S1x4_9_0).toLoadRect (harg3.unread x3)) (View.readAt (Elt F) arg6.view (Rect.unit (s := S12x4) ![9, 0] S1x4.size inb_S12x4_S1x4_9_0).toLoadRect (harg6.unread x6)) (View.readAt (Elt F) arg4.view (Rect.unit (s := S12x4) ![9, 0] S1x4.size inb_S12x4_S1x4_9_0).toLoadRect (harg4.unread x4)) (View.readAt (Elt F) arg5.view (Rect.unit (s := S12x4) ![9, 0] S1x4.size inb_S12x4_S1x4_9_0).toLoadRect (harg5.unread x5))⟩
      :: kernelRun.sl.H10_11 c arg1 harg1 arg2 harg2 arg3 harg3 arg4 harg4 arg5 harg5 arg6 harg6 arg10 x1 x2 x3 x4 x5 x6 := rfl
/-- Layer 10: columns 4 … 7. -/
theorem H13_eq : kernelRun.sl.H10_13 c arg1 harg1 arg2 harg2 arg3 harg3 arg4 harg4 arg5 harg5 arg6 harg6 arg10 x1 x2 x3 x4 x5 x6
    = ⟨Rect.unit (s := S10000x176) ![0, 4] S10000x4.size inb_S10000x176_S10000x4_0_4,
        Layer.layerK (kernelRun.sl.v309 c arg1 harg1 arg2 harg2 arg3 harg3 arg4 harg4 arg5 harg5 arg6 harg6 arg10 x1 x2 x3 x4 x5 x6) (View.readAt (Elt F) arg2.view (Rect.unit (s := S12x176x4) ![10, 0, 0] S1x176x4.size inb_S12x176x4_S1x176x4_10_0_0).toLoadRect (harg2.unread x2)) (View.readAt (Elt F) arg3.view (Rect.unit (s := S12x4) ![10, 0] S1x4.size inb_S12x4_S1x4_10_0).toLoadRect (harg3.unread x3)) (View.readAt (Elt F) arg6.view (Rect.unit (s := S12x4) ![10, 0] S1x4.size inb_S12x4_S1x4_10_0).toLoadRect (harg6.unread x6)) (View.readAt (Elt F) arg4.view (Rect.unit (s := S12x4) ![10, 0] S1x4.size inb_S12x4_S1x4_10_0).toLoadRect (harg4.unread x4)) (View.readAt (Elt F) arg5.view (Rect.unit (s := S12x4) ![10, 0] S1x4.size inb_S12x4_S1x4_10_0).toLoadRect (harg5.unread x5))⟩
      :: kernelRun.sl.H10_12 c arg1 harg1 arg2 harg2 arg3 harg3 arg4 harg4 arg5 harg5 arg6 harg6 arg10 x1 x2 x3 x4 x5 x6 := rfl
/-- Layer 11: columns 0 … 3. -/
theorem H14_eq : kernelRun.sl.H10_14 c arg1 harg1 arg2 harg2 arg3 harg3 arg4 harg4 arg5 harg5 arg6 harg6 arg10 x1 x2 x3 x4 x5 x6
    = ⟨Rect.unit (s := S10000x176) ![0, 0] S10000x4.size inb_S10000x176_S10000x4_0_0,
        Layer.layerK (kernelRun.sl.v339 c arg1 harg1 arg2 harg2 arg3 harg3 arg4 harg4 arg5 harg5 arg6 harg6 arg10 x1 x2 x3 x4 x5 x6) (View.readAt (Elt F) arg2.view (Rect.unit (s := S12x176x4) ![11, 0, 0] S1x176x4.size inb_S12x176x4_S1x176x4_11_0_0).toLoadRect (harg2.unread x2)) (View.readAt (Elt F) arg3.view (Rect.unit (s := S12x4) ![11, 0] S1x4.size inb_S12x4_S1x4_11_0).toLoadRect (harg3.unread x3)) (View.readAt (Elt F) arg6.view (Rect.unit (s := S12x4) ![11, 0] S1x4.size inb_S12x4_S1x4_11_0).toLoadRect (harg6.unread x6)) (View.readAt (Elt F) arg4.view (Rect.unit (s := S12x4) ![11, 0] S1x4.size inb_S12x4_S1x4_11_0).toLoadRect (harg4.unread x4)) (View.readAt (Elt F) arg5.view (Rect.unit (s := S12x4) ![11, 0] S1x4.size inb_S12x4_S1x4_11_0).toLoadRect (harg5.unread x5))⟩
      :: kernelRun.sl.H10_13 c arg1 harg1 arg2 harg2 arg3 harg3 arg4 harg4 arg5 harg5 arg6 harg6 arg10 x1 x2 x3 x4 x5 x6 := rfl

theorem v9_eq : kernelRun.sl.v9 c arg1 harg1 arg10 x1 = View.canon (kernelRun.sl.H10_2 c arg1 harg1 x1) :=
  load_eq arg10 _
theorem v39_eq : kernelRun.sl.v39 c arg1 harg1 arg2 harg2 arg3 harg3 arg4 harg4 arg5 harg5 arg6 harg6 arg10 x1 x2 x3 x4 x5 x6 = View.canon (kernelRun.sl.H10_3 c arg1 harg1 arg2 harg2 arg3 harg3 arg4 harg4 arg5 harg5 arg6 harg6 arg10 x1 x2 x3 x4 x5 x6) :=
  load_eq arg10 _
theorem v_eq : kernelRun.sl.v c arg1 harg1 arg2 harg2 arg3 harg3 arg4 harg4 arg5 harg5 arg6 harg6 arg10 x1 x2 x3 x4 x5 x6 = View.canon (kernelRun.sl.H10_4 c arg1 harg1 arg2 harg2 arg3 harg3 arg4 harg4 arg5 harg5 arg6 harg6 arg10 x1 x2 x3 x4 x5 x6) :=
  load_eq arg10 _
theorem v99_eq : kernelRun.sl.v99 c arg1 harg1 arg2 harg2 arg3 harg3 arg4 harg4 arg5 harg5 arg6 harg6 arg10 x1 x2 x3 x4 x5 x6 = View.canon (kernelRun.sl.H10_5 c arg1 harg1 arg2 harg2 arg3 harg3 arg4 harg4 arg5 harg5 arg6 harg6 arg10 x1 x2 x3 x4 x5 x6) :=
  load_eq arg10 _
theorem v129_eq : kernelRun.sl.v129 c arg1 harg1 arg2 harg2 arg3 harg3 arg4 harg4 arg5 harg5 arg6 harg6 arg10 x1 x2 x3 x4 x5 x6 = View.canon (kernelRun.sl.H10_6 c arg1 harg1 arg2 harg2 arg3 harg3 arg4 harg4 arg5 harg5 arg6 harg6 arg10 x1 x2 x3 x4 x5 x6) :=
  load_eq arg10 _
theorem v159_eq : kernelRun.sl.v159 c arg1 harg1 arg2 harg2 arg3 harg3 arg4 harg4 arg5 harg5 arg6 harg6 arg10 x1 x2 x3 x4 x5 x6 = View.canon (kernelRun.sl.H10_7 c arg1 harg1 arg2 harg2 arg3 harg3 arg4 harg4 arg5 harg5 arg6 harg6 arg10 x1 x2 x3 x4 x5 x6) :=
  load_eq arg10 _
theorem v189_eq : kernelRun.sl.v189 c arg1 harg1 arg2 harg2 arg3 harg3 arg4 harg4 arg5 harg5 arg6 harg6 arg10 x1 x2 x3 x4 x5 x6 = View.canon (kernelRun.sl.H10_8 c arg1 harg1 arg2 harg2 arg3 harg3 arg4 harg4 arg5 harg5 arg6 harg6 arg10 x1 x2 x3 x4 x5 x6) :=
  load_eq arg10 _
theorem v219_eq : kernelRun.sl.v219 c arg1 harg1 arg2 harg2 arg3 harg3 arg4 harg4 arg5 harg5 arg6 harg6 arg10 x1 x2 x3 x4 x5 x6 = View.canon (kernelRun.sl.H10_9 c arg1 harg1 arg2 harg2 arg3 harg3 arg4 harg4 arg5 harg5 arg6 harg6 arg10 x1 x2 x3 x4 x5 x6) :=
  load_eq arg10 _
theorem v249_eq : kernelRun.sl.v249 c arg1 harg1 arg2 harg2 arg3 harg3 arg4 harg4 arg5 harg5 arg6 harg6 arg10 x1 x2 x3 x4 x5 x6 = View.canon (kernelRun.sl.H10_10 c arg1 harg1 arg2 harg2 arg3 harg3 arg4 harg4 arg5 harg5 arg6 harg6 arg10 x1 x2 x3 x4 x5 x6) :=
  load_eq arg10 _
theorem v279_eq : kernelRun.sl.v279 c arg1 harg1 arg2 harg2 arg3 harg3 arg4 harg4 arg5 harg5 arg6 harg6 arg10 x1 x2 x3 x4 x5 x6 = View.canon (kernelRun.sl.H10_11 c arg1 harg1 arg2 harg2 arg3 harg3 arg4 harg4 arg5 harg5 arg6 harg6 arg10 x1 x2 x3 x4 x5 x6) :=
  load_eq arg10 _
theorem v309_eq : kernelRun.sl.v309 c arg1 harg1 arg2 harg2 arg3 harg3 arg4 harg4 arg5 harg5 arg6 harg6 arg10 x1 x2 x3 x4 x5 x6 = View.canon (kernelRun.sl.H10_12 c arg1 harg1 arg2 harg2 arg3 harg3 arg4 harg4 arg5 harg5 arg6 harg6 arg10 x1 x2 x3 x4 x5 x6) :=
  load_eq arg10 _
theorem v339_eq : kernelRun.sl.v339 c arg1 harg1 arg2 harg2 arg3 harg3 arg4 harg4 arg5 harg5 arg6 harg6 arg10 x1 x2 x3 x4 x5 x6 = View.canon (kernelRun.sl.H10_13 c arg1 harg1 arg2 harg2 arg3 harg3 arg4 harg4 arg5 harg5 arg6 harg6 arg10 x1 x2 x3 x4 x5 x6) :=
  load_eq arg10 _
theorem v369_eq : kernelRun.sl.v369 c arg1 harg1 arg2 harg2 arg3 harg3 arg4 harg4 arg5 harg5 arg6 harg6 arg10 x1 x2 x3 x4 x5 x6 = View.canon (kernelRun.sl.H10_14 c arg1 harg1 arg2 harg2 arg3 harg3 arg4 harg4 arg5 harg5 arg6 harg6 arg10 x1 x2 x3 x4 x5 x6) :=
  load_eq arg10 _

end Cert.KernelIdeal.Hand

end
-- ==== Proof.DenseStack.lean ====
/-
  The mathematics that joins the two programs, over the extended reals and free of any program text.

  A densely connected stack: layer `i` (of twelve) reads a row vector `h_i` of width `128 + 4 i`, forms four
  numbers `y_i u = act i u (Σ_k h_i k · w_i k u)`, and hands on `h_{i+1} = [y_i, h_i]` (the four new numbers in
  front).  The reference builds exactly these growing vectors (`grow`).  The kernel keeps ONE vector of width
  176 = 128 + 48 (`fixed`): it starts as 48 zeros followed by the input, layer `i` overwrites the four
  positions `44 - 4 i … 47 - 4 i` — just in front of what is already there — and every layer contracts the whole
  vector against the weight with `48 - 4 i` zero rows put in front (`wp`).  `fixed_eq`: after `i` layers the
  fixed vector is `48 - 4 i` zeros followed by `h_i`.  The only arithmetic used is that a product with a zero
  factor is zero and that a finite sum may drop zero terms, both true on the extended reals whatever the other
  entries are, so nothing here asks for finite inputs.
-/
import Mathlib.Data.EReal.Basic
import Mathlib.Algebra.BigOperators.Intervals

noncomputable section

namespace Cert.DenseStack

open Finset

/-- A sum whose first `o` terms vanish, both factors shifted by `o` behind them, is the unshifted sum. -/
theorem sum_shift (a b : ℕ → EReal) (o n : ℕ) (ho : o ≤ n) :
    ∑ j ∈ range n, (if j < o then (0 : EReal) else a (j - o)) * (if j < o then (0 : EReal) else b (j - o))
      = ∑ j ∈ range (n - o), a j * b j := by
  have hsplit := Finset.sum_Ico_consecutive
    (fun j => (if j < o then (0 : EReal) else a (j - o)) * (if j < o then (0 : EReal) else b (j - o))) (Nat.zero_le o) ho
  have h1 : ∑ j ∈ Finset.Ico 0 o, (if j < o then (0 : EReal) else a (j - o)) * (if j < o then (0 : EReal) else b (j - o)) = 0 :=
    Finset.sum_eq_zero fun j hj => by rw [if_pos (Finset.mem_Ico.mp hj).2, zero_mul]
  rw [Finset.range_eq_Ico, ← hsplit, h1, zero_add, Finset.sum_Ico_eq_sum_range]
  refine Finset.sum_congr rfl fun j _ => ?_
  rw [if_neg (by omega), if_neg (by omega), Nat.add_sub_cancel_left]

variable (x : ℕ → EReal) (w : ℕ → ℕ → ℕ → EReal) (act : ℕ → ℕ → EReal → EReal)

/-- The growing vectors: `grow i` has width `128 + 4 i`, the newest four entries in front. -/
def grow : ℕ → ℕ → EReal
  | 0, k => x k
  | i + 1, k => if k < 4 then act i k (∑ j ∈ range (128 + 4 * i), grow i j * w i j k) else grow i (k - 4)

/-- The vector of fixed width 176, overwritten four entries a layer; `wp i` is layer `i`'s weight as the kernel
    stores it, 176 rows. -/
def fixed (wp : ℕ → ℕ → ℕ → EReal) : ℕ → ℕ → EReal
  | 0, k => if k < 48 then 0 else x (k - 48)
  | i + 1, k => if 44 - 4 * i ≤ k ∧ k < 48 - 4 * i
      then act i (k - (44 - 4 * i)) (∑ j ∈ range 176, fixed wp i j * wp i j (k - (44 - 4 * i)))
      else fixed wp i k

theorem grow_zero (k : ℕ) : grow x w act 0 k = x k := rfl
theorem grow_succ (i k : ℕ) : grow x w act (i + 1) k
    = if k < 4 then act i k (∑ j ∈ range (128 + 4 * i), grow x w act i j * w i j k) else grow x w act i (k - 4) := rfl
theorem fixed_zero (wp : ℕ → ℕ → ℕ → EReal) (k : ℕ) : fixed x act wp 0 k = if k < 48 then 0 else x (k - 48) := rfl
theorem fixed_succ (wp : ℕ → ℕ → ℕ → EReal) (i k : ℕ) : fixed x act wp (i + 1) k
    = if 44 - 4 * i ≤ k ∧ k < 48 - 4 * i
      then act i (k - (44 - 4 * i)) (∑ j ∈ range 176, fixed x act wp i j * wp i j (k - (44 - 4 * i)))
      else fixed x act wp i k := rfl

/-- After `i` layers the fixed vector is `48 - 4 i` zeros followed by the growing one, when each stored weight is
    the layer's weight with `48 - 4 i` zero rows in front. -/
theorem fixed_eq (wp : ℕ → ℕ → ℕ → EReal)
    (hwp : ∀ i j u, i < 12 → j < 176 → wp i j u = if j < 48 - 4 * i then 0 else w i (j - (48 - 4 * i)) u) :
    ∀ i, i ≤ 12 → ∀ k, k < 176 →
    fixed x act wp i k = if k < 48 - 4 * i then 0 else grow x w act i (k - (48 - 4 * i))
  | 0, _, k, _ => by rw [fixed_zero]; rfl
  | i + 1, hi, k, hk => by
    have ih := fixed_eq wp hwp i (by omega)
    have hdot : ∀ u, ∑ j ∈ range 176, fixed x act wp i j * wp i j u
        = ∑ j ∈ range (128 + 4 * i), grow x w act i j * w i j u := by
      intro u
      have hterm : ∀ j ∈ range 176, fixed x act wp i j * wp i j u
          = (if j < 48 - 4 * i then (0 : EReal) else grow x w act i (j - (48 - 4 * i)))
            * (if j < 48 - 4 * i then (0 : EReal) else w i (j - (48 - 4 * i)) u) :=
        fun j hj => by rw [ih j (Finset.mem_range.mp hj), hwp i j u (by omega) (Finset.mem_range.mp hj)]
      have e : 176 - (48 - 4 * i) = 128 + 4 * i := by omega
      refine (Finset.sum_congr rfl hterm).trans
        ((sum_shift (grow x w act i) (fun j => w i j u) (48 - 4 * i) 176 (by omega)).trans ?_)
      rw [e]
    have e' : 48 - 4 * (i + 1) = 44 - 4 * i := by omega
    rw [fixed_succ, e']
    by_cases h1 : k < 44 - 4 * i
    · rw [if_neg (by omega), ih k hk, if_pos (by omega), if_pos h1]
    · by_cases h2 : k < 48 - 4 * i
      · rw [if_pos ⟨by omega, h2⟩, if_neg h1, grow_succ, if_pos (by omega), hdot]
      · rw [if_neg (by omega), ih k hk, if_neg h2, if_neg h1, grow_succ, if_neg (by omega)]
        congr 1; omega

/-- After the twelfth layer the two vectors are the same 176 entries. -/
theorem fixed_twelve (wp : ℕ → ℕ → ℕ → EReal)
    (hwp : ∀ i j u, i < 12 → j < 176 → wp i j u = if j < 48 - 4 * i then 0 else w i (j - (48 - 4 * i)) u)
    (k : ℕ) (hk : k < 176) : fixed x act wp 12 k = grow x w act 12 k := by
  rw [fixed_eq x w act wp hwp 12 le_rfl k hk]; rfl

end Cert.DenseStack

end
-- ==== Proof.KRows.lean ====
/-
  The scratch at the extended reals, row by row: after layer `i` it is the fixed-width vector of DenseStack.

  For one run of the body at Ideal, with input blocks `x1` (the 10000 rows of `x`), `x2` (the weight stack) and
  `x3 … x6` (gamma, beta, mean, var), fix a row `r`.  `xr r` is the row of `x`, `wp i` layer `i`'s stored weight,
  `act i u z = max (z * scale + shift) 0` the layer's affine map and rectifier.  A piece list with a block of
  columns stored last reads, at `(r, col)`, the block's payload inside the block and the earlier stores outside
  (`canon_cons_cols`).  So the two filling stores leave `fixed 0` (48 zeros, then the row of `x`), and if the
  stores so far leave `fixed i` then layer `i`'s store — `layerK` of that, read at an index by `layerK_apply` —
  leaves `fixed (i + 1)` (`step`).  `scratch_after` chains the twelve steps along the run's piece lists.
-/
import proofs.«124183_j12403865551019_2_alg».proof.Proof.KScratch
import proofs.«124183_j12403865551019_2_alg».proof.Proof.DenseStack

set_option maxRecDepth 16384

noncomputable section

namespace Cert.KernelIdeal.Rows

open Cert.KernelIdeal Cert.KernelIdeal.Gen Cert.KernelIdeal.Hand
open Idealize.ShloMosaic Idealize.ShloMosaic.TcCoe Idealize.ShloMosaic.ValueIdx
open Idealize.SL Idealize.SL.Sem

/-! ## A block of columns stored last -/

/-- After a store of the columns `off … off + w - 1` (all 10000 rows), the contents at `(r, col)` are the store's
    payload inside those columns and what the earlier stores left outside. -/
theorem canon_cons_cols {Val : EltTy → Type} [∀ e, Nonempty (Val e)] {e : EltTy} (w off : ℕ)
    (inb : ∀ a, (![0, off] : Fin 2 → ℕ) a + (![10000, w] : Fin 2 → ℕ) a ≤ S10000x176.size a)
    (y : (⟨2, ![10000, w]⟩ : Shape).Idx → Val e) (L : List (View.Piece Val S10000x176 e))
    (r : Fin 10000) (col : Fin 176) :
    View.canon ((⟨Rect.unit (s := S10000x176) ![0, off] ![10000, w] inb, y⟩ : View.Piece Val S10000x176 e) :: L) (ix2 (n0 := 10000) (n1 := 176) r col)
      = if h : off ≤ col.val ∧ col.val < off + w then y (ix2 (n0 := 10000) (n1 := w) r ⟨col.val - off, by omega⟩)
        else View.canon L (ix2 (n0 := 10000) (n1 := 176) r col) := by
  by_cases h : off ≤ col.val ∧ col.val < off + w
  · rw [dif_pos h]
    have hlt : col.val - off < w := by omega
    have hemb : (ix2 (n0 := 10000) (n1 := 176) r col : S10000x176.Idx)
        = (Rect.unit (s := S10000x176) ![0, off] ![10000, w] inb).emb (ix2 (n0 := 10000) (n1 := w) r ⟨col.val - off, hlt⟩) :=
      funext fun a => Fin.ext (by
        match a with
        | ⟨0, _⟩ => show r.val = 0 + 1 * r.val; omega
        | ⟨1, _⟩ => show col.val = off + 1 * (col.val - off); omega)
    rw [hemb]
    exact View.canon_cons_emb (Rect.unit (s := S10000x176) ![0, off] ![10000, w] inb) y L (ix2 (n0 := 10000) (n1 := w) r ⟨col.val - off, hlt⟩)
  · rw [dif_neg h]
    refine View.canon_cons_of_not_mem _ L ?_
    intro hm
    have hm' : (ix2 (n0 := 10000) (n1 := 176) r col : S10000x176.Idx) ∈ (Rect.unit (s := S10000x176) ![0, off] ![10000, w] inb).set := hm
    have h1 := (Rect.mem_set_unit.mp hm') ⟨1, by decide⟩
    exact h ⟨h1.1, h1.2⟩

/-! ## The row's quantities -/

section Row

variable (x1 : Vec Ideal S10000x128 .f32) (x2 : Vec Ideal S12x176x4 .bf16) (x3 x4 x5 x6 : Vec Ideal S12x4 .f32)

/-- Row `r` of the block of `x`. -/
def xr (r : Fin 10000) (k : ℕ) : EReal := if h : k < 128 then x1 (ix2 r ⟨k, h⟩) else 0
/-- Layer `i`'s stored weight, 176 × 4. -/
def wp (i j u : ℕ) : EReal := if h : i < 12 ∧ j < 176 ∧ u < 4 then x2 (ix3 ⟨i, h.1⟩ ⟨j, h.2.1⟩ ⟨u, h.2.2⟩) else 0
/-- Layer `i`'s scale `gamma * rsqrt (var + 1e-3)` (`x3` gamma, `x6` var). -/
def sc (i u : ℕ) : EReal :=
  if h : i < 12 ∧ u < 4 then x3 (ix2 ⟨i, h.1⟩ ⟨u, h.2⟩) * Ideal.rsqrt (x6 (ix2 ⟨i, h.1⟩ ⟨u, h.2⟩) + Ideal.ofBits .f32 0x3A83126F#32) else 0
/-- Layer `i`'s shift `beta - mean * scale` (`x4` beta, `x5` mean). -/
def sh (i u : ℕ) : EReal :=
  if h : i < 12 ∧ u < 4 then x4 (ix2 ⟨i, h.1⟩ ⟨u, h.2⟩) - x5 (ix2 ⟨i, h.1⟩ ⟨u, h.2⟩) * sc x3 x6 i u else 0
/-- Layer `i`'s affine map and rectifier. -/
def act (i u : ℕ) (z : EReal) : EReal := max (z * sc x3 x6 i u + sh x3 x4 x5 x6 i u) (Ideal.ofBits .f32 0x00000000#32)

theorem zero_bf16 : Ideal.ofBits .bf16 0x0000#16 = 0 := by simp [Ideal.ofBits, Ideal.ieee]

/-- A block of the weight stack read at `(0, k, u)` is the stack at `(n, k, u)`. -/
theorem ld_stack (n : ℕ) (hn : n < 12) (inb : ∀ a, (![n, 0, 0] : Fin 3 → ℕ) a + S1x176x4.size a ≤ S12x176x4.size a)
    (k : Fin 176) (u : Fin 4) :
    View.ld x2 (Rect.unit (s := S12x176x4) ![n, 0, 0] S1x176x4.size inb) (ix3 (0 : Fin 1) k u) = x2 (ix3 ⟨n, hn⟩ k u) :=
  congrArg x2 (funext fun a => Fin.ext (by
    match a with
    | ⟨0, _⟩ => show n + 1 * 0 = n; omega
    | ⟨1, _⟩ => show 0 + 1 * k.val = k.val; omega
    | ⟨2, _⟩ => show 0 + 1 * u.val = u.val; omega))

/-- A row of a [12, 4] array read at `(0, u)` is the array at `(n, u)`. -/
theorem ld_row (X : Vec Ideal S12x4 .f32) (n : ℕ) (hn : n < 12) (inb : ∀ a, (![n, 0] : Fin 2 → ℕ) a + S1x4.size a ≤ S12x4.size a)
    (u : Fin 4) :
    View.ld X (Rect.unit (s := S12x4) ![n, 0] S1x4.size inb) (ix2 (0 : Fin 1) u) = X (ix2 ⟨n, hn⟩ u) :=
  congrArg X (funext fun a => Fin.ext (by
    match a with
    | ⟨0, _⟩ => show n + 1 * 0 = n; omega
    | ⟨1, _⟩ => show 0 + 1 * u.val = u.val; omega))

/-- One layer: if the stores `L` leave the fixed-width vector after `i` layers in row `r`, the layer's store leaves
    it after `i + 1`. -/
theorem step (r : Fin 10000) (i : ℕ) (hi : i < 12) (L : List (View.Piece (Elt Ideal) S10000x176 .bf16))
    (off : ℕ) (hoff : off = 44 - 4 * i)
    (inb : ∀ a, (![0, off] : Fin 2 → ℕ) a + (![10000, 4] : Fin 2 → ℕ) a ≤ S10000x176.size a)
    (W : Vec Ideal S1x176x4 .bf16) (g v b mu : Vec Ideal S1x4 .f32)
    (hL : ∀ col : Fin 176, View.canon L (ix2 r col) = DenseStack.fixed (xr x1 r) (act x3 x4 x5 x6) (wp x2) i col.val)
    (hW : ∀ (k : Fin 176) (u : Fin 4), W (ix3 (0 : Fin 1) k u) = wp x2 i k.val u.val)
    (hsc : ∀ u : Fin 4, Layer.scaleAt g v u = sc x3 x6 i u.val)
    (hsh : ∀ u : Fin 4, Layer.shiftAt g v b mu u = sh x3 x4 x5 x6 i u.val)
    (col : Fin 176) :
    View.canon ((⟨Rect.unit (s := S10000x176) ![0, off] ![10000, 4] inb, Layer.layerK (View.canon L) W g v b mu⟩
        : View.Piece (Elt Ideal) S10000x176 .bf16) :: L) (ix2 (n0 := 10000) (n1 := 176) r col)
      = DenseStack.fixed (xr x1 r) (act x3 x4 x5 x6) (wp x2) (i + 1) col.val := by
  refine (canon_cons_cols 4 off inb _ L r col).trans ?_
  rw [DenseStack.fixed_succ]
  subst hoff
  by_cases h : 44 - 4 * i ≤ col.val ∧ col.val < 44 - 4 * i + 4
  · have hsum : (∑ k : Fin 176, View.canon L (ix2 r k) * W (ix3 (0 : Fin 1) k ⟨col.val - (44 - 4 * i), by omega⟩))
        = ∑ j ∈ Finset.range 176, DenseStack.fixed (xr x1 r) (act x3 x4 x5 x6) (wp x2) i j * wp x2 i j (col.val - (44 - 4 * i)) := by
      rw [← Fin.sum_univ_eq_sum_range (fun j => DenseStack.fixed (xr x1 r) (act x3 x4 x5 x6) (wp x2) i j * wp x2 i j (col.val - (44 - 4 * i))) 176]
      exact Finset.sum_congr rfl fun k _ => by rw [hL k, hW k]
    rw [dif_pos h, if_pos ⟨h.1, by omega⟩, Layer.layerK_apply, hsc, hsh, hsum]
    rfl
  · rw [dif_neg h, if_neg (by omega), hL col]

end Row

end Cert.KernelIdeal.Rows

end
-- ==== Proof.KChain.lean ====
/-
  The twelve layers chained along one run of the body, and the block the body leaves.

  `scratch0`: the two filling stores leave, in row `r`, 48 zeros and then the row of `x` — the fixed-width
  vector before any layer.  `scratch1 … scratch12`: each layer's store takes the vector after `i` layers to the one
  after `i + 1` (Rows.step, with the layer's weight block and its rows of gamma, var, beta, mean read off the input
  blocks).  `outBlk_eq`: the result's one piece is the head `k0_pay2` of the scratch after the twelfth layer, the
  head's weight and the bias.
-/
import proofs.«124183_j12403865551019_2_alg».proof.Proof.KRows

set_option maxRecDepth 16384

noncomputable section

namespace Cert.KernelIdeal.Rows

open Cert.KernelIdeal Cert.KernelIdeal.Gen Cert.KernelIdeal.Hand
open Idealize.ShloMosaic Idealize.ShloMosaic.TcCoe Idealize.ShloMosaic.ValueIdx
open Idealize.SL Idealize.SL.Sem

section Chain

variable (c : Dev nD) (arg1 : Memref sig .tc .vmem S10000x128 .f32) (harg1 : arg1.IsWhole) (arg2 : Memref sig .tc .vmem S12x176x4 .bf16) (harg2 : arg2.IsWhole) (arg3 : Memref sig .tc .vmem S12x4 .f32) (harg3 : arg3.IsWhole) (arg4 : Memref sig .tc .vmem S12x4 .f32) (harg4 : arg4.IsWhole) (arg5 : Memref sig .tc .vmem S12x4 .f32) (harg5 : arg5.IsWhole) (arg6 : Memref sig .tc .vmem S12x4 .f32) (harg6 : arg6.IsWhole) (arg10 : Memref sig .tc .vmem S10000x176 .bf16)
variable (x1 : Vec Ideal S10000x128 .f32) (x2 : Vec Ideal S12x176x4 .bf16) (x3 x4 x5 x6 : Vec Ideal S12x4 .f32)

/-- The layer's weight block as loaded is the stored weight. -/
theorem hW_of (n : ℕ) (hn : n < 12) (inb : ∀ a, (![n, 0, 0] : Fin 3 → ℕ) a + S1x176x4.size a ≤ S12x176x4.size a)
    (k : Fin 176) (u : Fin 4) :
    (View.readAt (Elt Ideal) arg2.view (Rect.unit (s := S12x176x4) ![n, 0, 0] S1x176x4.size inb).toLoadRect (harg2.unread x2)) (ix3 (0 : Fin 1) k u)
      = wp x2 n k.val u.val := by
  rw [View.readAt_eq_ld, harg2.read_unread, ld_stack x2 n hn inb k u]
  unfold wp
  rw [dif_pos ⟨hn, k.isLt, u.isLt⟩]

/-- The layer's scale from its rows of gamma and var as loaded. -/
theorem hsc_of (n : ℕ) (hn : n < 12) (inb : ∀ a, (![n, 0] : Fin 2 → ℕ) a + S1x4.size a ≤ S12x4.size a) (u : Fin 4) :
    Layer.scaleAt (View.readAt (Elt Ideal) arg3.view (Rect.unit (s := S12x4) ![n, 0] S1x4.size inb).toLoadRect (harg3.unread x3))
        (View.readAt (Elt Ideal) arg6.view (Rect.unit (s := S12x4) ![n, 0] S1x4.size inb).toLoadRect (harg6.unread x6)) u
      = sc x3 x6 n u.val := by
  unfold Layer.scaleAt sc
  rw [dif_pos ⟨hn, u.isLt⟩, View.readAt_eq_ld, View.readAt_eq_ld, harg3.read_unread, harg6.read_unread,
    ld_row x3 n hn inb u, ld_row x6 n hn inb u]

/-- The layer's shift from its rows of gamma, var, beta and mean as loaded. -/
theorem hsh_of (n : ℕ) (hn : n < 12) (inb : ∀ a, (![n, 0] : Fin 2 → ℕ) a + S1x4.size a ≤ S12x4.size a) (u : Fin 4) :
    Layer.shiftAt (View.readAt (Elt Ideal) arg3.view (Rect.unit (s := S12x4) ![n, 0] S1x4.size inb).toLoadRect (harg3.unread x3))
        (View.readAt (Elt Ideal) arg6.view (Rect.unit (s := S12x4) ![n, 0] S1x4.size inb).toLoadRect (harg6.unread x6))
        (View.readAt (Elt Ideal) arg4.view (Rect.unit (s := S12x4) ![n, 0] S1x4.size inb).toLoadRect (harg4.unread x4))
        (View.readAt (Elt Ideal) arg5.view (Rect.unit (s := S12x4) ![n, 0] S1x4.size inb).toLoadRect (harg5.unread x5)) u
      = sh x3 x4 x5 x6 n u.val := by
  unfold Layer.shiftAt sh
  rw [dif_pos ⟨hn, u.isLt⟩, hsc_of arg3 harg3 arg6 harg6 x3 x6 n hn inb u]
  rw [View.readAt_eq_ld, View.readAt_eq_ld, harg4.read_unread, harg5.read_unread, ld_row x4 n hn inb u, ld_row x5 n hn inb u]

/-- Before the first layer: 48 zeros, then the row of `x`. -/
theorem scratch0 (r : Fin 10000) (col : Fin 176) :
    View.canon (kernelRun.sl.H10_2 (F := Ideal) c arg1 harg1 x1) (ix2 (n0 := 10000) (n1 := 176) r col)
      = DenseStack.fixed (xr x1 r) (act x3 x4 x5 x6) (wp x2) 0 col.val := by
  rw [H2_eq, DenseStack.fixed_zero]
  refine (canon_cons_cols 128 48 inb_S10000x176_S10000x128_0_48 _ _ r col).trans ?_
  by_cases h : 48 ≤ col.val ∧ col.val < 48 + 128
  · rw [dif_pos h, if_neg (by omega)]
    unfold k0_pay4 xr
    rw [dif_pos (by omega), shapeCast_self, View.readAt_eq_ld, harg1.read_unread,
      View.ld_unit_zero (S := S10000x128) (funext fun a => by fin_cases a <;> rfl)]
    rfl
  · rw [dif_neg h]
    refine (canon_cons_cols 48 0 inb_S10000x176_S10000x48_0_0 _ _ r col).trans ?_
    rw [dif_pos ⟨Nat.zero_le _, by omega⟩, if_pos (by omega)]
    unfold k0_pay3
    rw [shapeCast_self]
    exact zero_bf16

/-- After layer 0. -/
theorem scratch1 (r : Fin 10000) (col : Fin 176) :
    View.canon (kernelRun.sl.H10_3 (F := Ideal) c arg1 harg1 arg2 harg2 arg3 harg3 arg4 harg4 arg5 harg5 arg6 harg6 arg10 x1 x2 x3 x4 x5 x6) (ix2 (n0 := 10000) (n1 := 176) r col)
      = DenseStack.fixed (xr x1 r) (act x3 x4 x5 x6) (wp x2) 1 col.val := by
  rw [H3_eq, v9_eq]
  exact step x1 x2 x3 x4 x5 x6 r 0 (by decide) _ 44 rfl inb_S10000x176_S10000x4_0_44 _ _ _ _ _
    (scratch0 c arg1 harg1 x1 x2 x3 x4 x5 x6 r)
    (hW_of arg2 harg2 x2 0 (by decide) inb_S12x176x4_S1x176x4_0_0_0)
    (hsc_of arg3 harg3 arg6 harg6 x3 x6 0 (by decide) inb_S12x4_S1x4_0_0)
    (hsh_of arg3 harg3 arg4 harg4 arg5 harg5 arg6 harg6 x3 x4 x5 x6 0 (by decide) inb_S12x4_S1x4_0_0) col
/-- After layer 1. -/
theorem scratch2 (r : Fin 10000) (col : Fin 176) :
    View.canon (kernelRun.sl.H10_4 (F := Ideal) c arg1 harg1 arg2 harg2 arg3 harg3 arg4 harg4 arg5 harg5 arg6 harg6 arg10 x1 x2 x3 x4 x5 x6) (ix2 (n0 := 10000) (n1 := 176) r col)
      = DenseStack.fixed (xr x1 r) (act x3 x4 x5 x6) (wp x2) 2 col.val := by
  rw [H4_eq, v39_eq]
  exact step x1 x2 x3 x4 x5 x6 r 1 (by decide) _ 40 rfl inb_S10000x176_S10000x4_0_40 _ _ _ _ _
    (scratch1 c arg1 harg1 arg2 harg2 arg3 harg3 arg4 harg4 arg5 harg5 arg6 harg6 arg10 x1 x2 x3 x4 x5 x6 r)
    (hW_of arg2 harg2 x2 1 (by decide) inb_S12x176x4_S1x176x4_1_0_0)
    (hsc_of arg3 harg3 arg6 harg6 x3 x6 1 (by decide) inb_S12x4_S1x4_1_0)
    (hsh_of arg3 harg3 arg4 harg4 arg5 harg5 arg6 harg6 x3 x4 x5 x6 1 (by decide) inb_S12x4_S1x4_1_0) col
/-- After layer 2. -/
theorem scratch3 (r : Fin 10000) (col : Fin 176) :
    View.canon (kernelRun.sl.H10_5 (F := Ideal) c arg1 harg1 arg2 harg2 arg3 harg3 arg4 harg4 arg5 harg5 arg6 harg6 arg10 x1 x2 x3 x4 x5 x6) (ix2 (n0 := 10000) (n1 := 176) r col)
      = DenseStack.fixed (xr x1 r) (act x3 x4 x5 x6) (wp x2) 3 col.val := by
  rw [H5_eq, v_eq]
  exact step x1 x2 x3 x4 x5 x6 r 2 (by decide) _ 36 rfl inb_S10000x176_S10000x4_0_36 _ _ _ _ _
    (scratch2 c arg1 harg1 arg2 harg2 arg3 harg3 arg4 harg4 arg5 harg5 arg6 harg6 arg10 x1 x2 x3 x4 x5 x6 r)
    (hW_of arg2 harg2 x2 2 (by decide) inb_S12x176x4_S1x176x4_2_0_0)
    (hsc_of arg3 harg3 arg6 harg6 x3 x6 2 (by decide) inb_S12x4_S1x4_2_0)
    (hsh_of arg3 harg3 arg4 harg4 arg5 harg5 arg6 harg6 x3 x4 x5 x6 2 (by decide) inb_S12x4_S1x4_2_0) col
/-- After layer 3. -/
theorem scratch4 (r : Fin 10000) (col : Fin 176) :
    View.canon (kernelRun.sl.H10_6 (F := Ideal) c arg1 harg1 arg2 harg2 arg3 harg3 arg4 harg4 arg5 harg5 arg6 harg6 arg10 x1 x2 x3 x4 x5 x6) (ix2 (n0 := 10000) (n1 := 176) r col)
      = DenseStack.fixed (xr x1 r) (act x3 x4 x5 x6) (wp x2) 4 col.val := by
  rw [H6_eq, v99_eq]
  exact step x1 x2 x3 x4 x5 x6 r 3 (by decide) _ 32 rfl inb_S10000x176_S10000x4_0_32 _ _ _ _ _
    (scratch3 c arg1 harg1 arg2 harg2 arg3 harg3 arg4 harg4 arg5 harg5 arg6 harg6 arg10 x1 x2 x3 x4 x5 x6 r)
    (hW_of arg2 harg2 x2 3 (by decide) inb_S12x176x4_S1x176x4_3_0_0)
    (hsc_of arg3 harg3 arg6 harg6 x3 x6 3 (by decide) inb_S12x4_S1x4_3_0)
    (hsh_of arg3 harg3 arg4 harg4 arg5 harg5 arg6 harg6 x3 x4 x5 x6 3 (by decide) inb_S12x4_S1x4_3_0) col
/-- After layer 4. -/
theorem scratch5 (r : Fin 10000) (col : Fin 176) :
    View.canon (kernelRun.sl.H10_7 (F := Ideal) c arg1 harg1 arg2 harg2 arg3 harg3 arg4 harg4 arg5 harg5 arg6 harg6 arg10 x1 x2 x3 x4 x5 x6) (ix2 (n0 := 10000) (n1 := 176) r col)
      = DenseStack.fixed (xr x1 r) (act x3 x4 x5 x6) (wp x2) 5 col.val := by
  rw [H7_eq, v129_eq]
  exact step x1 x2 x3 x4 x5 x6 r 4 (by decide) _ 28 rfl inb_S10000x176_S10000x4_0_28 _ _ _ _ _
    (scratch4 c arg1 harg1 arg2 harg2 arg3 harg3 arg4 harg4 arg5 harg5 arg6 harg6 arg10 x1 x2 x3 x4 x5 x6 r)
    (hW_of arg2 harg2 x2 4 (by decide) inb_S12x176x4_S1x176x4_4_0_0)
    (hsc_of arg3 harg3 arg6 harg6 x3 x6 4 (by decide) inb_S12x4_S1x4_4_0)
    (hsh_of arg3 harg3 arg4 harg4 arg5 harg5 arg6 harg6 x3 x4 x5 x6 4 (by decide) inb_S12x4_S1x4_4_0) col
/-- After layer 5. -/
theorem scratch6 (r : Fin 10000) (col : Fin 176) :
    View.canon (kernelRun.sl.H10_8 (F := Ideal) c arg1 harg1 arg2 harg2 arg3 harg3 arg4 harg4 arg5 harg5 arg6 harg6 arg10 x1 x2 x3 x4 x5 x6) (ix2 (n0 := 10000) (n1 := 176) r col)
      = DenseStack.fixed (xr x1 r) (act x3 x4 x5 x6) (wp x2) 6 col.val := by
  rw [H8_eq, v159_eq]
  exact step x1 x2 x3 x4 x5 x6 r 5 (by decide) _ 24 rfl inb_S10000x176_S10000x4_0_24 _ _ _ _ _
    (scratch5 c arg1 harg1 arg2 harg2 arg3 harg3 arg4 harg4 arg5 harg5 arg6 harg6 arg10 x1 x2 x3 x4 x5 x6 r)
    (hW_of arg2 harg2 x2 5 (by decide) inb_S12x176x4_S1x176x4_5_0_0)
    (hsc_of arg3 harg3 arg6 harg6 x3 x6 5 (by decide) inb_S12x4_S1x4_5_0)
    (hsh_of arg3 harg3 arg4 harg4 arg5 harg5 arg6 harg6 x3 x4 x5 x6 5 (by decide) inb_S12x4_S1x4_5_0) col
/-- After layer 6. -/
theorem scratch7 (r : Fin 10000) (col : Fin 176) :
    View.canon (kernelRun.sl.H10_9 (F := Ideal) c arg1 harg1 arg2 harg2 arg3 harg3 arg4 harg4 arg5 harg5 arg6 harg6 arg10 x1 x2 x3 x4 x5 x6) (ix2 (n0 := 10000) (n1 := 176) r col)
      = DenseStack.fixed (xr x1 r) (act x3 x4 x5 x6) (wp x2) 7 col.val := by
  rw [H9_eq, v189_eq]
  exact step x1 x2 x3 x4 x5 x6 r 6 (by decide) _ 20 rfl inb_S10000x176_S10000x4_0_20 _ _ _ _ _
    (scratch6 c arg1 harg1 arg2 harg2 arg3 harg3 arg4 harg4 arg5 harg5 arg6 harg6 arg10 x1 x2 x3 x4 x5 x6 r)
    (hW_of arg2 harg2 x2 6 (by decide) inb_S12x176x4_S1x176x4_6_0_0)
    (hsc_of arg3 harg3 arg6 harg6 x3 x6 6 (by decide) inb_S12x4_S1x4_6_0)
    (hsh_of arg3 harg3 arg4 harg4 arg5 harg5 arg6 harg6 x3 x4 x5 x6 6 (by decide) inb_S12x4_S1x4_6_0) col
/-- After layer 7. -/
theorem scratch8 (r : Fin 10000) (col : Fin 176) :
    View.canon (kernelRun.sl.H10_10 (F := Ideal) c arg1 harg1 arg2 harg2 arg3 harg3 arg4 harg4 arg5 harg5 arg6 harg6 arg10 x1 x2 x3 x4 x5 x6) (ix2 (n0 := 10000) (n1 := 176) r col)
      = DenseStack.fixed (xr x1 r) (act x3 x4 x5 x6) (wp x2) 8 col.val := by
  rw [H10_eq, v219_eq]
  exact step x1 x2 x3 x4 x5 x6 r 7 (by decide) _ 16 rfl inb_S10000x176_S10000x4_0_16 _ _ _ _ _
    (scratch7 c arg1 harg1 arg2 harg2 arg3 harg3 arg4 harg4 arg5 harg5 arg6 harg6 arg10 x1 x2 x3 x4 x5 x6 r)
    (hW_of arg2 harg2 x2 7 (by decide) inb_S12x176x4_S1x176x4_7_0_0)
    (hsc_of arg3 harg3 arg6 harg6 x3 x6 7 (by decide) inb_S12x4_S1x4_7_0)
    (hsh_of arg3 harg3 arg4 harg4 arg5 harg5 arg6 harg6 x3 x4 x5 x6 7 (by decide) inb_S12x4_S1x4_7_0) col
/-- After layer 8. -/
theorem scratch9 (r : Fin 10000) (col : Fin 176) :
    View.canon (kernelRun.sl.H10_11 (F := Ideal) c arg1 harg1 arg2 harg2 arg3 harg3 arg4 harg4 arg5 harg5 arg6 harg6 arg10 x1 x2 x3 x4 x5 x6) (ix2 (n0 := 10000) (n1 := 176) r col)
      = DenseStack.fixed (xr x1 r) (act x3 x4 x5 x6) (wp x2) 9 col.val := by
  rw [H11_eq, v249_eq]
  exact step x1 x2 x3 x4 x5 x6 r 8 (by decide) _ 12 rfl inb_S10000x176_S10000x4_0_12 _ _ _ _ _
    (scratch8 c arg1 harg1 arg2 harg2 arg3 harg3 arg4 harg4 arg5 harg5 arg6 harg6 arg10 x1 x2 x3 x4 x5 x6 r)
    (hW_of arg2 harg2 x2 8 (by decide) inb_S12x176x4_S1x176x4_8_0_0)
    (hsc_of arg3 harg3 arg6 harg6 x3 x6 8 (by decide) inb_S12x4_S1x4_8_0)
    (hsh_of arg3 harg3 arg4 harg4 arg5 harg5 arg6 harg6 x3 x4 x5 x6 8 (by decide) inb_S12x4_S1x4_8_0) col
/-- After layer 9. -/
theorem scratch10 (r : Fin 10000) (col : Fin 176) :
    View.canon (kernelRun.sl.H10_12 (F := Ideal) c arg1 harg1 arg2 harg2 arg3 harg3 arg4 harg4 arg5 harg5 arg6 harg6 arg10 x1 x2 x3 x4 x5 x6) (ix2 (n0 := 10000) (n1 := 176) r col)
      = DenseStack.fixed (xr x1 r) (act x3 x4 x5 x6) (wp x2) 10 col.val := by
  rw [H12_eq, v279_eq]
  exact step x1 x2 x3 x4 x5 x6 r 9 (by decide) _ 8 rfl inb_S10000x176_S10000x4_0_8 _ _ _ _ _
    (scratch9 c arg1 harg1 arg2 harg2 arg3 harg3 arg4 harg4 arg5 harg5 arg6 harg6 arg10 x1 x2 x3 x4 x5 x6 r)
    (hW_of arg2 harg2 x2 9 (by decide) inb_S12x176x4_S1x176x4_9_0_0)
    (hsc_of arg3 harg3 arg6 harg6 x3 x6 9 (by decide) inb_S12x4_S1x4_9_0)
    (hsh_of arg3 harg3 arg4 harg4 arg5 harg5 arg6 harg6 x3 x4 x5 x6 9 (by decide) inb_S12x4_S1x4_9_0) col
/-- After layer 10. -/
theorem scratch11 (r : Fin 10000) (col : Fin 176) :
    View.canon (kernelRun.sl.H10_13 (F := Ideal) c arg1 harg1 arg2 harg2 arg3 harg3 arg4 harg4 arg5 harg5 arg6 harg6 arg10 x1 x2 x3 x4 x5 x6) (ix2 (n0 := 10000) (n1 := 176) r col)
      = DenseStack.fixed (xr x1 r) (act x3 x4 x5 x6) (wp x2) 11 col.val := by
  rw [H13_eq, v309_eq]
  exact step x1 x2 x3 x4 x5 x6 r 10 (by decide) _ 4 rfl inb_S10000x176_S10000x4_0_4 _ _ _ _ _
    (scratch10 c arg1 harg1 arg2 harg2 arg3 harg3 arg4 harg4 arg5 harg5 arg6 harg6 arg10 x1 x2 x3 x4 x5 x6 r)
    (hW_of arg2 harg2 x2 10 (by decide) inb_S12x176x4_S1x176x4_10_0_0)
    (hsc_of arg3 harg3 arg6 harg6 x3 x6 10 (by decide) inb_S12x4_S1x4_10_0)
    (hsh_of arg3 harg3 arg4 harg4 arg5 harg5 arg6 harg6 x3 x4 x5 x6 10 (by decide) inb_S12x4_S1x4_10_0) col
/-- After layer 11. -/
theorem scratch12 (r : Fin 10000) (col : Fin 176) :
    View.canon (kernelRun.sl.H10_14 (F := Ideal) c arg1 harg1 arg2 harg2 arg3 harg3 arg4 harg4 arg5 harg5 arg6 harg6 arg10 x1 x2 x3 x4 x5 x6) (ix2 (n0 := 10000) (n1 := 176) r col)
      = DenseStack.fixed (xr x1 r) (act x3 x4 x5 x6) (wp x2) 12 col.val := by
  rw [H14_eq, v339_eq]
  exact step x1 x2 x3 x4 x5 x6 r 11 (by decide) _ 0 rfl inb_S10000x176_S10000x4_0_0 _ _ _ _ _
    (scratch11 c arg1 harg1 arg2 harg2 arg3 harg3 arg4 harg4 arg5 harg5 arg6 harg6 arg10 x1 x2 x3 x4 x5 x6 r)
    (hW_of arg2 harg2 x2 11 (by decide) inb_S12x176x4_S1x176x4_11_0_0)
    (hsc_of arg3 harg3 arg6 harg6 x3 x6 11 (by decide) inb_S12x4_S1x4_11_0)
    (hsh_of arg3 harg3 arg4 harg4 arg5 harg5 arg6 harg6 x3 x4 x5 x6 11 (by decide) inb_S12x4_S1x4_11_0) col

end Chain

end Cert.KernelIdeal.Rows

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.Spec.lean ====
/-
  What both programs compute, as one function of the nineteen argument arrays over the extended reals.

  Row `R` of the result is a two-way softmax of `h · wf + bf`, where `h` (176 entries) is what the densely
  connected stack makes of row `R` of `x`: layer `i` contracts the vector so far (width `128 + 4 i`) with `w_i`,
  applies `z ↦ max (z * scale_i + shift_i) 0` with `scale_i = gamma_i * rsqrt (var_i + 1e-3)` and
  `shift_i = beta_i - mean_i * scale_i`, and puts the four results in front (DenseStack's `grow`).  The softmax is
  spelt as both programs compute it: the row's maximum taken from `-inf` and once more against `-inf`, the
  exponentials of the differences, their sum, the quotient.  Literals stay as their words: both programs carry the
  same ones.
-/
import proofs.«124183_j12403865551019_2_alg».proof.Proof.DenseStack
import Idealize.ShloMosaic.Lib.ValueIdx
import Idealize.ShloMosaic.PureOps.Ideal.Laws

noncomputable section

namespace Cert.Spec

open Idealize.ShloMosaic Idealize.ShloMosaic.ValueIdx

/-- The softmax of two logits, as computed. -/
def rowMax (l : Fin 2 → EReal) : EReal :=
  max (Ideal.ofBits .f32 0xFF800000#32) ((Finset.univ : Finset (Fin 2)).fold max (Ideal.ofBits .f32 0xFF800000#32) l)
def softmax2 (l : Fin 2 → EReal) (u : Fin 2) : EReal :=
  Ideal.div (Ideal.exp (l u - rowMax l)) (∑ k : Fin 2, Ideal.exp (l k - rowMax l))

section Arrays

variable (X : (⟨2, ![500000, 128]⟩ : Shape).Idx → EReal)
variable (w0 : (⟨2, ![128, 4]⟩ : Shape).Idx → EReal)
variable (w1 : (⟨2, ![132, 4]⟩ : Shape).Idx → EReal)
variable (w2 : (⟨2, ![136, 4]⟩ : Shape).Idx → EReal)
variable (w3 : (⟨2, ![140, 4]⟩ : Shape).Idx → EReal)
variable (w4 : (⟨2, ![144, 4]⟩ : Shape).Idx → EReal)
variable (w5 : (⟨2, ![148, 4]⟩ : Shape).Idx → EReal)
variable (w6 : (⟨2, ![152, 4]⟩ : Shape).Idx → EReal)
variable (w7 : (⟨2, ![156, 4]⟩ : Shape).Idx → EReal)
variable (w8 : (⟨2, ![160, 4]⟩ : Shape).Idx → EReal)
variable (w9 : (⟨2, ![164, 4]⟩ : Shape).Idx → EReal)
variable (w10 : (⟨2, ![168, 4]⟩ : Shape).Idx → EReal)
variable (w11 : (⟨2, ![172, 4]⟩ : Shape).Idx → EReal)
variable (G B M V : (⟨2, ![12, 4]⟩ : Shape).Idx → EReal)
variable (WF : (⟨2, ![176, 2]⟩ : Shape).Idx → EReal) (BF : (⟨1, ![2]⟩ : Shape).Idx → EReal)

/-- Row `R` of `x`. -/
def xrow (R : Fin 500000) (k : ℕ) : EReal := if h : k < 128 then X (ix2 R ⟨k, h⟩) else 0

/-- Layer `i`'s weight at `(k, u)`. -/
def wAt (i k u : ℕ) : EReal :=
  match i with
  | 0 => if h : k < 128 ∧ u < 4 then w0 (ix2 ⟨k, h.1⟩ ⟨u, h.2⟩) else 0
  | 1 => if h : k < 132 ∧ u < 4 then w1 (ix2 ⟨k, h.1⟩ ⟨u, h.2⟩) else 0
  | 2 => if h : k < 136 ∧ u < 4 then w2 (ix2 ⟨k, h.1⟩ ⟨u, h.2⟩) else 0
  | 3 => if h : k < 140 ∧ u < 4 then w3 (ix2 ⟨k, h.1⟩ ⟨u, h.2⟩) else 0
  | 4 => if h : k < 144 ∧ u < 4 then w4 (ix2 ⟨k, h.1⟩ ⟨u, h.2⟩) else 0
  | 5 => if h : k < 148 ∧ u < 4 then w5 (ix2 ⟨k, h.1⟩ ⟨u, h.2⟩) else 0
  | 6 => if h : k < 152 ∧ u < 4 then w6 (ix2 ⟨k, h.1⟩ ⟨u, h.2⟩) else 0
  | 7 => if h : k < 156 ∧ u < 4 then w7 (ix2 ⟨k, h.1⟩ ⟨u, h.2⟩) else 0
  | 8 => if h : k < 160 ∧ u < 4 then w8 (ix2 ⟨k, h.1⟩ ⟨u, h.2⟩) else 0
  | 9 => if h : k < 164 ∧ u < 4 then w9 (ix2 ⟨k, h.1⟩ ⟨u, h.2⟩) else 0
  | 10 => if h : k < 168 ∧ u < 4 then w10 (ix2 ⟨k, h.1⟩ ⟨u, h.2⟩) else 0
  | 11 => if h : k < 172 ∧ u < 4 then w11 (ix2 ⟨k, h.1⟩ ⟨u, h.2⟩) else 0
  | _ => 0

/-- Layer `i`'s scale and shift at unit `u`, and its affine map with the rectifier. -/
def sc (i u : ℕ) : EReal :=
  if h : i < 12 ∧ u < 4 then G (ix2 ⟨i, h.1⟩ ⟨u, h.2⟩) * Ideal.rsqrt (V (ix2 ⟨i, h.1⟩ ⟨u, h.2⟩) + Ideal.ofBits .f32 0x3A83126F#32) else 0
def sh (i u : ℕ) : EReal :=
  if h : i < 12 ∧ u < 4 then B (ix2 ⟨i, h.1⟩ ⟨u, h.2⟩) - M (ix2 ⟨i, h.1⟩ ⟨u, h.2⟩) * sc G V i u else 0
def act (i u : ℕ) (z : EReal) : EReal := max (z * sc G V i u + sh G B M V i u) (Ideal.ofBits .f32 0x00000000#32)

/-- The stack's output for row `R`: 176 entries. -/
def hfin (R : Fin 500000) (k : ℕ) : EReal :=
  DenseStack.grow (xrow X R) (wAt w0 w1 w2 w3 w4 w5 w6 w7 w8 w9 w10 w11) (act G B M V) 12 k

/-- The two logits of row `R`. -/
def logit (R : Fin 500000) (u : Fin 2) : EReal :=
  (∑ k : Fin 176, hfin X w0 w1 w2 w3 w4 w5 w6 w7 w8 w9 w10 w11 G B M V R k.val * WF (ix2 k u)) + BF (ix1 u)

/-- The result at `(R, u)`. -/
def out (R : Fin 500000) (u : Fin 2) : EReal :=
  softmax2 (logit X w0 w1 w2 w3 w4 w5 w6 w7 w8 w9 w10 w11 G B M V WF BF R) u

end Arrays

end Cert.Spec

end
-- ==== Proof.KHead.lean ====
/-
  The kernel's head at an index.

  After the twelfth layer the body loads the scratch `h` (10000 × 176), contracts it with the head's weight
  (176 × 2), adds the bias along the rows, and takes the softmax of each row's two logits: the row's maximum from
  `-inf`, once more against `-inf`, the exponentials of the differences, their row sum, the quotient.
  `head_apply`: at row `r`, class `u`, this is Spec's `softmax2` of the row's two logits
  `Σ_k h(r, k) · wf(k, ·) + bf(·)`.
-/
import proofs.«124183_j12403865551019_2_alg».proof.Proof.Gen.KernelIdeal.Skeleton
import proofs.«124183_j12403865551019_2_alg».proof.Proof.LibMatmulNN
import proofs.«124183_j12403865551019_2_alg».proof.Proof.LibKeepdims
import proofs.«124183_j12403865551019_2_alg».proof.Proof.LibHostKeepdims
import proofs.«124183_j12403865551019_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Head

open Cert.KernelIdeal Cert.KernelIdeal.Gen Idealize.ShloMosaic Idealize.ShloMosaic.ValueIdx

/-- The logits block: the contraction with the head's weight plus the bias along the rows. -/
def logitsK (h : Vec Ideal S10000x176 .bf16) (wf : Vec Ideal S176x2 .bf16) (bf : Vec Ideal S2 .f32) : FVec Ideal S10000x2 .f32 :=
  addf (matmul (φ₁ := .bf16) (φ₂ := .bf16) dot_S10000x176_S176x2_S10000x2_1_0_0_1_n_n none h (shapeCast S176x2 wf shapeCasts_S176x2_S176x2) (constant S10000x2 .f32 0x00000000#32))
    (broadcastTo S10000x2 (shapeCast S1x2 bf shapeCasts_S2_S1x2) broadcasts_S1x2_S10000x2)

/-- The row maxima of a logits block, as the body takes them. -/
def rowMaxK (L : FVec Ideal S10000x2 .f32) : FVec Ideal S10000 .f32 :=
  maximumf (broadcast S10000 (Scalar.ofBits (F := Ideal) .f32 0xFF800000#32))
    (multiReduction (F := Ideal) .maximumf [1] S10000 L 0xFF800000#32 reduces_S10000x2_S10000 (.inl rfl) rfl)

/-- The exponentials of the logits less their row maximum. -/
def expK (L : FVec Ideal S10000x2 .f32) : FVec Ideal S10000x2 .f32 :=
  exp (subf L (broadcastTo S10000x2 (shapeCast S10000x1 (rowMaxK L) shapeCasts_S10000_S10000x1) broadcasts_S10000x1_S10000x2))

/-- The softmax of each row of a logits block. -/
def tailK (L : FVec Ideal S10000x2 .f32) : FVec Ideal S10000x2 .f32 :=
  divf (expK L) (broadcastTo S10000x2 (shapeCast S10000x1
    (multiReduction (F := Ideal) .add [1] S10000 (expK L) 0x00000000#32 reduces_S10000x2_S10000 (.inl rfl) rfl) shapeCasts_S10000_S10000x1) broadcasts_S10000x1_S10000x2)

theorem pay2_eq (h : Vec Ideal S10000x176 .bf16) (wf : Vec Ideal S176x2 .bf16) (bf : Vec Ideal S2 .f32) :
    k0_pay2 h wf bf = tailK (logitsK h wf bf) := rfl

theorem logitsK_apply (h : Vec Ideal S10000x176 .bf16) (wf : Vec Ideal S176x2 .bf16) (bf : Vec Ideal S2 .f32) (r : Fin 10000) (u : Fin 2) :
    logitsK h wf bf (ix2 r u) = (∑ k : Fin 176, h (ix2 r k) * wf (ix2 k u)) + bf (ix1 u) := by
  unfold logitsK
  rw [shapeCast_self]
  show matmul (F := Ideal) (φ₁ := .bf16) (φ₂ := .bf16) dot_S10000x176_S176x2_S10000x2_1_0_0_1_n_n none h wf (constant (F := Ideal) S10000x2 .f32 0x00000000#32) (ix2 r u)
      + broadcastTo S10000x2 (shapeCast S1x2 bf shapeCasts_S2_S1x2) broadcasts_S1x2_S10000x2 (ix2 r u) = _
  rw [Cert.LibMatmulNN.matmul_nn_apply dot_S10000x176_S176x2_S10000x2_1_0_0_1_n_n rfl rfl rfl rfl rfl rfl none h wf r u,
    broadcastTo_1b_ab_apply, shapeCast_a_1a_apply]

theorem rowMaxK_apply (L : FVec Ideal S10000x2 .f32) (r : Fin 10000) :
    rowMaxK L (ix1 r) = Spec.rowMax (fun u' => L (ix2 r u')) := by
  unfold rowMaxK Spec.rowMax
  show max (Ideal.ofBits .f32 0xFF800000#32)
      (multiReduction (F := Ideal) .maximumf [1] S10000 L 0xFF800000#32 reduces_S10000x2_S10000 (.inl rfl) rfl (ix1 r)) = _
  exact congrArg (max (Ideal.ofBits .f32 0xFF800000#32))
    (multiReduction_maximumf_rows_apply L 0xFF800000#32 reduces_S10000x2_S10000 (.inl rfl) rfl r)

theorem expK_apply (L : FVec Ideal S10000x2 .f32) (r : Fin 10000) (u : Fin 2) :
    expK L (ix2 r u) = Ideal.exp (L (ix2 r u) - Spec.rowMax (fun u' => L (ix2 r u'))) := by
  unfold expK
  show Ideal.exp (L (ix2 r u) - broadcastTo S10000x2 (shapeCast S10000x1 (rowMaxK L) shapeCasts_S10000_S10000x1) broadcasts_S10000x1_S10000x2 (ix2 r u)) = _
  rw [broadcastTo_a1_ab_apply, shapeCast_a_a1_apply, rowMaxK_apply]

theorem tailK_apply (L : FVec Ideal S10000x2 .f32) (r : Fin 10000) (u : Fin 2) :
    tailK L (ix2 r u) = Spec.softmax2 (fun u' => L (ix2 r u')) u := by
  unfold tailK Spec.softmax2
  show Ideal.div (expK L (ix2 r u)) (broadcastTo S10000x2 (shapeCast S10000x1
      (multiReduction (F := Ideal) .add [1] S10000 (expK L) 0x00000000#32 reduces_S10000x2_S10000 (.inl rfl) rfl) shapeCasts_S10000_S10000x1) broadcasts_S10000x1_S10000x2 (ix2 r u)) = _
  rw [broadcastTo_a1_ab_apply, shapeCast_a_a1_apply, expK_apply]
  refine congrArg (Ideal.div _) ?_
  refine (multiReduction_add_rows_apply (expK L) 0x00000000#32 reduces_S10000x2_S10000 (.inl rfl) rfl r).trans ?_
  exact Finset.sum_congr rfl fun k _ => expK_apply L r k

/-- The head at row `r`, class `u`. -/
theorem head_apply (h : Vec Ideal S10000x176 .bf16) (wf : Vec Ideal S176x2 .bf16) (bf : Vec Ideal S2 .f32) (r : Fin 10000) (u : Fin 2) :
    k0_pay2 h wf bf (ix2 r u)
      = Spec.softmax2 (fun u' => (∑ k : Fin 176, h (ix2 r k) * wf (ix2 k u')) + bf (ix1 u')) u := by
  rw [pay2_eq, tailK_apply]
  exact congrArg (fun l => Spec.softmax2 l u) (funext fun u' => logitsK_apply h wf bf r u')

end Cert.KernelIdeal.Head

end
-- ==== Proof.KOut.lean ====
/-
  The block one run of the body leaves, at an index.

  The result's one piece is the head applied to the scratch after the twelfth layer, the head's weight and the
  bias as loaded; the scratch's row `r` is then the fixed-width vector after twelve layers (KChain), so the block
  at `(r, u)` is the two-way softmax of `Σ_k fixed₁₂(k) · wf(k, ·) + bf(·)`.
-/
import proofs.«124183_j12403865551019_2_alg».proof.Proof.KChain
import proofs.«124183_j12403865551019_2_alg».proof.Proof.KHead

set_option maxRecDepth 16384

noncomputable section

namespace Cert.KernelIdeal.Rows

open Cert.KernelIdeal Cert.KernelIdeal.Gen Cert.KernelIdeal.Hand
open Idealize.ShloMosaic Idealize.ShloMosaic.TcCoe Idealize.ShloMosaic.ValueIdx
open Idealize.SL Idealize.SL.Sem

theorem hz2 : (![0, 0] : Fin 2 → Nat) = fun _ => 0 := funext fun a => by fin_cases a <;> rfl
theorem hz1 : (![0] : Fin 1 → Nat) = fun _ => 0 := funext fun a => by fin_cases a; rfl

theorem outBlk_apply (c : Dev nD) (i : grid0.Coords) (arg1 : Memref sig .tc .vmem S10000x128 .f32) (harg1 : arg1.IsWhole) (arg2 : Memref sig .tc .vmem S12x176x4 .bf16) (harg2 : arg2.IsWhole) (arg3 : Memref sig .tc .vmem S12x4 .f32) (harg3 : arg3.IsWhole) (arg4 : Memref sig .tc .vmem S12x4 .f32) (harg4 : arg4.IsWhole) (arg5 : Memref sig .tc .vmem S12x4 .f32) (harg5 : arg5.IsWhole) (arg6 : Memref sig .tc .vmem S12x4 .f32) (harg6 : arg6.IsWhole) (arg7 : Memref sig .tc .vmem S176x2 .bf16) (harg7 : arg7.IsWhole) (arg8 : Memref sig .tc .vmem S2 .f32) (harg8 : arg8.IsWhole) (arg9 : Memref sig .tc .vmem S10000x2 .f32) (harg9 : arg9.IsWhole) (arg10 : Memref sig .tc .vmem S10000x176 .bf16) (harg10 : arg10.IsWhole)
    (x1 : Vec Ideal S10000x128 .f32) (x2 : Vec Ideal S12x176x4 .bf16) (x3 x4 x5 x6 : Vec Ideal S12x4 .f32)
    (x7 : Vec Ideal S176x2 .bf16) (x8 : Vec Ideal S2 .f32) (r : Fin 10000) (u : Fin 2) :
    outBlk (F := Ideal) c i arg1 harg1 arg2 harg2 arg3 harg3 arg4 harg4 arg5 harg5 arg6 harg6 arg7 harg7 arg8 harg8 arg9 harg9 arg10 harg10 x1 x2 x3 x4 x5 x6 x7 x8 (ix2 (n0 := 10000) (n1 := 2) r u)
      = Spec.softmax2 (fun u' => (∑ k : Fin 176, DenseStack.fixed (xr x1 r) (act x3 x4 x5 x6) (wp x2) 12 k.val * x7 (ix2 k u'))
          + x8 (ix1 u')) u := by
  unfold outBlk kernelRun
  dsimp only
  rw [View.canon_unit_zero (S := S10000x2) hz2, v369_eq, Head.head_apply]
  refine congrArg (fun l => Spec.softmax2 l u) (funext fun u' => ?_)
  rw [View.readAt_eq_ld, View.readAt_eq_ld, harg7.read_unread, harg8.read_unread,
    View.ld_unit_zero (S := S176x2) hz2, View.ld_unit_zero (S := S2) hz1]
  refine congrArg (· + x8 (ix1 u')) (Finset.sum_congr rfl fun k _ => ?_)
  rw [scratch12 c arg1 harg1 arg2 harg2 arg3 harg3 arg4 harg4 arg5 harg5 arg6 harg6 arg10 x1 x2 x3 x4 x5 x6 r k]

end Cert.KernelIdeal.Rows

end
-- ==== Proof.KBlocks.lean ====
/-
  The windows' blocks at a grid point, in terms of the arrays the region is entered with.

  Point `t` of the 50-point grid stages rows `10000 t … 10000 t + 9999` of `x` and writes back the same rows of
  the result; the weight stack, the four batch-norm arrays, the head's weight and the bias are staged whole (their
  block index is 0 at every point).  `idx_facts` decides the printed index maps over the grid; the block reads
  follow from "a block's element sits at index × block size + its coordinate".
-/
import proofs.«124183_j12403865551019_2_alg».proof.Proof.LaunchI
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The printed index maps over the grid: `x` and the result move with the point, everything else stays at 0. -/
theorem idx_facts : ∀ t : Fin cfg0.N, win0_0.index t (0 : Fin 2) = t.val
    ∧ win0_0.index t (1 : Fin 2) = 0
    ∧ win0_1.index t (0 : Fin 3) = 0
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 1) = 0
    ∧ win0_8.index t (0 : Fin 2) = t.val
    ∧ win0_8.index t (1 : Fin 2) = 0 :=
  (by decide +kernel : ∀ t : Fin grid0.N, _)

theorem t_lt (t : Fin cfg0.N) : t.val < 50 := lt_of_lt_of_eq t.isLt N_0

/-- Row `r` of point `t`'s block of `x` is row `10000 t + r` of `x`. -/
theorem iblk0_apply (c : Dev nD) (t : Fin cfg0.N) (r : Fin 10000) (k : Fin 128) :
    iblk m c 0 t (ix2 (n0 := 10000) (n1 := 128) r k)
      = V m c main_arg0 (ix2 (n0 := 500000) (n1 := 128) ⟨10000 * t.val + r.val, by have := t_lt t; omega⟩ k) := by
  unfold iblk
  show V m c main_arg0 (((cfg0.win 0).blk t).view.emb (ix2 (n0 := 10000) (n1 := 128) r k)) = _
  refine congrArg (V m c main_arg0) (funext fun a => Fin.ext ?_)
  obtain ⟨e0, e1, e2, e3, e4, e5, e6, e7, e8, e9, e10, e11, e12, e13, e14, e15, e16, e17⟩ := idx_facts t
  match a with
  | ⟨0, _⟩ => show win0_0.index t (0 : Fin 2) * 10000 + 1 * r.val = 10000 * t.val + r.val; omega
  | ⟨1, _⟩ => show win0_0.index t (1 : Fin 2) * 128 + 1 * k.val = k.val; omega

/-- Window 1 stages its whole array. -/
theorem iblk1_eq (c : Dev nD) (t : Fin cfg0.N) : iblk m c 1 t = V m c main_v36 := by
  unfold iblk
  funext j
  show V m c main_v36 (((cfg0.win 1).blk t).view.emb j) = V m c main_v36 j
  refine congrArg (V m c main_v36) (funext fun a => Fin.ext ?_)
  obtain ⟨e0, e1, e2, e3, e4, e5, e6, e7, e8, e9, e10, e11, e12, e13, e14, e15, e16, e17⟩ := idx_facts t
  match a with
  | ⟨0, _⟩ => show win0_1.index t (0 : Fin 3) * 12 + 1 * (j 0).val = (j 0).val; omega
  | ⟨1, _⟩ => show win0_1.index t (1 : Fin 3) * 176 + 1 * (j 1).val = (j 1).val; omega
  | ⟨2, _⟩ => show win0_1.index t (2 : Fin 3) * 4 + 1 * (j 2).val = (j 2).val; omega
/-- Window 2 stages its whole array. -/
theorem iblk2_eq (c : Dev nD) (t : Fin cfg0.N) : iblk m c 2 t = V m c main_arg13 := by
  unfold iblk
  funext j
  show V m c main_arg13 (((cfg0.win 2).blk t).view.emb j) = V m c main_arg13 j
  refine congrArg (V m c main_arg13) (funext fun a => Fin.ext ?_)
  obtain ⟨e0, e1, e2, e3, e4, e5, e6, e7, e8, e9, e10, e11, e12, e13, e14, e15, e16, e17⟩ := idx_facts t
  match a with
  | ⟨0, _⟩ => show win0_2.index t (0 : Fin 2) * 12 + 1 * (j 0).val = (j 0).val; omega
  | ⟨1, _⟩ => show win0_2.index t (1 : Fin 2) * 4 + 1 * (j 1).val = (j 1).val; omega
/-- Window 3 stages its whole array. -/
theorem iblk3_eq (c : Dev nD) (t : Fin cfg0.N) : iblk m c 3 t = V m c main_arg14 := by
  unfold iblk
  funext j
  show V m c main_arg14 (((cfg0.win 3).blk t).view.emb j) = V m c main_arg14 j
  refine congrArg (V m c main_arg14) (funext fun a => Fin.ext ?_)
  obtain ⟨e0, e1, e2, e3, e4, e5, e6, e7, e8, e9, e10, e11, e12, e13, e14, e15, e16, e17⟩ := idx_facts t
  match a with
  | ⟨0, _⟩ => show win0_3.index t (0 : Fin 2) * 12 + 1 * (j 0).val = (j 0).val; omega
  | ⟨1, _⟩ => show win0_3.index t (1 : Fin 2) * 4 + 1 * (j 1).val = (j 1).val; omega
/-- Window 4 stages its whole array. -/
theorem iblk4_eq (c : Dev nD) (t : Fin cfg0.N) : iblk m c 4 t = V m c main_arg15 := by
  unfold iblk
  funext j
  show V m c main_arg15 (((cfg0.win 4).blk t).view.emb j) = V m c main_arg15 j
  refine congrArg (V m c main_arg15) (funext fun a => Fin.ext ?_)
  obtain ⟨e0, e1, e2, e3, e4, e5, e6, e7, e8, e9, e10, e11, e12, e13, e14, e15, e16, e17⟩ := idx_facts t
  match a with
  | ⟨0, _⟩ => show win0_4.index t (0 : Fin 2) * 12 + 1 * (j 0).val = (j 0).val; omega
  | ⟨1, _⟩ => show win0_4.index t (1 : Fin 2) * 4 + 1 * (j 1).val = (j 1).val; omega
/-- Window 5 stages its whole array. -/
theorem iblk5_eq (c : Dev nD) (t : Fin cfg0.N) : iblk m c 5 t = V m c main_arg16 := by
  unfold iblk
  funext j
  show V m c main_arg16 (((cfg0.win 5).blk t).view.emb j) = V m c main_arg16 j
  refine congrArg (V m c main_arg16) (funext fun a => Fin.ext ?_)
  obtain ⟨e0, e1, e2, e3, e4, e5, e6, e7, e8, e9, e10, e11, e12, e13, e14, e15, e16, e17⟩ := idx_facts t
  match a with
  | ⟨0, _⟩ => show win0_5.index t (0 : Fin 2) * 12 + 1 * (j 0).val = (j 0).val; omega
  | ⟨1, _⟩ => show win0_5.index t (1 : Fin 2) * 4 + 1 * (j 1).val = (j 1).val; omega
/-- Window 6 stages its whole array. -/
theorem iblk6_eq (c : Dev nD) (t : Fin cfg0.N) : iblk m c 6 t = V m c main_v37 := by
  unfold iblk
  funext j
  show V m c main_v37 (((cfg0.win 6).blk t).view.emb j) = V m c main_v37 j
  refine congrArg (V m c main_v37) (funext fun a => Fin.ext ?_)
  obtain ⟨e0, e1, e2, e3, e4, e5, e6, e7, e8, e9, e10, e11, e12, e13, e14, e15, e16, e17⟩ := idx_facts t
  match a with
  | ⟨0, _⟩ => show win0_6.index t (0 : Fin 2) * 176 + 1 * (j 0).val = (j 0).val; omega
  | ⟨1, _⟩ => show win0_6.index t (1 : Fin 2) * 2 + 1 * (j 1).val = (j 1).val; omega
/-- Window 7 stages its whole array. -/
theorem iblk7_eq (c : Dev nD) (t : Fin cfg0.N) : iblk m c 7 t = V m c main_arg18 := by
  unfold iblk
  funext j
  show V m c main_arg18 (((cfg0.win 7).blk t).view.emb j) = V m c main_arg18 j
  refine congrArg (V m c main_arg18) (funext fun a => Fin.ext ?_)
  obtain ⟨e0, e1, e2, e3, e4, e5, e6, e7, e8, e9, e10, e11, e12, e13, e14, e15, e16, e17⟩ := idx_facts t
  match a with
  | ⟨0, _⟩ => show win0_7.index t (0 : Fin 1) * 2 + 1 * (j 0).val = (j 0).val; omega

end Cert.KernelIdeal.Hand

end
-- ==== Proof.KHost.lean ====
/-
  What the host lines before the region leave in the two arrays they build for the kernel.

  The weight stack (`main_v36`, [12, 176, 4]): slice `i` is `w_i` cast to bf16 (the identity on the extended
  reals) behind `48 - 4 i` rows of the padding value, the integer constant 0 converted to bf16, which is 0.  So the
  stack at `(i, j, u)` is 0 for `j < 48 - 4 i` and `w_i (j - (48 - 4 i), u)` from there on (`stack_at_0 … _11`,
  gathered in `stack_wp`).  The head's weight (`main_v37`) is `wf` cast to bf16: `wf` itself (`wf_at`).
-/
import proofs.«124183_j12403865551019_2_alg».proof.Proof.LaunchI
import proofs.«124183_j12403865551019_2_alg».proof.Proof.KRows
import proofs.«124183_j12403865551019_2_alg».proof.Proof.Spec
import Idealize.ShloMosaic.Lib.ValueIdx
import Idealize.ShloMosaic.Lib.Pipeline.Value
import Idealize.ShloMosaic.Lib.KernelVsHost
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

/-- The integer 0 converted to a float is 0. -/
theorem sitofp_zero : (sitofp (F := Ideal) .bf16 (constantI S_ 32 0#32)) ix0 = (0 : EReal) := by
  show ((((0#32 : BitVec 32).toInt : ℤ) : ℝ) : EReal) = 0
  norm_num

/-- One slice of the stack: an `[n, 4]` weight behind `lo` rows of the padding value, given a leading unit axis. -/
theorem piece_apply {n : ℕ} (lo : ℕ) (w : (⟨2, ![n, 4]⟩ : Shape).Idx → EReal) (z : S_.Idx → EReal)
    (hp : (⟨2, ![n, 4]⟩ : Shape).Pads ![lo, 0] ![0, 0] ![0, 0] S176x4) (hu : 0 < S_.numel)
    (hb : S176x4.BroadcastsInDim S1x176x4 ![1, 2]) (hn : lo + n = 176) (j : Fin 176) (u : Fin 4) :
    broadcastInDim S1x176x4 ![1, 2] hb (pad S176x4 ![lo, 0] ![0, 0] ![0, 0] w z hp hu) (ix3 (n0 := 1) (n1 := 176) (n2 := 4) 0 j u)
      = if h : j.val < lo then z ix0 else w (ix2 (n0 := n) (n1 := 4) ⟨j.val - lo, by omega⟩ u) := by
  refine (broadcastInDim_apply ![1, 2] hb (pad S176x4 ![lo, 0] ![0, 0] ![0, 0] w z hp hu) (ix3 (n0 := 1) (n1 := 176) (n2 := 4) 0 j u) (ix2 (n0 := 176) (n1 := 4) j u) (fun a => by
    match a with
    | ⟨0, _⟩ => show j.val = if (176 : ℕ) = 1 then 0 else j.val; rw [if_neg (by decide)]
    | ⟨1, _⟩ => show u.val = if (4 : ℕ) = 1 then 0 else u.val; rw [if_neg (by decide)])).trans ?_
  by_cases h : j.val < lo
  · rw [dif_pos h]
    refine (pad_apply_of_not_inside ![lo, 0] ![0, 0] ![0, 0] w z hp hu (ix2 (n0 := 176) (n1 := 4) j u) ⟨0, Nat.zero_lt_two⟩ ?_).trans
      (congrArg z (eq_ix0 _))
    intro hc
    have h0 : lo ≤ j.val := hc.1
    omega
  · rw [dif_neg h]
    refine pad_apply_of_inside ![lo, 0] ![0, 0] ![0, 0] w z hp hu (ix2 (n0 := 176) (n1 := 4) j u)
      (ix2 (n0 := n) (n1 := 4) ⟨j.val - lo, by omega⟩ u) (fun a => ?_)
    match a with
    | ⟨0, _⟩ => show j.val = lo + (j.val - lo) * (0 + 1); omega
    | ⟨1, _⟩ => show u.val = 0 + u.val * (0 + 1); omega

section Stack

variable (m : (ℓ : Loc nD τ sig) → Buf (Elt Ideal) ℓ)

/-- The twelve slices of the stack, as the host lines build them. -/
def stackList (c : Dev nD) : List ((s : Shape) × (s.Idx → EReal)) :=
  [⟨S1x176x4, broadcastInDim S1x176x4 ![1, 2] bcast_S176x4_S1x176x4_1_2 (pad S176x4 ![48, 0] ![0, 0] ![0, 0] (truncf (F := Ideal) .bf16 (m ((c.tc : Thread nD τ).loc main_arg1)) bitsLt_bf16_f32) (sitofp (F := Ideal) .bf16 (constantI S_ 32 0#32)) pads_S128x4_S176x4_4800_000 h_S_)⟩,
   ⟨S1x176x4, broadcastInDim S1x176x4 ![1, 2] bcast_S176x4_S1x176x4_1_2 (pad S176x4 ![44, 0] ![0, 0] ![0, 0] (truncf (F := Ideal) .bf16 (m ((c.tc : Thread nD τ).loc main_arg2)) bitsLt_bf16_f32) (sitofp (F := Ideal) .bf16 (constantI S_ 32 0#32)) pads_S132x4_S176x4_4400_000 h_S_)⟩,
   ⟨S1x176x4, broadcastInDim S1x176x4 ![1, 2] bcast_S176x4_S1x176x4_1_2 (pad S176x4 ![40, 0] ![0, 0] ![0, 0] (truncf (F := Ideal) .bf16 (m ((c.tc : Thread nD τ).loc main_arg3)) bitsLt_bf16_f32) (sitofp (F := Ideal) .bf16 (constantI S_ 32 0#32)) pads_S136x4_S176x4_4000_000 h_S_)⟩,
   ⟨S1x176x4, broadcastInDim S1x176x4 ![1, 2] bcast_S176x4_S1x176x4_1_2 (pad S176x4 ![36, 0] ![0, 0] ![0, 0] (truncf (F := Ideal) .bf16 (m ((c.tc : Thread nD τ).loc main_arg4)) bitsLt_bf16_f32) (sitofp (F := Ideal) .bf16 (constantI S_ 32 0#32)) pads_S140x4_S176x4_3600_000 h_S_)⟩,
   ⟨S1x176x4, broadcastInDim S1x176x4 ![1, 2] bcast_S176x4_S1x176x4_1_2 (pad S176x4 ![32, 0] ![0, 0] ![0, 0] (truncf (F := Ideal) .bf16 (m ((c.tc : Thread nD τ).loc main_arg5)) bitsLt_bf16_f32) (sitofp (F := Ideal) .bf16 (constantI S_ 32 0#32)) pads_S144x4_S176x4_3200_000 h_S_)⟩,
   ⟨S1x176x4, broadcastInDim S1x176x4 ![1, 2] bcast_S176x4_S1x176x4_1_2 (pad S176x4 ![28, 0] ![0, 0] ![0, 0] (truncf (F := Ideal) .bf16 (m ((c.tc : Thread nD τ).loc main_arg6)) bitsLt_bf16_f32) (sitofp (F := Ideal) .bf16 (constantI S_ 32 0#32)) pads_S148x4_S176x4_2800_000 h_S_)⟩,
   ⟨S1x176x4, broadcastInDim S1x176x4 ![1, 2] bcast_S176x4_S1x176x4_1_2 (pad S176x4 ![24, 0] ![0, 0] ![0, 0] (truncf (F := Ideal) .bf16 (m ((c.tc : Thread nD τ).loc main_arg7)) bitsLt_bf16_f32) (sitofp (F := Ideal) .bf16 (constantI S_ 32 0#32)) pads_S152x4_S176x4_2400_000 h_S_)⟩,
   ⟨S1x176x4, broadcastInDim S1x176x4 ![1, 2] bcast_S176x4_S1x176x4_1_2 (pad S176x4 ![20, 0] ![0, 0] ![0, 0] (truncf (F := Ideal) .bf16 (m ((c.tc : Thread nD τ).loc main_arg8)) bitsLt_bf16_f32) (sitofp (F := Ideal) .bf16 (constantI S_ 32 0#32)) pads_S156x4_S176x4_2000_000 h_S_)⟩,
   ⟨S1x176x4, broadcastInDim S1x176x4 ![1, 2] bcast_S176x4_S1x176x4_1_2 (pad S176x4 ![16, 0] ![0, 0] ![0, 0] (truncf (F := Ideal) .bf16 (m ((c.tc : Thread nD τ).loc main_arg9)) bitsLt_bf16_f32) (sitofp (F := Ideal) .bf16 (constantI S_ 32 0#32)) pads_S160x4_S176x4_1600_000 h_S_)⟩,
   ⟨S1x176x4, broadcastInDim S1x176x4 ![1, 2] bcast_S176x4_S1x176x4_1_2 (pad S176x4 ![12, 0] ![0, 0] ![0, 0] (truncf (F := Ideal) .bf16 (m ((c.tc : Thread nD τ).loc main_arg10)) bitsLt_bf16_f32) (sitofp (F := Ideal) .bf16 (constantI S_ 32 0#32)) pads_S164x4_S176x4_1200_000 h_S_)⟩,
   ⟨S1x176x4, broadcastInDim S1x176x4 ![1, 2] bcast_S176x4_S1x176x4_1_2 (pad S176x4 ![8, 0] ![0, 0] ![0, 0] (truncf (F := Ideal) .bf16 (m ((c.tc : Thread nD τ).loc main_arg11)) bitsLt_bf16_f32) (sitofp (F := Ideal) .bf16 (constantI S_ 32 0#32)) pads_S168x4_S176x4_800_000 h_S_)⟩,
   ⟨S1x176x4, broadcastInDim S1x176x4 ![1, 2] bcast_S176x4_S1x176x4_1_2 (pad S176x4 ![4, 0] ![0, 0] ![0, 0] (truncf (F := Ideal) .bf16 (m ((c.tc : Thread nD τ).loc main_arg12)) bitsLt_bf16_f32) (sitofp (F := Ideal) .bf16 (constantI S_ 32 0#32)) pads_S172x4_S176x4_400_000 h_S_)⟩]

theorem stackList_length (c : Dev nD) : (stackList m c).length = 12 := rfl

set_option maxHeartbeats 2000000 in
/-- The stack as the host lines build it. -/
theorem stack_term (c : Dev nD) :
    (V m c main_v36 : S12x176x4.Idx → EReal)
      = concatenate S12x176x4 0 (stackList m c) concatenates_S1x176x4_S1x176x4_S1x176x4_S1x176x4_S1x176x4_S1x176x4_S1x176x4_S1x176x4_S1x176x4_S1x176x4_S1x176x4_S1x176x4_S12x176x4_d0 := by
  funext idx
  unfold stackList
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  simp only [Matrix.cons_val]
  after_results_simp
  rfl

set_option maxHeartbeats 1000000 in
/-- The head's weight as the host lines leave it: `wf`. -/
theorem wf_at (c : Dev nD) (k : Fin 176) (u : Fin 2) :
    (V m c main_v37 : S176x2.Idx → EReal) (ix2 k u) = m ((c.tc : Thread nD τ).loc main_arg17) (ix2 k u) := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  rfl

/-- Slice 0 of the stack. -/
theorem stack_at_0 (c : Dev nD) (j : Fin 176) (u : Fin 4) :
    (V m c main_v36 : S12x176x4.Idx → EReal) (ix3 (n0 := 12) (n1 := 176) (n2 := 4) ⟨0, by decide⟩ j u)
      = if h : j.val < 48 then (0 : EReal)
        else m ((c.tc : Thread nD τ).loc main_arg1) (ix2 (n0 := 128) (n1 := 4) ⟨j.val - 48, by omega⟩ u) := by
  rw [stack_term]
  refine (concatenate_apply_piece (t := S12x176x4) (0 : Fin 3) (stackList m c) concatenates_S1x176x4_S1x176x4_S1x176x4_S1x176x4_S1x176x4_S1x176x4_S1x176x4_S1x176x4_S1x176x4_S1x176x4_S1x176x4_S1x176x4_S12x176x4_d0
    (ix3 (n0 := 12) (n1 := 176) (n2 := 4) ⟨0, by decide⟩ j u) 0 (by rw [stackList_length]; omega) S1x176x4
    (broadcastInDim S1x176x4 ![1, 2] bcast_S176x4_S1x176x4_1_2 (pad S176x4 ![48, 0] ![0, 0] ![0, 0] (truncf (F := Ideal) .bf16 (m ((c.tc : Thread nD τ).loc main_arg1)) bitsLt_bf16_f32) (sitofp (F := Ideal) .bf16 (constantI S_ 32 0#32)) pads_S128x4_S176x4_4800_000 h_S_)) rfl rfl 0 (by rfl)
    (ix3 (n0 := 1) (n1 := 176) (n2 := 4) 0 j u)
    (fun b hb => by
      match b with
      | ⟨0, _⟩ => exact absurd (Fin.ext rfl) hb
      | ⟨1, _⟩ => rfl
      | ⟨2, _⟩ => rfl) (by rfl)).trans ?_
  refine (piece_apply 48 _ _ pads_S128x4_S176x4_4800_000 h_S_ bcast_S176x4_S1x176x4_1_2 (by decide) j u).trans ?_
  by_cases h : j.val < 48
  · rw [dif_pos h, dif_pos h]; exact sitofp_zero
  · rw [dif_neg h, dif_neg h]; rfl
/-- Slice 1 of the stack. -/
theorem stack_at_1 (c : Dev nD) (j : Fin 176) (u : Fin 4) :
    (V m c main_v36 : S12x176x4.Idx → EReal) (ix3 (n0 := 12) (n1 := 176) (n2 := 4) ⟨1, by decide⟩ j u)
      = if h : j.val < 44 then (0 : EReal)
        else m ((c.tc : Thread nD τ).loc main_arg2) (ix2 (n0 := 132) (n1 := 4) ⟨j.val - 44, by omega⟩ u) := by
  rw [stack_term]
  refine (concatenate_apply_piece (t := S12x176x4) (0 : Fin 3) (stackList m c) concatenates_S1x176x4_S1x176x4_S1x176x4_S1x176x4_S1x176x4_S1x176x4_S1x176x4_S1x176x4_S1x176x4_S1x176x4_S1x176x4_S1x176x4_S12x176x4_d0
    (ix3 (n0 := 12) (n1 := 176) (n2 := 4) ⟨1, by decide⟩ j u) 1 (by rw [stackList_length]; omega) S1x176x4
    (broadcastInDim S1x176x4 ![1, 2] bcast_S176x4_S1x176x4_1_2 (pad S176x4 ![44, 0] ![0, 0] ![0, 0] (truncf (F := Ideal) .bf16 (m ((c.tc : Thread nD τ).loc main_arg2)) bitsLt_bf16_f32) (sitofp (F := Ideal) .bf16 (constantI S_ 32 0#32)) pads_S132x4_S176x4_4400_000 h_S_)) rfl rfl 1 (by rfl)
    (ix3 (n0 := 1) (n1 := 176) (n2 := 4) 0 j u)
    (fun b hb => by
      match b with
      | ⟨0, _⟩ => exact absurd (Fin.ext rfl) hb
      | ⟨1, _⟩ => rfl
      | ⟨2, _⟩ => rfl) (by rfl)).trans ?_
  refine (piece_apply 44 _ _ pads_S132x4_S176x4_4400_000 h_S_ bcast_S176x4_S1x176x4_1_2 (by decide) j u).trans ?_
  by_cases h : j.val < 44
  · rw [dif_pos h, dif_pos h]; exact sitofp_zero
  · rw [dif_neg h, dif_neg h]; rfl
/-- Slice 2 of the stack. -/
theorem stack_at_2 (c : Dev nD) (j : Fin 176) (u : Fin 4) :
    (V m c main_v36 : S12x176x4.Idx → EReal) (ix3 (n0 := 12) (n1 := 176) (n2 := 4) ⟨2, by decide⟩ j u)
      = if h : j.val < 40 then (0 : EReal)
        else m ((c.tc : Thread nD τ).loc main_arg3) (ix2 (n0 := 136) (n1 := 4) ⟨j.val - 40, by omega⟩ u) := by
  rw [stack_term]
  refine (concatenate_apply_piece (t := S12x176x4) (0 : Fin 3) (stackList m c) concatenates_S1x176x4_S1x176x4_S1x176x4_S1x176x4_S1x176x4_S1x176x4_S1x176x4_S1x176x4_S1x176x4_S1x176x4_S1x176x4_S1x176x4_S12x176x4_d0
    (ix3 (n0 := 12) (n1 := 176) (n2 := 4) ⟨2, by decide⟩ j u) 2 (by rw [stackList_length]; omega) S1x176x4
    (broadcastInDim S1x176x4 ![1, 2] bcast_S176x4_S1x176x4_1_2 (pad S176x4 ![40, 0] ![0, 0] ![0, 0] (truncf (F := Ideal) .bf16 (m ((c.tc : Thread nD τ).loc main_arg3)) bitsLt_bf16_f32) (sitofp (F := Ideal) .bf16 (constantI S_ 32 0#32)) pads_S136x4_S176x4_4000_000 h_S_)) rfl rfl 2 (by rfl)
    (ix3 (n0 := 1) (n1 := 176) (n2 := 4) 0 j u)
    (fun b hb => by
      match b with
      | ⟨0, _⟩ => exact absurd (Fin.ext rfl) hb
      | ⟨1, _⟩ => rfl
      | ⟨2, _⟩ => rfl) (by rfl)).trans ?_
  refine (piece_apply 40 _ _ pads_S136x4_S176x4_4000_000 h_S_ bcast_S176x4_S1x176x4_1_2 (by decide) j u).trans ?_
  by_cases h : j.val < 40
  · rw [dif_pos h, dif_pos h]; exact sitofp_zero
  · rw [dif_neg h, dif_neg h]; rfl
/-- Slice 3 of the stack. -/
theorem stack_at_3 (c : Dev nD) (j : Fin 176) (u : Fin 4) :
    (V m c main_v36 : S12x176x4.Idx → EReal) (ix3 (n0 := 12) (n1 := 176) (n2 := 4) ⟨3, by decide⟩ j u)
      = if h : j.val < 36 then (0 : EReal)
        else m ((c.tc : Thread nD τ).loc main_arg4) (ix2 (n0 := 140) (n1 := 4) ⟨j.val - 36, by omega⟩ u) := by
  rw [stack_term]
  refine (concatenate_apply_piece (t := S12x176x4) (0 : Fin 3) (stackList m c) concatenates_S1x176x4_S1x176x4_S1x176x4_S1x176x4_S1x176x4_S1x176x4_S1x176x4_S1x176x4_S1x176x4_S1x176x4_S1x176x4_S1x176x4_S12x176x4_d0
    (ix3 (n0 := 12) (n1 := 176) (n2 := 4) ⟨3, by decide⟩ j u) 3 (by rw [stackList_length]; omega) S1x176x4
    (broadcastInDim S1x176x4 ![1, 2] bcast_S176x4_S1x176x4_1_2 (pad S176x4 ![36, 0] ![0, 0] ![0, 0] (truncf (F := Ideal) .bf16 (m ((c.tc : Thread nD τ).loc main_arg4)) bitsLt_bf16_f32) (sitofp (F := Ideal) .bf16 (constantI S_ 32 0#32)) pads_S140x4_S176x4_3600_000 h_S_)) rfl rfl 3 (by rfl)
    (ix3 (n0 := 1) (n1 := 176) (n2 := 4) 0 j u)
    (fun b hb => by
      match b with
      | ⟨0, _⟩ => exact absurd (Fin.ext rfl) hb
      | ⟨1, _⟩ => rfl
      | ⟨2, _⟩ => rfl) (by rfl)).trans ?_
  refine (piece_apply 36 _ _ pads_S140x4_S176x4_3600_000 h_S_ bcast_S176x4_S1x176x4_1_2 (by decide) j u).trans ?_
  by_cases h : j.val < 36
  · rw [dif_pos h, dif_pos h]; exact sitofp_zero
  · rw [dif_neg h, dif_neg h]; rfl
/-- Slice 4 of the stack. -/
theorem stack_at_4 (c : Dev nD) (j : Fin 176) (u : Fin 4) :
    (V m c main_v36 : S12x176x4.Idx → EReal) (ix3 (n0 := 12) (n1 := 176) (n2 := 4) ⟨4, by decide⟩ j u)
      = if h : j.val < 32 then (0 : EReal)
        else m ((c.tc : Thread nD τ).loc main_arg5) (ix2 (n0 := 144) (n1 := 4) ⟨j.val - 32, by omega⟩ u) := by
  rw [stack_term]
  refine (concatenate_apply_piece (t := S12x176x4) (0 : Fin 3) (stackList m c) concatenates_S1x176x4_S1x176x4_S1x176x4_S1x176x4_S1x176x4_S1x176x4_S1x176x4_S1x176x4_S1x176x4_S1x176x4_S1x176x4_S1x176x4_S12x176x4_d0
    (ix3 (n0 := 12) (n1 := 176) (n2 := 4) ⟨4, by decide⟩ j u) 4 (by rw [stackList_length]; omega) S1x176x4
    (broadcastInDim S1x176x4 ![1, 2] bcast_S176x4_S1x176x4_1_2 (pad S176x4 ![32, 0] ![0, 0] ![0, 0] (truncf (F := Ideal) .bf16 (m ((c.tc : Thread nD τ).loc main_arg5)) bitsLt_bf16_f32) (sitofp (F := Ideal) .bf16 (constantI S_ 32 0#32)) pads_S144x4_S176x4_3200_000 h_S_)) rfl rfl 4 (by rfl)
    (ix3 (n0 := 1) (n1 := 176) (n2 := 4) 0 j u)
    (fun b hb => by
      match b with
      | ⟨0, _⟩ => exact absurd (Fin.ext rfl) hb
      | ⟨1, _⟩ => rfl
      | ⟨2, _⟩ => rfl) (by rfl)).trans ?_
  refine (piece_apply 32 _ _ pads_S144x4_S176x4_3200_000 h_S_ bcast_S176x4_S1x176x4_1_2 (by decide) j u).trans ?_
  by_cases h : j.val < 32
  · rw [dif_pos h, dif_pos h]; exact sitofp_zero
  · rw [dif_neg h, dif_neg h]; rfl
/-- Slice 5 of the stack. -/
theorem stack_at_5 (c : Dev nD) (j : Fin 176) (u : Fin 4) :
    (V m c main_v36 : S12x176x4.Idx → EReal) (ix3 (n0 := 12) (n1 := 176) (n2 := 4) ⟨5, by decide⟩ j u)
      = if h : j.val < 28 then (0 : EReal)
        else m ((c.tc : Thread nD τ).loc main_arg6) (ix2 (n0 := 148) (n1 := 4) ⟨j.val - 28, by omega⟩ u) := by
  rw [stack_term]
  refine (concatenate_apply_piece (t := S12x176x4) (0 : Fin 3) (stackList m c) concatenates_S1x176x4_S1x176x4_S1x176x4_S1x176x4_S1x176x4_S1x176x4_S1x176x4_S1x176x4_S1x176x4_S1x176x4_S1x176x4_S1x176x4_S12x176x4_d0
    (ix3 (n0 := 12) (n1 := 176) (n2 := 4) ⟨5, by decide⟩ j u) 5 (by rw [stackList_length]; omega) S1x176x4
    (broadcastInDim S1x176x4 ![1, 2] bcast_S176x4_S1x176x4_1_2 (pad S176x4 ![28, 0] ![0, 0] ![0, 0] (truncf (F := Ideal) .bf16 (m ((c.tc : Thread nD τ).loc main_arg6)) bitsLt_bf16_f32) (sitofp (F := Ideal) .bf16 (constantI S_ 32 0#32)) pads_S148x4_S176x4_2800_000 h_S_)) rfl rfl 5 (by rfl)
    (ix3 (n0 := 1) (n1 := 176) (n2 := 4) 0 j u)
    (fun b hb => by
      match b with
      | ⟨0, _⟩ => exact absurd (Fin.ext rfl) hb
      | ⟨1, _⟩ => rfl
      | ⟨2, _⟩ => rfl) (by rfl)).trans ?_
  refine (piece_apply 28 _ _ pads_S148x4_S176x4_2800_000 h_S_ bcast_S176x4_S1x176x4_1_2 (by decide) j u).trans ?_
  by_cases h : j.val < 28
  · rw [dif_pos h, dif_pos h]; exact sitofp_zero
  · rw [dif_neg h, dif_neg h]; rfl
/-- Slice 6 of the stack. -/
theorem stack_at_6 (c : Dev nD) (j : Fin 176) (u : Fin 4) :
    (V m c main_v36 : S12x176x4.Idx → EReal) (ix3 (n0 := 12) (n1 := 176) (n2 := 4) ⟨6, by decide⟩ j u)
      = if h : j.val < 24 then (0 : EReal)
        else m ((c.tc : Thread nD τ).loc main_arg7) (ix2 (n0 := 152) (n1 := 4) ⟨j.val - 24, by omega⟩ u) := by
  rw [stack_term]
  refine (concatenate_apply_piece (t := S12x176x4) (0 : Fin 3) (stackList m c) concatenates_S1x176x4_S1x176x4_S1x176x4_S1x176x4_S1x176x4_S1x176x4_S1x176x4_S1x176x4_S1x176x4_S1x176x4_S1x176x4_S1x176x4_S12x176x4_d0
    (ix3 (n0 := 12) (n1 := 176) (n2 := 4) ⟨6, by decide⟩ j u) 6 (by rw [stackList_length]; omega) S1x176x4
    (broadcastInDim S1x176x4 ![1, 2] bcast_S176x4_S1x176x4_1_2 (pad S176x4 ![24, 0] ![0, 0] ![0, 0] (truncf (F := Ideal) .bf16 (m ((c.tc : Thread nD τ).loc main_arg7)) bitsLt_bf16_f32) (sitofp (F := Ideal) .bf16 (constantI S_ 32 0#32)) pads_S152x4_S176x4_2400_000 h_S_)) rfl rfl 6 (by rfl)
    (ix3 (n0 := 1) (n1 := 176) (n2 := 4) 0 j u)
    (fun b hb => by
      match b with
      | ⟨0, _⟩ => exact absurd (Fin.ext rfl) hb
      | ⟨1, _⟩ => rfl
      | ⟨2, _⟩ => rfl) (by rfl)).trans ?_
  refine (piece_apply 24 _ _ pads_S152x4_S176x4_2400_000 h_S_ bcast_S176x4_S1x176x4_1_2 (by decide) j u).trans ?_
  by_cases h : j.val < 24
  · rw [dif_pos h, dif_pos h]; exact sitofp_zero
  · rw [dif_neg h, dif_neg h]; rfl
/-- Slice 7 of the stack. -/
theorem stack_at_7 (c : Dev nD) (j : Fin 176) (u : Fin 4) :
    (V m c main_v36 : S12x176x4.Idx → EReal) (ix3 (n0 := 12) (n1 := 176) (n2 := 4) ⟨7, by decide⟩ j u)
      = if h : j.val < 20 then (0 : EReal)
        else m ((c.tc : Thread nD τ).loc main_arg8) (ix2 (n0 := 156) (n1 := 4) ⟨j.val - 20, by omega⟩ u) := by
  rw [stack_term]
  refine (concatenate_apply_piece (t := S12x176x4) (0 : Fin 3) (stackList m c) concatenates_S1x176x4_S1x176x4_S1x176x4_S1x176x4_S1x176x4_S1x176x4_S1x176x4_S1x176x4_S1x176x4_S1x176x4_S1x176x4_S1x176x4_S12x176x4_d0
    (ix3 (n0 := 12) (n1 := 176) (n2 := 4) ⟨7, by decide⟩ j u) 7 (by rw [stackList_length]; omega) S1x176x4
    (broadcastInDim S1x176x4 ![1, 2] bcast_S176x4_S1x176x4_1_2 (pad S176x4 ![20, 0] ![0, 0] ![0, 0] (truncf (F := Ideal) .bf16 (m ((c.tc : Thread nD τ).loc main_arg8)) bitsLt_bf16_f32) (sitofp (F := Ideal) .bf16 (constantI S_ 32 0#32)) pads_S156x4_S176x4_2000_000 h_S_)) rfl rfl 7 (by rfl)
    (ix3 (n0 := 1) (n1 := 176) (n2 := 4) 0 j u)
    (fun b hb => by
      match b with
      | ⟨0, _⟩ => exact absurd (Fin.ext rfl) hb
      | ⟨1, _⟩ => rfl
      | ⟨2, _⟩ => rfl) (by rfl)).trans ?_
  refine (piece_apply 20 _ _ pads_S156x4_S176x4_2000_000 h_S_ bcast_S176x4_S1x176x4_1_2 (by decide) j u).trans ?_
  by_cases h : j.val < 20
  · rw [dif_pos h, dif_pos h]; exact sitofp_zero
  · rw [dif_neg h, dif_neg h]; rfl
/-- Slice 8 of the stack. -/
theorem stack_at_8 (c : Dev nD) (j : Fin 176) (u : Fin 4) :
    (V m c main_v36 : S12x176x4.Idx → EReal) (ix3 (n0 := 12) (n1 := 176) (n2 := 4) ⟨8, by decide⟩ j u)
      = if h : j.val < 16 then (0 : EReal)
        else m ((c.tc : Thread nD τ).loc main_arg9) (ix2 (n0 := 160) (n1 := 4) ⟨j.val - 16, by omega⟩ u) := by
  rw [stack_term]
  refine (concatenate_apply_piece (t := S12x176x4) (0 : Fin 3) (stackList m c) concatenates_S1x176x4_S1x176x4_S1x176x4_S1x176x4_S1x176x4_S1x176x4_S1x176x4_S1x176x4_S1x176x4_S1x176x4_S1x176x4_S1x176x4_S12x176x4_d0
    (ix3 (n0 := 12) (n1 := 176) (n2 := 4) ⟨8, by decide⟩ j u) 8 (by rw [stackList_length]; omega) S1x176x4
    (broadcastInDim S1x176x4 ![1, 2] bcast_S176x4_S1x176x4_1_2 (pad S176x4 ![16, 0] ![0, 0] ![0, 0] (truncf (F := Ideal) .bf16 (m ((c.tc : Thread nD τ).loc main_arg9)) bitsLt_bf16_f32) (sitofp (F := Ideal) .bf16 (constantI S_ 32 0#32)) pads_S160x4_S176x4_1600_000 h_S_)) rfl rfl 8 (by rfl)
    (ix3 (n0 := 1) (n1 := 176) (n2 := 4) 0 j u)
    (fun b hb => by
      match b with
      | ⟨0, _⟩ => exact absurd (Fin.ext rfl) hb
      | ⟨1, _⟩ => rfl
      | ⟨2, _⟩ => rfl) (by rfl)).trans ?_
  refine (piece_apply 16 _ _ pads_S160x4_S176x4_1600_000 h_S_ bcast_S176x4_S1x176x4_1_2 (by decide) j u).trans ?_
  by_cases h : j.val < 16
  · rw [dif_pos h, dif_pos h]; exact sitofp_zero
  · rw [dif_neg h, dif_neg h]; rfl
/-- Slice 9 of the stack. -/
theorem stack_at_9 (c : Dev nD) (j : Fin 176) (u : Fin 4) :
    (V m c main_v36 : S12x176x4.Idx → EReal) (ix3 (n0 := 12) (n1 := 176) (n2 := 4) ⟨9, by decide⟩ j u)
      = if h : j.val < 12 then (0 : EReal)
        else m ((c.tc : Thread nD τ).loc main_arg10) (ix2 (n0 := 164) (n1 := 4) ⟨j.val - 12, by omega⟩ u) := by
  rw [stack_term]
  refine (concatenate_apply_piece (t := S12x176x4) (0 : Fin 3) (stackList m c) concatenates_S1x176x4_S1x176x4_S1x176x4_S1x176x4_S1x176x4_S1x176x4_S1x176x4_S1x176x4_S1x176x4_S1x176x4_S1x176x4_S1x176x4_S12x176x4_d0
    (ix3 (n0 := 12) (n1 := 176) (n2 := 4) ⟨9, by decide⟩ j u) 9 (by rw [stackList_length]; omega) S1x176x4
    (broadcastInDim S1x176x4 ![1, 2] bcast_S176x4_S1x176x4_1_2 (pad S176x4 ![12, 0] ![0, 0] ![0, 0] (truncf (F := Ideal) .bf16 (m ((c.tc : Thread nD τ).loc main_arg10)) bitsLt_bf16_f32) (sitofp (F := Ideal) .bf16 (constantI S_ 32 0#32)) pads_S164x4_S176x4_1200_000 h_S_)) rfl rfl 9 (by rfl)
    (ix3 (n0 := 1) (n1 := 176) (n2 := 4) 0 j u)
    (fun b hb => by
      match b with
      | ⟨0, _⟩ => exact absurd (Fin.ext rfl) hb
      | ⟨1, _⟩ => rfl
      | ⟨2, _⟩ => rfl) (by rfl)).trans ?_
  refine (piece_apply 12 _ _ pads_S164x4_S176x4_1200_000 h_S_ bcast_S176x4_S1x176x4_1_2 (by decide) j u).trans ?_
  by_cases h : j.val < 12
  · rw [dif_pos h, dif_pos h]; exact sitofp_zero
  · rw [dif_neg h, dif_neg h]; rfl
/-- Slice 10 of the stack. -/
theorem stack_at_10 (c : Dev nD) (j : Fin 176) (u : Fin 4) :
    (V m c main_v36 : S12x176x4.Idx → EReal) (ix3 (n0 := 12) (n1 := 176) (n2 := 4) ⟨10, by decide⟩ j u)
      = if h : j.val < 8 then (0 : EReal)
        else m ((c.tc : Thread nD τ).loc main_arg11) (ix2 (n0 := 168) (n1 := 4) ⟨j.val - 8, by omega⟩ u) := by
  rw [stack_term]
  refine (concatenate_apply_piece (t := S12x176x4) (0 : Fin 3) (stackList m c) concatenates_S1x176x4_S1x176x4_S1x176x4_S1x176x4_S1x176x4_S1x176x4_S1x176x4_S1x176x4_S1x176x4_S1x176x4_S1x176x4_S1x176x4_S12x176x4_d0
    (ix3 (n0 := 12) (n1 := 176) (n2 := 4) ⟨10, by decide⟩ j u) 10 (by rw [stackList_length]; omega) S1x176x4
    (broadcastInDim S1x176x4 ![1, 2] bcast_S176x4_S1x176x4_1_2 (pad S176x4 ![8, 0] ![0, 0] ![0, 0] (truncf (F := Ideal) .bf16 (m ((c.tc : Thread nD τ).loc main_arg11)) bitsLt_bf16_f32) (sitofp (F := Ideal) .bf16 (constantI S_ 32 0#32)) pads_S168x4_S176x4_800_000 h_S_)) rfl rfl 10 (by rfl)
    (ix3 (n0 := 1) (n1 := 176) (n2 := 4) 0 j u)
    (fun b hb => by
      match b with
      | ⟨0, _⟩ => exact absurd (Fin.ext rfl) hb
      | ⟨1, _⟩ => rfl
      | ⟨2, _⟩ => rfl) (by rfl)).trans ?_
  refine (piece_apply 8 _ _ pads_S168x4_S176x4_800_000 h_S_ bcast_S176x4_S1x176x4_1_2 (by decide) j u).trans ?_
  by_cases h : j.val < 8
  · rw [dif_pos h, dif_pos h]; exact sitofp_zero
  · rw [dif_neg h, dif_neg h]; rfl
/-- Slice 11 of the stack. -/
theorem stack_at_11 (c : Dev nD) (j : Fin 176) (u : Fin 4) :
    (V m c main_v36 : S12x176x4.Idx → EReal) (ix3 (n0 := 12) (n1 := 176) (n2 := 4) ⟨11, by decide⟩ j u)
      = if h : j.val < 4 then (0 : EReal)
        else m ((c.tc : Thread nD τ).loc main_arg12) (ix2 (n0 := 172) (n1 := 4) ⟨j.val - 4, by omega⟩ u) := by
  rw [stack_term]
  refine (concatenate_apply_piece (t := S12x176x4) (0 : Fin 3) (stackList m c) concatenates_S1x176x4_S1x176x4_S1x176x4_S1x176x4_S1x176x4_S1x176x4_S1x176x4_S1x176x4_S1x176x4_S1x176x4_S1x176x4_S1x176x4_S12x176x4_d0
    (ix3 (n0 := 12) (n1 := 176) (n2 := 4) ⟨11, by decide⟩ j u) 11 (by rw [stackList_length]; omega) S1x176x4
    (broadcastInDim S1x176x4 ![1, 2] bcast_S176x4_S1x176x4_1_2 (pad S176x4 ![4, 0] ![0, 0] ![0, 0] (truncf (F := Ideal) .bf16 (m ((c.tc : Thread nD τ).loc main_arg12)) bitsLt_bf16_f32) (sitofp (F := Ideal) .bf16 (constantI S_ 32 0#32)) pads_S172x4_S176x4_400_000 h_S_)) rfl rfl 11 (by rfl)
    (ix3 (n0 := 1) (n1 := 176) (n2 := 4) 0 j u)
    (fun b hb => by
      match b with
      | ⟨0, _⟩ => exact absurd (Fin.ext rfl) hb
      | ⟨1, _⟩ => rfl
      | ⟨2, _⟩ => rfl) (by rfl)).trans ?_
  refine (piece_apply 4 _ _ pads_S172x4_S176x4_400_000 h_S_ bcast_S176x4_S1x176x4_1_2 (by decide) j u).trans ?_
  by_cases h : j.val < 4
  · rw [dif_pos h, dif_pos h]; exact sitofp_zero
  · rw [dif_neg h, dif_neg h]; rfl

end Stack

end Cert.KernelIdeal.Hand

end
-- ==== Proof.KFinal.lean ====
/-
  The kernel's result array, as the specification of the launch arrays.

  At grid point `t` the body sees rows `10000 t … 10000 t + 9999` of `x` and the other arrays whole, so the
  quantities of row `r` of the block are those of row `10000 t + r` of the launch arrays (`xr_eq`, `act_eq`), the
  stored weights are the padded weights (`wp_eq`, from the host lines), and the fixed-width vector after twelve
  layers is the growing one (DenseStack.fixed_twelve).  Hence what point `t` writes back is block `t` of
  `Gout` — Spec.out of the launch arrays — (`flushed_eq`); the fifty blocks tile the 500000 rows (`rows_cover`), so
  the result array ends at `Gout` (`final`), and the run is re-posted with that (`run`).
-/
import proofs.«124183_j12403865551019_2_alg».proof.Proof.FrameI
import proofs.«124183_j12403865551019_2_alg».proof.Proof.KOut
import proofs.«124183_j12403865551019_2_alg».proof.Proof.KBlocks
import proofs.«124183_j12403865551019_2_alg».proof.Proof.KHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The result the claim names: the specification of the launch arrays, index by index. -/
def Gout (c : Dev nD) : S500000x2.Idx → EReal := fun i =>
  Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) ⟨(i 0).val, idx2_lt0 i⟩ ⟨(i 1).val, idx2_lt1 i⟩

theorem Gout_ix2 (c : Dev nD) (R : Fin 500000) (u : Fin 2) :
    Gout m c (ix2 (n0 := 500000) (n1 := 2) R u) = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) R u := rfl

/-- Row `r` of point `t`'s block of `x` is row `10000 t + r` of `x`. -/
theorem xr_eq (c : Dev nD) (t : Fin cfg0.N) (r : Fin 10000) :
    Rows.xr (iblk m c 0 t) r = Spec.xrow (m ((c.tc : Thread nD τ).loc main_arg0)) ⟨10000 * t.val + r.val, by have := t_lt t; omega⟩ := by
  funext k
  unfold Rows.xr Spec.xrow
  by_cases h : k < 128
  · rw [dif_pos h, dif_pos h, iblk0_apply, V_main_arg0]
  · rw [dif_neg h, dif_neg h]

/-- The layers' affine maps are those of the launch arrays. -/
theorem act_eq (c : Dev nD) (t : Fin cfg0.N) :
    Rows.act (iblk m c 2 t) (iblk m c 3 t) (iblk m c 4 t) (iblk m c 5 t)
      = Spec.act (m ((c.tc : Thread nD τ).loc main_arg13)) (m ((c.tc : Thread nD τ).loc main_arg14)) (m ((c.tc : Thread nD τ).loc main_arg15)) (m ((c.tc : Thread nD τ).loc main_arg16)) := by
  rw [iblk2_eq, iblk3_eq, iblk4_eq, iblk5_eq, V_main_arg13, V_main_arg14, V_main_arg15, V_main_arg16]
  rfl

/-- The stored weights are the layers' weights behind `48 - 4 i` zero rows. -/
theorem wp_eq (c : Dev nD) (t : Fin cfg0.N) (i j u : ℕ) (hi : i < 12) (hj : j < 176) :
    Rows.wp (iblk m c 1 t) i j u
      = if j < 48 - 4 * i then 0 else Spec.wAt (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) i (j - (48 - 4 * i)) u := by
  rw [iblk1_eq]
  unfold Rows.wp
  by_cases hu : u < 4
  · rw [dif_pos ⟨hi, hj, hu⟩]
    interval_cases i
    · rw [stack_at_0 m c ⟨j, hj⟩ ⟨u, hu⟩]
      by_cases h : j < 48
      · rw [dif_pos h, if_pos h]
      · rw [dif_neg h, if_neg h]
        show _ = if h : j - 48 < 128 ∧ u < 4 then _ else 0
        rw [dif_pos ⟨by omega, hu⟩]
    · rw [stack_at_1 m c ⟨j, hj⟩ ⟨u, hu⟩]
      by_cases h : j < 44
      · rw [dif_pos h, if_pos h]
      · rw [dif_neg h, if_neg h]
        show _ = if h : j - 44 < 132 ∧ u < 4 then _ else 0
        rw [dif_pos ⟨by omega, hu⟩]
    · rw [stack_at_2 m c ⟨j, hj⟩ ⟨u, hu⟩]
      by_cases h : j < 40
      · rw [dif_pos h, if_pos h]
      · rw [dif_neg h, if_neg h]
        show _ = if h : j - 40 < 136 ∧ u < 4 then _ else 0
        rw [dif_pos ⟨by omega, hu⟩]
    · rw [stack_at_3 m c ⟨j, hj⟩ ⟨u, hu⟩]
      by_cases h : j < 36
      · rw [dif_pos h, if_pos h]
      · rw [dif_neg h, if_neg h]
        show _ = if h : j - 36 < 140 ∧ u < 4 then _ else 0
        rw [dif_pos ⟨by omega, hu⟩]
    · rw [stack_at_4 m c ⟨j, hj⟩ ⟨u, hu⟩]
      by_cases h : j < 32
      · rw [dif_pos h, if_pos h]
      · rw [dif_neg h, if_neg h]
        show _ = if h : j - 32 < 144 ∧ u < 4 then _ else 0
        rw [dif_pos ⟨by omega, hu⟩]
    · rw [stack_at_5 m c ⟨j, hj⟩ ⟨u, hu⟩]
      by_cases h : j < 28
      · rw [dif_pos h, if_pos h]
      · rw [dif_neg h, if_neg h]
        show _ = if h : j - 28 < 148 ∧ u < 4 then _ else 0
        rw [dif_pos ⟨by omega, hu⟩]
    · rw [stack_at_6 m c ⟨j, hj⟩ ⟨u, hu⟩]
      by_cases h : j < 24
      · rw [dif_pos h, if_pos h]
      · rw [dif_neg h, if_neg h]
        show _ = if h : j - 24 < 152 ∧ u < 4 then _ else 0
        rw [dif_pos ⟨by omega, hu⟩]
    · rw [stack_at_7 m c ⟨j, hj⟩ ⟨u, hu⟩]
      by_cases h : j < 20
      · rw [dif_pos h, if_pos h]
      · rw [dif_neg h, if_neg h]
        show _ = if h : j - 20 < 156 ∧ u < 4 then _ else 0
        rw [dif_pos ⟨by omega, hu⟩]
    · rw [stack_at_8 m c ⟨j, hj⟩ ⟨u, hu⟩]
      by_cases h : j < 16
      · rw [dif_pos h, if_pos h]
      · rw [dif_neg h, if_neg h]
        show _ = if h : j - 16 < 160 ∧ u < 4 then _ else 0
        rw [dif_pos ⟨by omega, hu⟩]
    · rw [stack_at_9 m c ⟨j, hj⟩ ⟨u, hu⟩]
      by_cases h : j < 12
      · rw [dif_pos h, if_pos h]
      · rw [dif_neg h, if_neg h]
        show _ = if h : j - 12 < 164 ∧ u < 4 then _ else 0
        rw [dif_pos ⟨by omega, hu⟩]
    · rw [stack_at_10 m c ⟨j, hj⟩ ⟨u, hu⟩]
      by_cases h : j < 8
      · rw [dif_pos h, if_pos h]
      · rw [dif_neg h, if_neg h]
        show _ = if h : j - 8 < 168 ∧ u < 4 then _ else 0
        rw [dif_pos ⟨by omega, hu⟩]
    · rw [stack_at_11 m c ⟨j, hj⟩ ⟨u, hu⟩]
      by_cases h : j < 4
      · rw [dif_pos h, if_pos h]
      · rw [dif_neg h, if_neg h]
        show _ = if h : j - 4 < 172 ∧ u < 4 then _ else 0
        rw [dif_pos ⟨by omega, hu⟩]
  · rw [dif_neg (fun h => hu h.2.2)]
    interval_cases i
    · by_cases h : j < 48
      · rw [if_pos h]
      · rw [if_neg h]
        show (0 : EReal) = if h : j - 48 < 128 ∧ u < 4 then _ else 0
        rw [dif_neg (fun h => hu h.2)]
    · by_cases h : j < 44
      · rw [if_pos h]
      · rw [if_neg h]
        show (0 : EReal) = if h : j - 44 < 132 ∧ u < 4 then _ else 0
        rw [dif_neg (fun h => hu h.2)]
    · by_cases h : j < 40
      · rw [if_pos h]
      · rw [if_neg h]
        show (0 : EReal) = if h : j - 40 < 136 ∧ u < 4 then _ else 0
        rw [dif_neg (fun h => hu h.2)]
    · by_cases h : j < 36
      · rw [if_pos h]
      · rw [if_neg h]
        show (0 : EReal) = if h : j - 36 < 140 ∧ u < 4 then _ else 0
        rw [dif_neg (fun h => hu h.2)]
    · by_cases h : j < 32
      · rw [if_pos h]
      · rw [if_neg h]
        show (0 : EReal) = if h : j - 32 < 144 ∧ u < 4 then _ else 0
        rw [dif_neg (fun h => hu h.2)]
    · by_cases h : j < 28
      · rw [if_pos h]
      · rw [if_neg h]
        show (0 : EReal) = if h : j - 28 < 148 ∧ u < 4 then _ else 0
        rw [dif_neg (fun h => hu h.2)]
    · by_cases h : j < 24
      · rw [if_pos h]
      · rw [if_neg h]
        show (0 : EReal) = if h : j - 24 < 152 ∧ u < 4 then _ else 0
        rw [dif_neg (fun h => hu h.2)]
    · by_cases h : j < 20
      · rw [if_pos h]
      · rw [if_neg h]
        show (0 : EReal) = if h : j - 20 < 156 ∧ u < 4 then _ else 0
        rw [dif_neg (fun h => hu h.2)]
    · by_cases h : j < 16
      · rw [if_pos h]
      · rw [if_neg h]
        show (0 : EReal) = if h : j - 16 < 160 ∧ u < 4 then _ else 0
        rw [dif_neg (fun h => hu h.2)]
    · by_cases h : j < 12
      · rw [if_pos h]
      · rw [if_neg h]
        show (0 : EReal) = if h : j - 12 < 164 ∧ u < 4 then _ else 0
        rw [dif_neg (fun h => hu h.2)]
    · by_cases h : j < 8
      · rw [if_pos h]
      · rw [if_neg h]
        show (0 : EReal) = if h : j - 8 < 168 ∧ u < 4 then _ else 0
        rw [dif_neg (fun h => hu h.2)]
    · by_cases h : j < 4
      · rw [if_pos h]
      · rw [if_neg h]
        show (0 : EReal) = if h : j - 4 < 172 ∧ u < 4 then _ else 0
        rw [dif_neg (fun h => hu h.2)]

/-- What point `t` writes back is block `t` of `Gout`. -/
theorem flushed_eq (c : Dev nD) (t : Fin cfg0.N) :
    (dats m 0 c).flushed 8 t = ((cfg0.win 8).blk t).view.read (Elt Ideal) (Gout m c) := by
  show (cfg0.win 8).cut (grid0.coords t) ((dats m 0 c).after 8 t) = _
  rw [after8]
  funext jj
  obtain ⟨r, u, rfl⟩ : ∃ (r : Fin 10000) (u : Fin 2), jj = ix2 (n0 := 10000) (n1 := 2) r u := ⟨jj 0, jj 1, eq_ix2 jj⟩
  have hemb : ((cfg0.win 8).blk t).view.emb (ix2 (n0 := 10000) (n1 := 2) r u)
      = ix2 (n0 := 500000) (n1 := 2) ⟨10000 * t.val + r.val, by have := t_lt t; omega⟩ u := by
    funext a; apply Fin.ext
    obtain ⟨e0, e1, e2, e3, e4, e5, e6, e7, e8, e9, e10, e11, e12, e13, e14, e15, e16, e17⟩ := idx_facts t
    match a with
    | ⟨0, _⟩ => show win0_8.index t (0 : Fin 2) * 10000 + 1 * r.val = 10000 * t.val + r.val; omega
    | ⟨1, _⟩ => show win0_8.index t (1 : Fin 2) * 2 + 1 * u.val = u.val; omega
  show outBlk (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (iblk m c 0 t) (iblk m c 1 t) (iblk m c 2 t) (iblk m c 3 t) (iblk m c 4 t) (iblk m c 5 t) (iblk m c 6 t) (iblk m c 7 t) (ix2 (n0 := 10000) (n1 := 2) r u)
      = Gout m c (((cfg0.win 8).blk t).view.emb (ix2 (n0 := 10000) (n1 := 2) r u))
  rw [hemb, Gout_ix2, Rows.outBlk_apply]
  unfold Spec.out
  refine congrArg (fun l => Spec.softmax2 l u) (funext fun u' => ?_)
  unfold Spec.logit Spec.hfin
  rw [iblk7_eq, V_main_arg18, iblk6_eq]
  refine congrArg (· + (m ((c.tc : Thread nD τ).loc main_arg18)) (ix1 u')) (Finset.sum_congr rfl fun k _ => ?_)
  rw [wf_at m c k u', xr_eq m c t r, act_eq m c t,
    DenseStack.fixed_twelve _ (Spec.wAt (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) _ _ (wp_eq m c t) k.val k.isLt]

/-- An index of the result is in point `t`'s block iff each coordinate is in the block's range on its axis. -/
theorem mem_blk8 (t : Fin cfg0.N) (i : S500000x2.Idx) :
    i ∈ ((cfg0.win 8).blk t).view.set
      ↔ ∀ a : Fin 2, win0_8.index t a * S10000x2.size a ≤ (i a).val ∧ (i a).val < win0_8.index t a * S10000x2.size a + S10000x2.size a := by
  show i ∈ ((View.whole main_v38).slice (win0_8.rect t)).set ↔ _
  rw [View.set_slice_whole, Rect.mem_set_unit]
  exact Iff.rfl

/-- The fifty blocks of 10000 rows tile the result. -/
theorem rows_cover (c : Dev nD) (i : S500000x2.Idx) :
    ∃ t : Fin cfg0.N, (cfg0.win 8).flush t = true ∧ i ∈ ((cfg0.win 8).blk t).view.set := by
  have hi0 : (i 0).val < 500000 := idx2_lt0 i
  have hi1 : (i 1).val < 2 := idx2_lt1 i
  obtain ⟨t0, ht0⟩ : ∃ t0 : Fin cfg0.N, t0.val = (i 0).val / 10000 :=
    ⟨⟨(i 0).val / 10000, by rw [show cfg0.N = 50 from N_0]; omega⟩, rfl⟩
  refine ⟨t0, flush0_8 t0, ?_⟩
  rw [mem_blk8]
  obtain ⟨e0, e1, e2, e3, e4, e5, e6, e7, e8, e9, e10, e11, e12, e13, e14, e15, e16, e17⟩ := idx_facts t0
  intro a
  match a with
  | ⟨0, _⟩ =>
    show win0_8.index t0 (0 : Fin 2) * 10000 ≤ (i 0).val ∧ (i 0).val < win0_8.index t0 (0 : Fin 2) * 10000 + 10000
    rw [e16, ht0]; omega
  | ⟨1, _⟩ =>
    show win0_8.index t0 (1 : Fin 2) * 2 ≤ (i 1).val ∧ (i 1).val < win0_8.index t0 (1 : Fin 2) * 2 + 2
    rw [e17]; omega

/-- The result array after the run. -/
theorem final (c : Dev nD) : (dats m 0 c).arrAt 8 cfg0.N = Gout m c :=
  (dats m 0 c).arrAt_eq_of_cover 8 (Gout m c) (fun t _ => flushed_eq m c t) (rows_cover c)

/-- The run, with the result array named: the specification of the launch arrays; the arguments unchanged. -/
theorem run : θ_run defs (onTc (τ := τ) (main (F := Ideal))) ⟨m, fun _ => 0, ρ⟩ (fun r => ∀ c : Dev nD,
      r.2.mem ((c.tc : Thread nD τ).loc main_v38) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 8).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 2).trans (((dats m 0 c).arrAt_in 2 rfl _).trans ((A_eq m c 2).trans (V_main_arg13 m c))),
      ((h c).1 3).trans (((dats m 0 c).arrAt_in 3 rfl _).trans ((A_eq m c 3).trans (V_main_arg14 m c))),
      ((h c).1 4).trans (((dats m 0 c).arrAt_in 4 rfl _).trans ((A_eq m c 4).trans (V_main_arg15 m c))),
      ((h c).1 5).trans (((dats m 0 c).arrAt_in 5 rfl _).trans ((A_eq m c 5).trans (V_main_arg16 m c))),
      ((h c).2 main_arg17 (Pipeline.mem_restRefs_of main_arg17 (by decide) (by decide))).trans (V_main_arg17 m c),
      ((h c).1 7).trans (((dats m 0 c).arrAt_in 7 rfl _).trans ((A_eq m c 7).trans (V_main_arg18 m c)))⟩)
    (run_main m ρ)

end Cert.KernelIdeal.Hand

end
-- ==== Proof.RefChain.lean ====
/-
  The reference's operations run chunk by chunk.

  The contents after the whole line are the contents after its thirteen chunks in turn (`after_ops`), and a buffer
  that no operation of the line writes holds, after any number of chunks, what it held at launch (`Kept`).
-/
import proofs.«124183_j12403865551019_2_alg».proof.Proof.RefRun

noncomputable section

namespace Cert.RefChain

open Cert.ReferenceIdeal Cert.ReferenceIdeal.Value Idealize.ShloMosaic Idealize.ShloMosaic.StableHlo

/-- Two lines one after the other. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih _

variable {F : FTy → Type} [FloatOps F]

/-- The whole line is its chunks in turn. -/
theorem after_ops (V : Valuation τ sig (Elt F)) :
    after (ops (F := F)) V = after tail (after layer11 (after layer10 (after layer9 (after layer8 (after layer7 (after layer6 (after layer5 (after layer4 (after layer3 (after layer2 (after layer1 (after layer0 (V))))))))))))) := by
  show after (layer0 ++ (layer1 ++ (layer2 ++ (layer3 ++ (layer4 ++ (layer5 ++ (layer6 ++ (layer7 ++ (layer8 ++ (layer9 ++ (layer10 ++ (layer11 ++ (tail ++ ([])))))))))))))) V = _
  simp only [after_append, after_nil]

/-- Every buffer that no operation of the line writes holds in `W` what it holds in `L`. -/
def Kept (L W : Valuation τ sig (Elt F)) : Prop :=
  ∀ b : DevRef τ sig, (∀ op ∈ (ops : List (HloOp τ sig (Elt F))), b ∉ op.writes) → W b = L b

theorem Kept.refl (L : Valuation τ sig (Elt F)) : Kept L L := fun _ _ => rfl

theorem Kept.step {L W : Valuation τ sig (Elt F)} (h : Kept L W) {l : List (HloOp τ sig (Elt F))}
    (hl : l ∈ (chunks : List (List (HloOp τ sig (Elt F))))) : Kept L (after l W) := fun b hb =>
  (after_of_forall_not_mem l W fun op hop => hb op (List.mem_flatten.mpr ⟨l, hl, hop⟩)).trans (h b hb)

theorem layer0_mem : (layer0 : List (HloOp τ sig (Elt F))) ∈ (chunks : List (List (HloOp τ sig (Elt F)))) :=
  (List.mem_cons_self)
theorem layer1_mem : (layer1 : List (HloOp τ sig (Elt F))) ∈ (chunks : List (List (HloOp τ sig (Elt F)))) :=
  (List.mem_cons_of_mem _ (List.mem_cons_self))
theorem layer2_mem : (layer2 : List (HloOp τ sig (Elt F))) ∈ (chunks : List (List (HloOp τ sig (Elt F)))) :=
  (List.mem_cons_of_mem _ (List.mem_cons_of_mem _ (List.mem_cons_self)))
theorem layer3_mem : (layer3 : List (HloOp τ sig (Elt F))) ∈ (chunks : List (List (HloOp τ sig (Elt F)))) :=
  (List.mem_cons_of_mem _ (List.mem_cons_of_mem _ (List.mem_cons_of_mem _ (List.mem_cons_self))))
theorem layer4_mem : (layer4 : List (HloOp τ sig (Elt F))) ∈ (chunks : List (List (HloOp τ sig (Elt F)))) :=
  (List.mem_cons_of_mem _ (List.mem_cons_of_mem _ (List.mem_cons_of_mem _ (List.mem_cons_of_mem _ (List.mem_cons_self)))))
theorem layer5_mem : (layer5 : List (HloOp τ sig (Elt F))) ∈ (chunks : List (List (HloOp τ sig (Elt F)))) :=
  (List.mem_cons_of_mem _ (List.mem_cons_of_mem _ (List.mem_cons_of_mem _ (List.mem_cons_of_mem _ (List.mem_cons_of_mem _ (List.mem_cons_self))))))
theorem layer6_mem : (layer6 : List (HloOp τ sig (Elt F))) ∈ (chunks : List (List (HloOp τ sig (Elt F)))) :=
  (List.mem_cons_of_mem _ (List.mem_cons_of_mem _ (List.mem_cons_of_mem _ (List.mem_cons_of_mem _ (List.mem_cons_of_mem _ (List.mem_cons_of_mem _ (List.mem_cons_self)))))))
theorem layer7_mem : (layer7 : List (HloOp τ sig (Elt F))) ∈ (chunks : List (List (HloOp τ sig (Elt F)))) :=
  (List.mem_cons_of_mem _ (List.mem_cons_of_mem _ (List.mem_cons_of_mem _ (List.mem_cons_of_mem _ (List.mem_cons_of_mem _ (List.mem_cons_of_mem _ (List.mem_cons_of_mem _ (List.mem_cons_self))))))))
theorem layer8_mem : (layer8 : List (HloOp τ sig (Elt F))) ∈ (chunks : List (List (HloOp τ sig (Elt F)))) :=
  (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))
theorem layer9_mem : (layer9 : List (HloOp τ sig (Elt F))) ∈ (chunks : List (List (HloOp τ sig (Elt F)))) :=
  (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))
theorem layer10_mem : (layer10 : List (HloOp τ sig (Elt F))) ∈ (chunks : List (List (HloOp τ sig (Elt F)))) :=
  (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))
theorem layer11_mem : (layer11 : List (HloOp τ sig (Elt F))) ∈ (chunks : List (List (HloOp τ sig (Elt F)))) :=
  (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))
theorem tail_mem : (tail : List (HloOp τ sig (Elt F))) ∈ (chunks : List (List (HloOp τ sig (Elt F)))) :=
  (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))

end Cert.RefChain

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.RefLayer.lean ====
/-
  One layer of the reference's densely connected stack, for any width, read at an index.

  The layer takes the row vectors so far (`h`, `n` columns), the layer's weight (`w`, `n` by 4) and the four
  `[12, 4]` arrays of the affine map, of which it uses row `i`.  It forms `h · w`, multiplies by the row's scale
  `gamma * rsqrt (var + 1e-3)`, adds the row's shift `beta - mean * scale`, cuts at zero, and puts the four new
  columns in front of `h`.  Read at `(R, k)`: for `k < 4` the rectified affine image of the `k`-th dot product of
  row `R`, for `k ≥ 4` the entry `k - 4` of `h`'s row `R`.
-/
import proofs.«124183_j12403865551019_2_alg».proof.Proof.Spec
import proofs.«124183_j12403865551019_2_alg».proof.Proof.LibHostMatmulNN
import proofs.«124183_j12403865551019_2_alg».proof.Proof.LibHostKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefLayer

open Idealize.ShloMosaic Idealize.ShloMosaic.ValueIdx

abbrev S_ : Shape := ⟨0, ![]⟩
abbrev S4 : Shape := ⟨1, ![4]⟩
abbrev S1x4 : Shape := ⟨2, ![1, 4]⟩
abbrev S12x4 : Shape := ⟨2, ![12, 4]⟩
abbrev SRx4 : Shape := ⟨2, ![500000, 4]⟩

theorem hc : S1x4.ShapeCasts S4 := by decide
theorem hb0 : S_.BroadcastsInDim S4 (![] : Fin 0 → Fin S4.rank) := by decide
theorem hb1 : S4.BroadcastsInDim S1x4 (![1] : Fin 1 → Fin S1x4.rank) := by decide
theorem hb2 : S1x4.BroadcastsInDim SRx4 (![0, 1] : Fin 2 → Fin SRx4.rank) := by decide
theorem hb3 : S_.BroadcastsInDim SRx4 (![] : Fin 0 → Fin SRx4.rank) := by decide

section Row

variable (i : ℕ) (hs : S12x4.Slices ![i, 0] S1x4)

/-- Row `i` of a `[12, 4]` array, as a vector of four. -/
def row (A : FVec Ideal S12x4 .f32) : FVec Ideal S4 .f32 :=
  shapeCast S4 (extractStridedSlice S1x4 ![i, 0] A hs) hc

/-- The row's scale `gamma * rsqrt (var + 1e-3)`. -/
def scale (G V : FVec Ideal S12x4 .f32) : FVec Ideal S4 .f32 :=
  mulf (row i hs G) (Host.rsqrt (addf (row i hs V) (broadcastInDim S4 ![] hb0 (constant (F := Ideal) S_ .f32 0x3A83126F#32))))

/-- The row's shift `beta - mean * scale`. -/
def shift (G B M V : FVec Ideal S12x4 .f32) : FVec Ideal S4 .f32 :=
  subf (row i hs B) (mulf (row i hs M) (scale i hs G V))

/-- A vector of four repeated down the rows. -/
def up (v : FVec Ideal S4 .f32) : FVec Ideal SRx4 .f32 :=
  broadcastInDim SRx4 ![0, 1] hb2 (broadcastInDim S1x4 ![1] hb1 v)

theorem row_apply (hi : i < 12) (A : FVec Ideal S12x4 .f32) (u : Fin 4) :
    row i hs A (ix1 u) = A (ix2 ⟨i, hi⟩ u) :=
  (shapeCast_1a_a_apply _ hc u).trans (slice2_axis0_apply i A hs (0 : Fin 1) u ⟨i, hi⟩ rfl)

theorem scale_apply (hi : i < 12) (G V : FVec Ideal S12x4 .f32) (u : Fin 4) :
    scale i hs G V (ix1 u)
      = G (ix2 ⟨i, hi⟩ u) * Ideal.rsqrt (V (ix2 ⟨i, hi⟩ u) + Ideal.ofBits .f32 0x3A83126F#32) := by
  show row i hs G (ix1 u) * Ideal.rsqrt (row i hs V (ix1 u)
      + broadcastInDim S4 ![] hb0 (constant (F := Ideal) S_ .f32 0x3A83126F#32) (ix1 u)) = _
  rw [row_apply i hs hi, row_apply i hs hi, broadcastInDim_scalar_apply]
  rfl

theorem shift_apply (hi : i < 12) (G B M V : FVec Ideal S12x4 .f32) (u : Fin 4) :
    shift i hs G B M V (ix1 u) = B (ix2 ⟨i, hi⟩ u) - M (ix2 ⟨i, hi⟩ u) * scale i hs G V (ix1 u) := by
  show row i hs B (ix1 u) - row i hs M (ix1 u) * scale i hs G V (ix1 u) = _
  rw [row_apply i hs hi, row_apply i hs hi]

theorem up_apply (v : FVec Ideal S4 .f32) (R : Fin 500000) (u : Fin 4) : up v (ix2 R u) = v (ix1 u) :=
  (broadcastInDim_1b_ab_apply _ hb2 rfl _ R u).trans (broadcastInDim_b_1b_apply _ hb1 rfl v (0 : Fin 1) u)

end Row

section Layer

variable {n n' : ℕ} (i : ℕ) (hs : S12x4.Slices ![i, 0] S1x4)
  (d : DotDims ⟨2, ![500000, n]⟩ ⟨2, ![n, 4]⟩ SRx4)
  (hcat : Shape.Concatenates [SRx4, ⟨2, ![500000, n]⟩] ⟨2, ![500000, n']⟩ 1)

/-- The layer's four new columns. -/
def fresh (h : FVec Ideal ⟨2, ![500000, n]⟩ .f32) (w : FVec Ideal ⟨2, ![n, 4]⟩ .f32)
    (G B M V : FVec Ideal S12x4 .f32) : FVec Ideal SRx4 .f32 :=
  maximumf (addf (mulf (Host.dotGeneral d none h w) (up (scale i hs G V))) (up (shift i hs G B M V)))
    (broadcastInDim SRx4 ![] hb3 (constant (F := Ideal) S_ .f32 0x00000000#32))

/-- The layer: the new columns in front of the old ones. -/
def layer (h : FVec Ideal ⟨2, ![500000, n]⟩ .f32) (w : FVec Ideal ⟨2, ![n, 4]⟩ .f32)
    (G B M V : FVec Ideal S12x4 .f32) : FVec Ideal ⟨2, ![500000, n']⟩ .f32 :=
  concatenate ⟨2, ![500000, n']⟩ 1 [⟨SRx4, fresh i hs d h w G B M V⟩, ⟨⟨2, ![500000, n]⟩, h⟩] hcat

variable (hlc : d.lhsContracting = [1]) (hrc : d.rhsContracting = [0])
  (hln : d.lhsNonContracting = [0]) (hrn : d.rhsNonContracting = [1])
  (hlb : d.lhsBatch = []) (hrb : d.rhsBatch = [])

include hlc hrc hln hrn hlb hrb in
theorem fresh_apply (hi : i < 12) (h : FVec Ideal ⟨2, ![500000, n]⟩ .f32) (w : FVec Ideal ⟨2, ![n, 4]⟩ .f32)
    (G B M V : FVec Ideal S12x4 .f32) (R : Fin 500000) (u : Fin 4) :
    fresh i hs d h w G B M V (ix2 R u)
      = Spec.act G B M V i u.val (∑ k : Fin n, h (ix2 R k) * w (ix2 k u)) := by
  show max (Host.dotGeneral d none h w (ix2 R u) * up (scale i hs G V) (ix2 R u) + up (shift i hs G B M V) (ix2 R u))
      (broadcastInDim SRx4 ![] hb3 (constant (F := Ideal) S_ .f32 0x00000000#32) (ix2 R u)) = _
  rw [LibHostMatmulNN.hostDot_nn_apply d hlc hrc hln hrn hlb hrb, up_apply, up_apply, broadcastInDim_scalar_apply,
    shift_apply i hs hi, scale_apply i hs hi]
  unfold Spec.act Spec.sh Spec.sc
  rw [dif_pos ⟨hi, u.isLt⟩, dif_pos ⟨hi, u.isLt⟩]
  rfl

theorem layer_apply_lt (h : FVec Ideal ⟨2, ![500000, n]⟩ .f32) (w : FVec Ideal ⟨2, ![n, 4]⟩ .f32)
    (G B M V : FVec Ideal S12x4 .f32) (R : Fin 500000) (k : Fin n') (hk : k.val < 4) :
    layer i hs d hcat h w G B M V (ix2 R k) = fresh i hs d h w G B M V (ix2 R ⟨k.val, hk⟩) :=
  concatenate_pair_apply_left (t := ⟨2, ![500000, n']⟩) 1 _ _ hcat (ix2 R k) rfl (ix2 R ⟨k.val, hk⟩)
    (fun b => match b with | ⟨0, _⟩ => rfl | ⟨1, _⟩ => rfl)

theorem layer_apply_ge (h : FVec Ideal ⟨2, ![500000, n]⟩ .f32) (w : FVec Ideal ⟨2, ![n, 4]⟩ .f32)
    (G B M V : FVec Ideal S12x4 .f32) (R : Fin 500000) (k : Fin n') (hk : 4 ≤ k.val) (hk' : k.val - 4 < n) :
    layer i hs d hcat h w G B M V (ix2 R k) = h (ix2 R ⟨k.val - 4, hk'⟩) :=
  concatenate_pair_apply_right (t := ⟨2, ![500000, n']⟩) 1 _ _ hcat (ix2 R k) rfl rfl (ix2 R ⟨k.val - 4, hk'⟩)
    (fun b => match b with | ⟨0, _⟩ => fun _ => rfl | ⟨1, _⟩ => fun hne => absurd rfl hne)
    (show k.val - 4 + 4 = k.val by omega)

end Layer

end Cert.RefLayer

end
-- ==== Proof.RefTail.lean ====
/-
  The reference's last step, read at an index: the two logits of every row and their softmax.

  From the row vectors `h` (176 columns), the weight `WF` (176 by 2) and the bias `BF` it forms `h · WF + BF`, takes
  each row's maximum (from `-inf`, and once more against `-inf`), exponentiates the differences, sums them along
  the row and divides.  Read at `(R, u)` this is `Spec.softmax2` of row `R`'s two logits.
-/
import proofs.«124183_j12403865551019_2_alg».proof.Proof.Spec
import proofs.«124183_j12403865551019_2_alg».proof.Proof.LibHostMatmulNN
import proofs.«124183_j12403865551019_2_alg».proof.Proof.LibHostKeepdims
import Idealize.ShloMosaic.Lib.ValueIdx
import Idealize.ShloMosaic.Lib.Pipeline.Value
import Idealize.ShloMosaic.PureOps.Ideal.Laws

noncomputable section

open scoped BigOperators

namespace Cert.RefTail

open Idealize.ShloMosaic Idealize.ShloMosaic.ValueIdx

abbrev S_ : Shape := ⟨0, ![]⟩
abbrev S2 : Shape := ⟨1, ![2]⟩
abbrev S1x2 : Shape := ⟨2, ![1, 2]⟩
abbrev SR : Shape := ⟨1, ![500000]⟩
abbrev SRx1 : Shape := ⟨2, ![500000, 1]⟩
abbrev SRx2 : Shape := ⟨2, ![500000, 2]⟩
abbrev SRx176 : Shape := ⟨2, ![500000, 176]⟩
abbrev S176x2 : Shape := ⟨2, ![176, 2]⟩

theorem hbA : S2.BroadcastsInDim S1x2 (![1] : Fin 1 → Fin S1x2.rank) := by decide
theorem hbB : S1x2.BroadcastsInDim SRx2 (![0, 1] : Fin 2 → Fin SRx2.rank) := by decide
theorem hbC : S_.BroadcastsInDim SR (![] : Fin 0 → Fin SR.rank) := by decide
theorem hbD : SR.BroadcastsInDim SRx1 (![0] : Fin 1 → Fin SRx1.rank) := by decide
theorem hbE : SRx1.BroadcastsInDim SRx2 (![0, 1] : Fin 2 → Fin SRx2.rank) := by decide
theorem hred : SRx2.ReducesTo [1] SR := by decide
theorem hred' : SRx2.Reduces [1] SR := by decide
theorem hpos : 0 < S_.numel := by decide

variable (d : DotDims SRx176 S176x2 SRx2)

/-- The logits `h · WF + BF`. -/
def logits (h : FVec Ideal SRx176 .f32) (WF : FVec Ideal S176x2 .f32) (BF : FVec Ideal S2 .f32) : FVec Ideal SRx2 .f32 :=
  addf (Host.dotGeneral d none h WF) (broadcastInDim SRx2 ![0, 1] hbB (broadcastInDim S1x2 ![1] hbA BF))

/-- One number a row, repeated along the row. -/
def keep (v : FVec Ideal SR .f32) : FVec Ideal SRx2 .f32 :=
  broadcastInDim SRx2 ![0, 1] hbE (broadcastInDim SRx1 ![0] hbD v)

/-- Each row's maximum, as computed. -/
def rmax (l : FVec Ideal SRx2 .f32) : FVec Ideal SR .f32 :=
  maximumf (broadcastInDim SR ![] hbC (constant (F := Ideal) S_ .f32 0xFF800000#32))
    (Host.reduce FloatOps.maximumf l (constant (F := Ideal) S_ .f32 0xFF800000#32) hred hpos)

/-- The exponentials of the differences to the row's maximum. -/
def expd (l : FVec Ideal SRx2 .f32) : FVec Ideal SRx2 .f32 := Host.exp (subf l (keep (rmax l)))

/-- The softmax along the rows. -/
def soft (l : FVec Ideal SRx2 .f32) : FVec Ideal SRx2 .f32 :=
  Host.divf (expd l) (keep (Host.reduceAdd (expd l) (constant (F := Ideal) S_ .f32 0x00000000#32) hred hpos))

/-- The whole last step. -/
def tailFn (h : FVec Ideal SRx176 .f32) (WF : FVec Ideal S176x2 .f32) (BF : FVec Ideal S2 .f32) : FVec Ideal SRx2 .f32 :=
  soft (logits d h WF BF)

/-- The exponential and the quotient at an index. -/
theorem hostExp_apply {s : Shape} (x : FVec Ideal s .f32) (j : s.Idx) : Host.exp x j = Ideal.exp (x j) := rfl
theorem hostDivf_apply {s : Shape} (x y : FVec Ideal s .f32) (j : s.Idx) : Host.divf x y j = Ideal.div (x j) (y j) := rfl

theorem keep_apply (v : FVec Ideal SR .f32) (R : Fin 500000) (u : Fin 2) : keep v (ix2 R u) = v (ix1 R) :=
  (broadcastInDim_a1_ab_apply _ hbE rfl _ R u).trans (broadcastInDim_a_a1_apply _ hbD rfl v R (0 : Fin 1))

theorem rmax_apply (l : FVec Ideal SRx2 .f32) (R : Fin 500000) :
    rmax l (ix1 R) = Spec.rowMax (fun u => l (ix2 R u)) := by
  unfold rmax Spec.rowMax
  rw [maximumf_apply, broadcastInDim_scalar_apply, hostReduce_max_rows_apply l _ hred hred' hpos R,
    constant_apply, constant_apply]

theorem expd_apply (l : FVec Ideal SRx2 .f32) (R : Fin 500000) (u : Fin 2) :
    expd l (ix2 R u) = Ideal.exp (l (ix2 R u) - Spec.rowMax (fun u => l (ix2 R u))) := by
  unfold expd
  rw [hostExp_apply, subf_apply, keep_apply, rmax_apply]

theorem soft_apply (l : FVec Ideal SRx2 .f32) (R : Fin 500000) (u : Fin 2) :
    soft l (ix2 R u) = Spec.softmax2 (fun u => l (ix2 R u)) u := by
  unfold soft Spec.softmax2
  rw [hostDivf_apply, keep_apply, hostReduceAdd_rows_apply _ _ hred hred' hpos R, expd_apply, constant_apply,
    Ideal.ofBits_zero_f32, zero_add]
  exact congrArg (Ideal.div _) (Finset.sum_congr rfl fun k _ => expd_apply l R k)

variable (hlc : d.lhsContracting = [1]) (hrc : d.rhsContracting = [0])
  (hln : d.lhsNonContracting = [0]) (hrn : d.rhsNonContracting = [1])
  (hlb : d.lhsBatch = []) (hrb : d.rhsBatch = [])

include hlc hrc hln hrn hlb hrb in
theorem logits_apply (h : FVec Ideal SRx176 .f32) (WF : FVec Ideal S176x2 .f32) (BF : FVec Ideal S2 .f32)
    (R : Fin 500000) (u : Fin 2) :
    logits d h WF BF (ix2 R u) = (∑ k : Fin 176, h (ix2 R k) * WF (ix2 k u)) + BF (ix1 u) := by
  unfold logits
  rw [addf_apply, LibHostMatmulNN.hostDot_nn_apply d hlc hrc hln hrn hlb hrb, broadcastInDim_1b_ab_apply _ hbB rfl _ R u,
    broadcastInDim_b_1b_apply _ hbA rfl BF (0 : Fin 1) u]

include hlc hrc hln hrn hlb hrb in
theorem tailFn_apply (h : FVec Ideal SRx176 .f32) (WF : FVec Ideal S176x2 .f32) (BF : FVec Ideal S2 .f32)
    (R : Fin 500000) (u : Fin 2) :
    tailFn d h WF BF (ix2 R u)
      = Spec.softmax2 (fun v => (∑ k : Fin 176, h (ix2 R k) * WF (ix2 k v)) + BF (ix1 v)) u :=
  (soft_apply _ R u).trans (congrArg (Spec.softmax2 · u)
    (funext fun v => logits_apply d hlc hrc hln hrn hlb hrb h WF BF R v))

end Cert.RefTail

end
-- ==== Proof.RefSteps.lean ====
/-
  Each chunk of the reference's operations as one function of the buffers it reads.

  From any contents `W`, the buffer a layer's chunk ends on holds `RefLayer.layer` of the previous layer's result (the
  argument `x` for the first), the layer's weight and the four `[12, 4]` arrays as `W` has them; the result buffer
  after the last chunk holds `RefTail.tailFn` of the twelfth layer's result, the last weight and the bias.
-/
import proofs.«124183_j12403865551019_2_alg».proof.Proof.RefRun
import proofs.«124183_j12403865551019_2_alg».proof.Proof.RefLayer
import proofs.«124183_j12403865551019_2_alg».proof.Proof.RefTail

noncomputable section

namespace Cert.RefSteps

open Cert.ReferenceIdeal Cert.ReferenceIdeal.Gen Cert.ReferenceIdeal.Value Idealize.ShloMosaic Idealize.ShloMosaic.TcCoe Idealize.SL.Sem Idealize.ShloMosaic.StableHlo

theorem layer0_after (W : Valuation τ sig (Elt Ideal)) :
    after (layer0 (F := Ideal)) W (Proc.devRef .tc main_v22)
      = RefLayer.layer 0 slices_S12x4_S1x4_0_0 dot_S500000x128_S128x4_S500000x4_1_0_0_1_n_n
          concatenates_S500000x4_S500000x128_S500000x132_d1
          (W (Proc.devRef .tc main_arg0)) (W (Proc.devRef .tc main_arg1))
          (W (Proc.devRef .tc main_arg13)) (W (Proc.devRef .tc main_arg14)) (W (Proc.devRef .tc main_arg15)) (W (Proc.devRef .tc main_arg16)) := by
  after_results_simp
  rfl

theorem layer1_after (W : Valuation τ sig (Elt Ideal)) :
    after (layer1 (F := Ideal)) W (Proc.devRef .tc main_v45)
      = RefLayer.layer 1 slices_S12x4_S1x4_1_0 dot_S500000x132_S132x4_S500000x4_1_0_0_1_n_n
          concatenates_S500000x4_S500000x132_S500000x136_d1
          (W (Proc.devRef .tc main_v22)) (W (Proc.devRef .tc main_arg2))
          (W (Proc.devRef .tc main_arg13)) (W (Proc.devRef .tc main_arg14)) (W (Proc.devRef .tc main_arg15)) (W (Proc.devRef .tc main_arg16)) := by
  after_results_simp
  rfl

theorem layer2_after (W : Valuation τ sig (Elt Ideal)) :
    after (layer2 (F := Ideal)) W (Proc.devRef .tc main_v68)
      = RefLayer.layer 2 slices_S12x4_S1x4_2_0 dot_S500000x136_S136x4_S500000x4_1_0_0_1_n_n
          concatenates_S500000x4_S500000x136_S500000x140_d1
          (W (Proc.devRef .tc main_v45)) (W (Proc.devRef .tc main_arg3))
          (W (Proc.devRef .tc main_arg13)) (W (Proc.devRef .tc main_arg14)) (W (Proc.devRef .tc main_arg15)) (W (Proc.devRef .tc main_arg16)) := by
  after_results_simp
  rfl

theorem layer3_after (W : Valuation τ sig (Elt Ideal)) :
    after (layer3 (F := Ideal)) W (Proc.devRef .tc main_v91)
      = RefLayer.layer 3 slices_S12x4_S1x4_3_0 dot_S500000x140_S140x4_S500000x4_1_0_0_1_n_n
          concatenates_S500000x4_S500000x140_S500000x144_d1
          (W (Proc.devRef .tc main_v68)) (W (Proc.devRef .tc main_arg4))
          (W (Proc.devRef .tc main_arg13)) (W (Proc.devRef .tc main_arg14)) (W (Proc.devRef .tc main_arg15)) (W (Proc.devRef .tc main_arg16)) := by
  after_results_simp
  rfl

theorem layer4_after (W : Valuation τ sig (Elt Ideal)) :
    after (layer4 (F := Ideal)) W (Proc.devRef .tc main_v114)
      = RefLayer.layer 4 slices_S12x4_S1x4_4_0 dot_S500000x144_S144x4_S500000x4_1_0_0_1_n_n
          concatenates_S500000x4_S500000x144_S500000x148_d1
          (W (Proc.devRef .tc main_v91)) (W (Proc.devRef .tc main_arg5))
          (W (Proc.devRef .tc main_arg13)) (W (Proc.devRef .tc main_arg14)) (W (Proc.devRef .tc main_arg15)) (W (Proc.devRef .tc main_arg16)) := by
  after_results_simp
  rfl

theorem layer5_after (W : Valuation τ sig (Elt Ideal)) :
    after (layer5 (F := Ideal)) W (Proc.devRef .tc main_v137)
      = RefLayer.layer 5 slices_S12x4_S1x4_5_0 dot_S500000x148_S148x4_S500000x4_1_0_0_1_n_n
          concatenates_S500000x4_S500000x148_S500000x152_d1
          (W (Proc.devRef .tc main_v114)) (W (Proc.devRef .tc main_arg6))
          (W (Proc.devRef .tc main_arg13)) (W (Proc.devRef .tc main_arg14)) (W (Proc.devRef .tc main_arg15)) (W (Proc.devRef .tc main_arg16)) := by
  after_results_simp
  rfl

theorem layer6_after (W : Valuation τ sig (Elt Ideal)) :
    after (layer6 (F := Ideal)) W (Proc.devRef .tc main_v160)
      = RefLayer.layer 6 slices_S12x4_S1x4_6_0 dot_S500000x152_S152x4_S500000x4_1_0_0_1_n_n
          concatenates_S500000x4_S500000x152_S500000x156_d1
          (W (Proc.devRef .tc main_v137)) (W (Proc.devRef .tc main_arg7))
          (W (Proc.devRef .tc main_arg13)) (W (Proc.devRef .tc main_arg14)) (W (Proc.devRef .tc main_arg15)) (W (Proc.devRef .tc main_arg16)) := by
  after_results_simp
  rfl

theorem layer7_after (W : Valuation τ sig (Elt Ideal)) :
    after (layer7 (F := Ideal)) W (Proc.devRef .tc main_v183)
      = RefLayer.layer 7 slices_S12x4_S1x4_7_0 dot_S500000x156_S156x4_S500000x4_1_0_0_1_n_n
          concatenates_S500000x4_S500000x156_S500000x160_d1
          (W (Proc.devRef .tc main_v160)) (W (Proc.devRef .tc main_arg8))
          (W (Proc.devRef .tc main_arg13)) (W (Proc.devRef .tc main_arg14)) (W (Proc.devRef .tc main_arg15)) (W (Proc.devRef .tc main_arg16)) := by
  after_results_simp
  rfl

theorem layer8_after (W : Valuation τ sig (Elt Ideal)) :
    after (layer8 (F := Ideal)) W (Proc.devRef .tc main_v206)
      = RefLayer.layer 8 slices_S12x4_S1x4_8_0 dot_S500000x160_S160x4_S500000x4_1_0_0_1_n_n
          concatenates_S500000x4_S500000x160_S500000x164_d1
          (W (Proc.devRef .tc main_v183)) (W (Proc.devRef .tc main_arg9))
          (W (Proc.devRef .tc main_arg13)) (W (Proc.devRef .tc main_arg14)) (W (Proc.devRef .tc main_arg15)) (W (Proc.devRef .tc main_arg16)) := by
  after_results_simp
  rfl

theorem layer9_after (W : Valuation τ sig (Elt Ideal)) :
    after (layer9 (F := Ideal)) W (Proc.devRef .tc main_v229)
      = RefLayer.layer 9 slices_S12x4_S1x4_9_0 dot_S500000x164_S164x4_S500000x4_1_0_0_1_n_n
          concatenates_S500000x4_S500000x164_S500000x168_d1
          (W (Proc.devRef .tc main_v206)) (W (Proc.devRef .tc main_arg10))
          (W (Proc.devRef .tc main_arg13)) (W (Proc.devRef .tc main_arg14)) (W (Proc.devRef .tc main_arg15)) (W (Proc.devRef .tc main_arg16)) := by
  after_results_simp
  rfl

theorem layer10_after (W : Valuation τ sig (Elt Ideal)) :
    after (layer10 (F := Ideal)) W (Proc.devRef .tc main_v252)
      = RefLayer.layer 10 slices_S12x4_S1x4_10_0 dot_S500000x168_S168x4_S500000x4_1_0_0_1_n_n
          concatenates_S500000x4_S500000x168_S500000x172_d1
          (W (Proc.devRef .tc main_v229)) (W (Proc.devRef .tc main_arg11))
          (W (Proc.devRef .tc main_arg13)) (W (Proc.devRef .tc main_arg14)) (W (Proc.devRef .tc main_arg15)) (W (Proc.devRef .tc main_arg16)) := by
  after_results_simp
  rfl

theorem layer11_after (W : Valuation τ sig (Elt Ideal)) :
    after (layer11 (F := Ideal)) W (Proc.devRef .tc main_v275)
      = RefLayer.layer 11 slices_S12x4_S1x4_11_0 dot_S500000x172_S172x4_S500000x4_1_0_0_1_n_n
          concatenates_S500000x4_S500000x172_S500000x176_d1
          (W (Proc.devRef .tc main_v252)) (W (Proc.devRef .tc main_arg12))
          (W (Proc.devRef .tc main_arg13)) (W (Proc.devRef .tc main_arg14)) (W (Proc.devRef .tc main_arg15)) (W (Proc.devRef .tc main_arg16)) := by
  after_results_simp
  rfl

theorem tail_after (W : Valuation τ sig (Elt Ideal)) :
    after (tail (F := Ideal)) W (Proc.devRef .tc main_v290)
      = RefTail.tailFn dot_S500000x176_S176x2_S500000x2_1_0_0_1_n_n
          (W (Proc.devRef .tc main_v275)) (W (Proc.devRef .tc main_arg17)) (W (Proc.devRef .tc main_arg18)) := by
  after_results_simp
  rfl

end Cert.RefSteps

end
-- ==== Proof.RefGrow.lean ====
/-
  One layer of the reference carries the growing vectors of the dense stack one step on.

  If row `R` of the layer's input holds the stack's vector after `i` layers (`DenseStack.grow … i`, width `128 + 4 i`)
  and the layer's weight is the stack's `i`-th, row `R` of the layer's result holds the vector after `i + 1` layers.
-/
import proofs.«124183_j12403865551019_2_alg».proof.Proof.RefLayer
import proofs.«124183_j12403865551019_2_alg».proof.Proof.DenseStack
import proofs.«124183_j12403865551019_2_alg».proof.Proof.Spec
import Mathlib.Algebra.BigOperators.Fin

noncomputable section

open scoped BigOperators

namespace Cert.RefGrow

open Idealize.ShloMosaic Idealize.ShloMosaic.ValueIdx Cert.RefLayer

theorem layer_grow {n n' : ℕ} (i : ℕ) (hn : n = 128 + 4 * i) (hn' : n' = n + 4) (hi : i < 12)
    (hs : S12x4.Slices ![i, 0] S1x4) (d : DotDims ⟨2, ![500000, n]⟩ ⟨2, ![n, 4]⟩ SRx4)
    (hcat : Shape.Concatenates [SRx4, ⟨2, ![500000, n]⟩] ⟨2, ![500000, n']⟩ 1)
    (hlc : d.lhsContracting = [1]) (hrc : d.rhsContracting = [0])
    (hln : d.lhsNonContracting = [0]) (hrn : d.rhsNonContracting = [1])
    (hlb : d.lhsBatch = []) (hrb : d.rhsBatch = [])
    (h : FVec Ideal ⟨2, ![500000, n]⟩ .f32) (w : FVec Ideal ⟨2, ![n, 4]⟩ .f32) (G B M V : FVec Ideal S12x4 .f32)
    (x : ℕ → EReal) (wA : ℕ → ℕ → ℕ → EReal) (R : Fin 500000)
    (hh : ∀ k : Fin n, h (ix2 R k) = DenseStack.grow x wA (Spec.act G B M V) i k.val)
    (hw : ∀ (j : Fin n) (u : Fin 4), w (ix2 j u) = wA i j.val u.val) (k : Fin n') :
    layer i hs d hcat h w G B M V (ix2 R k) = DenseStack.grow x wA (Spec.act G B M V) (i + 1) k.val := by
  rw [DenseStack.grow_succ]
  by_cases hk : k.val < 4
  · rw [if_pos hk, layer_apply_lt i hs d hcat h w G B M V R k hk,
      fresh_apply i hs d hlc hrc hln hrn hlb hrb hi h w G B M V R ⟨k.val, hk⟩]
    refine congrArg (Spec.act G B M V i k.val) ?_
    rw [← hn, ← Fin.sum_univ_eq_sum_range (fun j => DenseStack.grow x wA (Spec.act G B M V) i j * wA i j k.val) n]
    exact Finset.sum_congr rfl fun j _ => by rw [hh j, hw j ⟨k.val, hk⟩]
  · have hk' : k.val - 4 < n := by have := k.isLt; omega
    rw [if_neg hk, layer_apply_ge i hs d hcat h w G B M V R k (by omega) hk']
    exact hh ⟨k.val - 4, hk'⟩

end Cert.RefGrow

end
-- ==== Proof.RefValue.lean ====
/-
  The reference's result, read at an index, is the common specification.

  Row `R` of the buffer each layer's chunk ends on is the dense stack's growing vector (`DenseStack.grow`) after that
  many layers, by induction along the twelve chunks: every chunk reads only the previous chunk's last buffer and
  arguments of the program, which no operation writes.  The last chunk turns the twelfth vector into the two logits
  and their softmax, which is `Spec.out`.
-/
import proofs.«124183_j12403865551019_2_alg».proof.Proof.RefChain
import proofs.«124183_j12403865551019_2_alg».proof.Proof.RefSteps
import proofs.«124183_j12403865551019_2_alg».proof.Proof.RefGrow
import proofs.«124183_j12403865551019_2_alg».proof.Proof.Spec

noncomputable section

open scoped BigOperators

namespace Cert.RefValue

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx Cert.RefChain

section Stages

variable (m : (ℓ : Loc nD τ sig) → Buf (Elt Ideal) ℓ) (c : Dev nD) (R : Fin 500000)

/-- The dense stack's vector for row `R` after `i` layers, from the arguments at launch. -/
abbrev g (i k : ℕ) : EReal :=
  DenseStack.grow (Spec.xrow (m ((c.tc : Thread nD τ).loc main_arg0)) R)
    (Spec.wAt (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
    (Spec.act (m ((c.tc : Thread nD τ).loc main_arg13)) (m ((c.tc : Thread nD τ).loc main_arg14)) (m ((c.tc : Thread nD τ).loc main_arg15)) (m ((c.tc : Thread nD τ).loc main_arg16))) i k

theorem stage0 (k : Fin 128) :
    launchContents m c (Proc.devRef .tc main_arg0) (ix2 R k) = g m c R 0 k.val := by
  show _ = Spec.xrow (m ((c.tc : Thread nD τ).loc main_arg0)) R k.val
  unfold Spec.xrow
  rw [dif_pos k.isLt]

theorem stage1 (W : Valuation τ sig (Elt Ideal)) (hK : Kept (launchContents m c) W)
    (hS : ∀ k : Fin 128, W (Proc.devRef .tc main_arg0) (ix2 R k) = g m c R 0 k.val) (k : Fin 132) :
    after (layer0 (F := Ideal)) W (Proc.devRef .tc main_v22) (ix2 R k) = g m c R 1 k.val := by
  rw [RefSteps.layer0_after W, hK _ kept_main_arg1, hK _ kept_main_arg13, hK _ kept_main_arg14, hK _ kept_main_arg15,
    hK _ kept_main_arg16]
  exact RefGrow.layer_grow (n := 128) (n' := 132) 0 rfl rfl (by decide) _ _ _ rfl rfl rfl rfl rfl rfl _ _ _ _ _ _ _ _ R hS
    (fun j u => by rw [Spec.wAt, dif_pos (And.intro j.isLt u.isLt)]) k

theorem stage2 (W : Valuation τ sig (Elt Ideal)) (hK : Kept (launchContents m c) W)
    (hS : ∀ k : Fin 132, W (Proc.devRef .tc main_v22) (ix2 R k) = g m c R 1 k.val) (k : Fin 136) :
    after (layer1 (F := Ideal)) W (Proc.devRef .tc main_v45) (ix2 R k) = g m c R 2 k.val := by
  rw [RefSteps.layer1_after W, hK _ kept_main_arg2, hK _ kept_main_arg13, hK _ kept_main_arg14, hK _ kept_main_arg15,
    hK _ kept_main_arg16]
  exact RefGrow.layer_grow (n := 132) (n' := 136) 1 rfl rfl (by decide) _ _ _ rfl rfl rfl rfl rfl rfl _ _ _ _ _ _ _ _ R hS
    (fun j u => by rw [Spec.wAt, dif_pos (And.intro j.isLt u.isLt)]) k

theorem stage3 (W : Valuation τ sig (Elt Ideal)) (hK : Kept (launchContents m c) W)
    (hS : ∀ k : Fin 136, W (Proc.devRef .tc main_v45) (ix2 R k) = g m c R 2 k.val) (k : Fin 140) :
    after (layer2 (F := Ideal)) W (Proc.devRef .tc main_v68) (ix2 R k) = g m c R 3 k.val := by
  rw [RefSteps.layer2_after W, hK _ kept_main_arg3, hK _ kept_main_arg13, hK _ kept_main_arg14, hK _ kept_main_arg15,
    hK _ kept_main_arg16]
  exact RefGrow.layer_grow (n := 136) (n' := 140) 2 rfl rfl (by decide) _ _ _ rfl rfl rfl rfl rfl rfl _ _ _ _ _ _ _ _ R hS
    (fun j u => by rw [Spec.wAt, dif_pos (And.intro j.isLt u.isLt)]) k

theorem stage4 (W : Valuation τ sig (Elt Ideal)) (hK : Kept (launchContents m c) W)
    (hS : ∀ k : Fin 140, W (Proc.devRef .tc main_v68) (ix2 R k) = g m c R 3 k.val) (k : Fin 144) :
    after (layer3 (F := Ideal)) W (Proc.devRef .tc main_v91) (ix2 R k) = g m c R 4 k.val := by
  rw [RefSteps.layer3_after W, hK _ kept_main_arg4, hK _ kept_main_arg13, hK _ kept_main_arg14, hK _ kept_main_arg15,
    hK _ kept_main_arg16]
  exact RefGrow.layer_grow (n := 140) (n' := 144) 3 rfl rfl (by decide) _ _ _ rfl rfl rfl rfl rfl rfl _ _ _ _ _ _ _ _ R hS
    (fun j u => by rw [Spec.wAt, dif_pos (And.intro j.isLt u.isLt)]) k

theorem stage5 (W : Valuation τ sig (Elt Ideal)) (hK : Kept (launchContents m c) W)
    (hS : ∀ k : Fin 144, W (Proc.devRef .tc main_v91) (ix2 R k) = g m c R 4 k.val) (k : Fin 148) :
    after (layer4 (F := Ideal)) W (Proc.devRef .tc main_v114) (ix2 R k) = g m c R 5 k.val := by
  rw [RefSteps.layer4_after W, hK _ kept_main_arg5, hK _ kept_main_arg13, hK _ kept_main_arg14, hK _ kept_main_arg15,
    hK _ kept_main_arg16]
  exact RefGrow.layer_grow (n := 144) (n' := 148) 4 rfl rfl (by decide) _ _ _ rfl rfl rfl rfl rfl rfl _ _ _ _ _ _ _ _ R hS
    (fun j u => by rw [Spec.wAt, dif_pos (And.intro j.isLt u.isLt)]) k

theorem stage6 (W : Valuation τ sig (Elt Ideal)) (hK : Kept (launchContents m c) W)
    (hS : ∀ k : Fin 148, W (Proc.devRef .tc main_v114) (ix2 R k) = g m c R 5 k.val) (k : Fin 152) :
    after (layer5 (F := Ideal)) W (Proc.devRef .tc main_v137) (ix2 R k) = g m c R 6 k.val := by
  rw [RefSteps.layer5_after W, hK _ kept_main_arg6, hK _ kept_main_arg13, hK _ kept_main_arg14, hK _ kept_main_arg15,
    hK _ kept_main_arg16]
  exact RefGrow.layer_grow (n := 148) (n' := 152) 5 rfl rfl (by decide) _ _ _ rfl rfl rfl rfl rfl rfl _ _ _ _ _ _ _ _ R hS
    (fun j u => by rw [Spec.wAt, dif_pos (And.intro j.isLt u.isLt)]) k

theorem stage7 (W : Valuation τ sig (Elt Ideal)) (hK : Kept (launchContents m c) W)
    (hS : ∀ k : Fin 152, W (Proc.devRef .tc main_v137) (ix2 R k) = g m c R 6 k.val) (k : Fin 156) :
    after (layer6 (F := Ideal)) W (Proc.devRef .tc main_v160) (ix2 R k) = g m c R 7 k.val := by
  rw [RefSteps.layer6_after W, hK _ kept_main_arg7, hK _ kept_main_arg13, hK _ kept_main_arg14, hK _ kept_main_arg15,
    hK _ kept_main_arg16]
  exact RefGrow.layer_grow (n := 152) (n' := 156) 6 rfl rfl (by decide) _ _ _ rfl rfl rfl rfl rfl rfl _ _ _ _ _ _ _ _ R hS
    (fun j u => by rw [Spec.wAt, dif_pos (And.intro j.isLt u.isLt)]) k

theorem stage8 (W : Valuation τ sig (Elt Ideal)) (hK : Kept (launchContents m c) W)
    (hS : ∀ k : Fin 156, W (Proc.devRef .tc main_v160) (ix2 R k) = g m c R 7 k.val) (k : Fin 160) :
    after (layer7 (F := Ideal)) W (Proc.devRef .tc main_v183) (ix2 R k) = g m c R 8 k.val := by
  rw [RefSteps.layer7_after W, hK _ kept_main_arg8, hK _ kept_main_arg13, hK _ kept_main_arg14, hK _ kept_main_arg15,
    hK _ kept_main_arg16]
  exact RefGrow.layer_grow (n := 156) (n' := 160) 7 rfl rfl (by decide) _ _ _ rfl rfl rfl rfl rfl rfl _ _ _ _ _ _ _ _ R hS
    (fun j u => by rw [Spec.wAt, dif_pos (And.intro j.isLt u.isLt)]) k

theorem stage9 (W : Valuation τ sig (Elt Ideal)) (hK : Kept (launchContents m c) W)
    (hS : ∀ k : Fin 160, W (Proc.devRef .tc main_v183) (ix2 R k) = g m c R 8 k.val) (k : Fin 164) :
    after (layer8 (F := Ideal)) W (Proc.devRef .tc main_v206) (ix2 R k) = g m c R 9 k.val := by
  rw [RefSteps.layer8_after W, hK _ kept_main_arg9, hK _ kept_main_arg13, hK _ kept_main_arg14, hK _ kept_main_arg15,
    hK _ kept_main_arg16]
  exact RefGrow.layer_grow (n := 160) (n' := 164) 8 rfl rfl (by decide) _ _ _ rfl rfl rfl rfl rfl rfl _ _ _ _ _ _ _ _ R hS
    (fun j u => by rw [Spec.wAt, dif_pos (And.intro j.isLt u.isLt)]) k

theorem stage10 (W : Valuation τ sig (Elt Ideal)) (hK : Kept (launchContents m c) W)
    (hS : ∀ k : Fin 164, W (Proc.devRef .tc main_v206) (ix2 R k) = g m c R 9 k.val) (k : Fin 168) :
    after (layer9 (F := Ideal)) W (Proc.devRef .tc main_v229) (ix2 R k) = g m c R 10 k.val := by
  rw [RefSteps.layer9_after W, hK _ kept_main_arg10, hK _ kept_main_arg13, hK _ kept_main_arg14, hK _ kept_main_arg15,
    hK _ kept_main_arg16]
  exact RefGrow.layer_grow (n := 164) (n' := 168) 9 rfl rfl (by decide) _ _ _ rfl rfl rfl rfl rfl rfl _ _ _ _ _ _ _ _ R hS
    (fun j u => by rw [Spec.wAt, dif_pos (And.intro j.isLt u.isLt)]) k

theorem stage11 (W : Valuation τ sig (Elt Ideal)) (hK : Kept (launchContents m c) W)
    (hS : ∀ k : Fin 168, W (Proc.devRef .tc main_v229) (ix2 R k) = g m c R 10 k.val) (k : Fin 172) :
    after (layer10 (F := Ideal)) W (Proc.devRef .tc main_v252) (ix2 R k) = g m c R 11 k.val := by
  rw [RefSteps.layer10_after W, hK _ kept_main_arg11, hK _ kept_main_arg13, hK _ kept_main_arg14, hK _ kept_main_arg15,
    hK _ kept_main_arg16]
  exact RefGrow.layer_grow (n := 168) (n' := 172) 10 rfl rfl (by decide) _ _ _ rfl rfl rfl rfl rfl rfl _ _ _ _ _ _ _ _ R hS
    (fun j u => by rw [Spec.wAt, dif_pos (And.intro j.isLt u.isLt)]) k

theorem stage12 (W : Valuation τ sig (Elt Ideal)) (hK : Kept (launchContents m c) W)
    (hS : ∀ k : Fin 172, W (Proc.devRef .tc main_v252) (ix2 R k) = g m c R 11 k.val) (k : Fin 176) :
    after (layer11 (F := Ideal)) W (Proc.devRef .tc main_v275) (ix2 R k) = g m c R 12 k.val := by
  rw [RefSteps.layer11_after W, hK _ kept_main_arg12, hK _ kept_main_arg13, hK _ kept_main_arg14, hK _ kept_main_arg15,
    hK _ kept_main_arg16]
  exact RefGrow.layer_grow (n := 172) (n' := 176) 11 rfl rfl (by decide) _ _ _ rfl rfl rfl rfl rfl rfl _ _ _ _ _ _ _ _ R hS
    (fun j u => by rw [Spec.wAt, dif_pos (And.intro j.isLt u.isLt)]) k

theorem stageTail (W : Valuation τ sig (Elt Ideal)) (hK : Kept (launchContents m c) W)
    (hS : ∀ k : Fin 176, W (Proc.devRef .tc main_v275) (ix2 R k) = g m c R 12 k.val) (u : Fin 2) :
    after (tail (F := Ideal)) W (Proc.devRef .tc main_v290) (ix2 R u)
      = Spec.out (m ((c.tc : Thread nD τ).loc main_arg0))
          (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
          (m ((c.tc : Thread nD τ).loc main_arg13)) (m ((c.tc : Thread nD τ).loc main_arg14)) (m ((c.tc : Thread nD τ).loc main_arg15)) (m ((c.tc : Thread nD τ).loc main_arg16))
          (m ((c.tc : Thread nD τ).loc main_arg17)) (m ((c.tc : Thread nD τ).loc main_arg18)) R u := by
  rw [RefSteps.tail_after W, hK _ kept_main_arg17, hK _ kept_main_arg18,
    RefTail.tailFn_apply _ rfl rfl rfl rfl rfl rfl]
  refine congrArg (Spec.softmax2 · u) (funext fun v => ?_)
  refine congrArg (· + _) (Finset.sum_congr rfl fun k _ => ?_)
  rw [hS k]
  rfl

end Stages

/-- The reference's result at `(R, u)` is the specification's value there. -/
theorem res_eq (m : (ℓ : Loc nD τ sig) → Buf (Elt Ideal) ℓ) (c : Dev nD) (R : Fin 500000) (u : Fin 2) :
    res_main_v290 (F := Ideal) m c (ix2 R u)
      = Spec.out (m ((c.tc : Thread nD τ).loc main_arg0))
          (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
          (m ((c.tc : Thread nD τ).loc main_arg13)) (m ((c.tc : Thread nD τ).loc main_arg14)) (m ((c.tc : Thread nD τ).loc main_arg15)) (m ((c.tc : Thread nD τ).loc main_arg16))
          (m ((c.tc : Thread nD τ).loc main_arg17)) (m ((c.tc : Thread nD τ).loc main_arg18)) R u := by
  unfold res_main_v290
  rw [after_ops]
  have K0 := Kept.refl (launchContents m c)
  have K1 := K0.step (layer0_mem (F := Ideal))
  have K2 := K1.step (layer1_mem (F := Ideal))
  have K3 := K2.step (layer2_mem (F := Ideal))
  have K4 := K3.step (layer3_mem (F := Ideal))
  have K5 := K4.step (layer4_mem (F := Ideal))
  have K6 := K5.step (layer5_mem (F := Ideal))
  have K7 := K6.step (layer6_mem (F := Ideal))
  have K8 := K7.step (layer7_mem (F := Ideal))
  have K9 := K8.step (layer8_mem (F := Ideal))
  have K10 := K9.step (layer9_mem (F := Ideal))
  have K11 := K10.step (layer10_mem (F := Ideal))
  have K12 := K11.step (layer11_mem (F := Ideal))
  have S0 := stage0 m c R
  have S1 := stage1 m c R _ K0 S0
  have S2 := stage2 m c R _ K1 S1
  have S3 := stage3 m c R _ K2 S2
  have S4 := stage4 m c R _ K3 S3
  have S5 := stage5 m c R _ K4 S4
  have S6 := stage6 m c R _ K5 S5
  have S7 := stage7 m c R _ K6 S6
  have S8 := stage8 m c R _ K7 S7
  have S9 := stage9 m c R _ K8 S8
  have S10 := stage10 m c R _ K9 S9
  have S11 := stage11 m c R _ K10 S10
  have S12 := stage12 m c R _ K11 S11
  exact stageTail m c R _ K12 S12 u

end Cert.RefValue

end
-- ==== Proof.lean ====
/-
  A densely connected stack, the kernel against its reference, over the extended reals.

  Both programs send a row of `x` through twelve layers `y_i = max ((h_i · w_i) * scale_i + shift_i) 0`,
  `scale_i = gamma_i * rsqrt (var_i + 1e-3)`, `shift_i = beta_i - mean_i * scale_i`, `h_{i+1} = [y_i, h_i]`, and end
  with a two-way softmax of `h_12 · wf + bf` (Proof/Spec.lean states this once, as `Spec.out` of the nineteen
  arrays).  The reference grows `h` by concatenation.  The kernel keeps one buffer of 176 columns per row — 48 zero
  columns in front of `x`, each layer's four results stored just in front of what is there — and multiplies the whole
  buffer by the layer's weight with as many zero rows in front; a product with a zero factor is zero on the extended
  reals whatever the other factor, so the two contractions agree (Proof/DenseStack.lean), and no step uses that the
  inputs are finite.  The kernel's roundings to bf16 are the identity at the ideal instance: `preserves` has no
  conjunct.

  The frames.  For the two kernel programs: @main up to the region (the padded weight stack built on the host),
  one symbolic run of the body, and the frame run through the 50 grid points (Proof/Launch*, Body*, Frame*); the
  scratch is refilled at every point, so the region carries nothing from point to point.  For the reference: its
  330 host operations run in order (Proof/RefRun.lean).
  The values.  Proof/KLayer … KFinal: the kernel's result array is `Spec.out` of the launch arrays;
  Proof/RefLayer … RefValue: so is the reference's.  `algebraic` puts the two together on memories that agree on
  the arguments.
-/
import proofs.«124183_j12403865551019_2_alg».proof.Defs
import proofs.«124183_j12403865551019_2_alg».proof.Proof.Gen.Kernel
import proofs.«124183_j12403865551019_2_alg».proof.Proof.Gen.KernelIdeal
import proofs.«124183_j12403865551019_2_alg».proof.Proof.Gen.ReferenceIdeal
import proofs.«124183_j12403865551019_2_alg».proof.Proof.Gen.Pre_finite_inputs
import proofs.«124183_j12403865551019_2_alg».proof.Proof.FrameK
import proofs.«124183_j12403865551019_2_alg».proof.Proof.KFinal
import proofs.«124183_j12403865551019_2_alg».proof.Proof.RefRun
import proofs.«124183_j12403865551019_2_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k [Cert.Kernel.Facts] [Cert.Pre_finite_inputs.Facts] : Cert.frame_Kernel :=
  fun m ρ _ => Cert.Kernel.Hand.frame m ρ
theorem frame_ki [Cert.KernelIdeal.Facts] [Cert.Pre_finite_inputs.Facts] : Cert.frame_KernelIdeal :=
  fun m ρ _ => Cert.KernelIdeal.Hand.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: Spec.out of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Hand.Gout m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  funext i
  obtain ⟨R, u, rfl⟩ : ∃ (R : Fin 500000) (u : Fin 2), i = ix2 (n0 := 500000) (n1 := 2) R u := ⟨i 0, i 1, eq_ix2 i⟩
  show Cert.ReferenceIdeal.Value.res_main_v290 (F := Ideal) m' c (ix2 (n0 := 500000) (n1 := 2) R u)
      = Cert.KernelIdeal.Hand.Gout m c (ix2 (n0 := 500000) (n1 := 2) R u)
  rw [Cert.RefValue.res_eq m' c R u, Cert.KernelIdeal.Hand.Gout_ix2, h0, h1, h2, h3, h4, h5, h6, h7, h8, h9, h10, h11, h12, h13, h14, h15, h16, h17, h18]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
